-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S64x128 : Shape := ⟨2, ![64, 128]⟩
abbrev S64 : Shape := ⟨1, ![64]⟩
abbrev S3x64x64 : Shape := ⟨3, ![3, 64, 64]⟩
abbrev S3x64 : Shape := ⟨2, ![3, 64]⟩
abbrev S2x64 : Shape := ⟨2, ![2, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg9 : FVec F S2x64 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  main_v38

def fn_part1 {F : FTy → Type} [FloatOps F] (main_arg6 : FVec F S3x64x64 .f32) (main_arg7 : FVec F S3x64 .f32) (main_arg8 : FVec F S2x64 .f32) (main_arg9 : FVec F S2x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x1600000 32) (main_arg2 : IVec S50000 32) (main_arg3 : FVec F S64x128 .f32) (main_arg4 : FVec F S64 .f32) (main_arg5 : FVec F S3x64x64 .f32) (main_arg6 : FVec F S3x64x64 .f32) (main_arg7 : FVec F S3x64 .f32) (main_arg8 : FVec F S2x64 .f32) (main_arg9 : FVec F S2x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S64x128 : Shape := ⟨2, ![64, 128]⟩
abbrev S64 : Shape := ⟨1, ![64]⟩
abbrev S3x64x64 : Shape := ⟨3, ![3, 64, 64]⟩
abbrev S3x64 : Shape := ⟨2, ![3, 64]⟩
abbrev S2x64 : Shape := ⟨2, ![2, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x64 : Shape := ⟨2, ![50000, 64]⟩
abbrev S5000x128 : Shape := ⟨2, ![5000, 128]⟩
abbrev S5000x64 : Shape := ⟨2, ![5000, 64]⟩
abbrev S128x64 : Shape := ⟨2, ![128, 64]⟩
abbrev S1x64 : Shape := ⟨2, ![1, 64]⟩
abbrev S1600000x64 : Shape := ⟨2, ![1600000, 64]⟩
abbrev S50000x1 : Shape := ⟨2, ![50000, 1]⟩
abbrev S1x64x64 : Shape := ⟨3, ![1, 64, 64]⟩
abbrev S64x64 : Shape := ⟨2, ![64, 64]⟩
abbrev S5000 : Shape := ⟨1, ![5000]⟩
abbrev S5000x1 : Shape := ⟨2, ![5000, 1]⟩

abbrev nBuf : Space → Nat
  | .hbm => 106
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S64x128, .f32⟩
  | .hbm, ⟨4, _⟩ => ⟨S64, .f32⟩
  | .hbm, ⟨5, _⟩ => ⟨S3x64x64, .f32⟩
  | .hbm, ⟨6, _⟩ => ⟨S3x64x64, .f32⟩
  | .hbm, ⟨7, _⟩ => ⟨S3x64, .f32⟩
  | .hbm, ⟨8, _⟩ => ⟨S2x64, .f32⟩
  | .hbm, ⟨9, _⟩ => ⟨S2x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x64, .f32⟩
  | .hbm, ⟨27, _⟩ => ⟨S_, .f32⟩
  | .hbm, ⟨28, _⟩ => ⟨S64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S50000x64, .f32⟩
  | .hbm, ⟨40, _⟩ => ⟨S1600000x1, .i32⟩
  | .hbm, ⟨41, _⟩ => ⟨S50000x64, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S64, .f32⟩
  | .hbm, ⟨49, _⟩ => ⟨S1x64x64, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S1x64, .f32⟩
  | .hbm, ⟨54, _⟩ => ⟨S64, .f32⟩
  | .hbm, ⟨55, _⟩ => ⟨S50000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S50000x64, .f32⟩
  | .hbm, ⟨67, _⟩ => ⟨S1600000x1, .i32⟩
  | .hbm, ⟨68, _⟩ => ⟨S50000x64, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S64, .f32⟩
  | .hbm, ⟨74, _⟩ => ⟨S1x64, .f32⟩
  | .hbm, ⟨75, _⟩ => ⟨S64, .f32⟩
  | .hbm, ⟨76, _⟩ => ⟨S1x64x64, .f32⟩
  | .hbm, ⟨77, _⟩ => ⟨S64x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S50000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S50000x64, .f32⟩
  | .hbm, ⟨94, _⟩ => ⟨S1600000x1, .i32⟩
  | .hbm, ⟨95, _⟩ => ⟨S50000x64, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S1x64x64, .f32⟩
  | .hbm, ⟨100, _⟩ => ⟨S64x64, .f32⟩
  | .hbm, ⟨101, _⟩ => ⟨S1x64x64, .f32⟩
  | .hbm, ⟨102, _⟩ => ⟨S64x64, .f32⟩
  | .hbm, ⟨103, _⟩ => ⟨S1x64, .f32⟩
  | .hbm, ⟨104, _⟩ => ⟨S64, .f32⟩
  | .hbm, ⟨105, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64x64, .f32⟩
  | .local _ .vmem, ⟨34, _⟩ => ⟨S64, .f32⟩
  | .local _ .vmem, ⟨35, _⟩ => ⟨S64, .f32⟩
  | .local _ .vmem, ⟨36, _⟩ => ⟨S64, .f32⟩
  | .local _ .vmem, ⟨37, _⟩ => ⟨S5000x64, .f32⟩
  | .local _ .vmem, ⟨38, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_9 : Ref sig .tc := ⟨.hbm, 83, rfl⟩
abbrev main_v62 : Ref sig .tc := ⟨.hbm, 84, rfl⟩
abbrev main_v63 : Ref sig .tc := ⟨.hbm, 85, rfl⟩
abbrev main_c_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64 : S_.BroadcastsInDim S64 (![] : Fin 0 → Fin S64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S2x64_S1x64_0_0 : S2x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  shapeCasts_S64_S64 : S64.ShapeCasts S64
  reduces_S5000x64_S5000 : S5000x64.Reduces [1] S5000
  shapeCasts_S5000_S5000x1 : S5000.ShapeCasts S5000x1
  broadcasts_S5000x1_S5000x64 : S5000x1.Broadcasts S5000x64
  slices_S2x64_S1x64_1_0 : S2x64.Slices ![1, 0] S1x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S50000_S1600000x1_S1600000_n_0_0_1_wf : ScatterDims.WF S50000 S1600000x1 S1600000 [] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S64x128 : Shape := ⟨2, ![64, 128]⟩
abbrev S64 : Shape := ⟨1, ![64]⟩
abbrev S3x64x64 : Shape := ⟨3, ![3, 64, 64]⟩
abbrev S3x64 : Shape := ⟨2, ![3, 64]⟩
abbrev S2x64 : Shape := ⟨2, ![2, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S128x64 : Shape := ⟨2, ![128, 64]⟩
abbrev S50000x64 : Shape := ⟨2, ![50000, 64]⟩
abbrev S1x64 : Shape := ⟨2, ![1, 64]⟩
abbrev S1600000x64 : Shape := ⟨2, ![1600000, 64]⟩
abbrev S50000x1 : Shape := ⟨2, ![50000, 1]⟩
abbrev S1x64x64 : Shape := ⟨3, ![1, 64, 64]⟩
abbrev S64x64 : Shape := ⟨2, ![64, 64]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S64x128, .f32⟩
  | 4 => ⟨S64, .f32⟩
  | 5 => ⟨S3x64x64, .f32⟩
  | 6 => ⟨S3x64x64, .f32⟩
  | 7 => ⟨S3x64, .f32⟩
  | 8 => ⟨S2x64, .f32⟩
  | 9 => ⟨S2x64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S128x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .f32⟩
  | 44 => ⟨S50000x64, .f32⟩
  | 45 => ⟨S1600000x1, .i32⟩
  | 46 => ⟨S50000x64, .f32⟩
  | 47 => ⟨S50000x1, .f32⟩
  | 48 => ⟨S50000x64, .f32⟩
  | 49 => ⟨S50000x64, .f32⟩
  | 50 => ⟨S1x64x64, .f32⟩
  | 51 => ⟨S64x64, .f32⟩
  | 52 => ⟨S64x64, .f32⟩
  | 53 => ⟨S50000x64, .f32⟩
  | 54 => ⟨S1x64x64, .f32⟩
  | 55 => ⟨S64x64, .f32⟩
  | 56 => ⟨S64x64, .f32⟩
  | 57 => ⟨S50000x64, .f32⟩
  | 58 => ⟨S50000x64, .f32⟩
  | 59 => ⟨S1x64, .f32⟩
  | 60 => ⟨S64, .f32⟩
  | 61 => ⟨S1x64, .f32⟩
  | 62 => ⟨S50000x64, .f32⟩
  | 63 => ⟨S50000x64, .f32⟩
  | 64 => ⟨S1x64, .f32⟩
  | 65 => ⟨S64, .f32⟩
  | 66 => ⟨S1x64, .f32⟩
  | 67 => ⟨S64, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x64, .f32⟩
  | 75 => ⟨S50000x64, .f32⟩
  | 76 => ⟨S50000x64, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x1, .f32⟩
  | 90 => ⟨S50000x1, .f32⟩
  | 91 => ⟨S50000x1, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S_, .f32⟩
  | 110 => ⟨S50000x64, .f32⟩
  | 111 => ⟨S1600000x1, .i32⟩
  | 112 => ⟨S50000x64, .f32⟩
  | 113 => ⟨S50000x1, .f32⟩
  | 114 => ⟨S50000x64, .f32⟩
  | 115 => ⟨S50000x64, .f32⟩
  | 116 => ⟨S1x64x64, .f32⟩
  | 117 => ⟨S64x64, .f32⟩
  | 118 => ⟨S64x64, .f32⟩
  | 119 => ⟨S50000x64, .f32⟩
  | 120 => ⟨S1x64x64, .f32⟩
  | 121 => ⟨S64x64, .f32⟩
  | 122 => ⟨S64x64, .f32⟩
  | 123 => ⟨S50000x64, .f32⟩
  | 124 => ⟨S50000x64, .f32⟩
  | 125 => ⟨S1x64, .f32⟩
  | 126 => ⟨S64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S1x64, .f32⟩
  | 3 => ⟨S64, .f32⟩
  | 4 => ⟨S1x64, .f32⟩
  | 5 => ⟨S64, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x64, .f32⟩
  | 13 => ⟨S50000x64, .f32⟩
  | 14 => ⟨S50000x64, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S50000x1, .f32⟩
  | 28 => ⟨S50000x1, .f32⟩
  | 29 => ⟨S50000x1, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S_, .f32⟩
  | 48 => ⟨S50000x64, .f32⟩
  | 49 => ⟨S1600000x1, .i32⟩
  | 50 => ⟨S50000x64, .f32⟩
  | 51 => ⟨S50000x1, .f32⟩
  | 52 => ⟨S50000x64, .f32⟩
  | 53 => ⟨S50000x64, .f32⟩
  | 54 => ⟨S1x64x64, .f32⟩
  | 55 => ⟨S64x64, .f32⟩
  | 56 => ⟨S64x64, .f32⟩
  | 57 => ⟨S50000x64, .f32⟩
  | 58 => ⟨S1x64x64, .f32⟩
  | 59 => ⟨S64x64, .f32⟩
  | 60 => ⟨S64x64, .f32⟩
  | 61 => ⟨S50000x64, .f32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_c_10 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_13 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_15 : Ref sig .tc := ⟨.hbm, 143, rfl⟩
abbrev main_v112 : Ref sig .tc := ⟨.hbm, 144, rfl⟩
abbrev main_v113 : Ref sig .tc := ⟨.hbm, 145, rfl⟩
abbrev main_cst_16 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_17 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_call2_cst : Ref sig .tc := ⟨.hbm, 163, rfl⟩
abbrev main_call2_v0 : Ref sig .tc := ⟨.hbm, 164, rfl⟩
abbrev main_v129 : Ref sig .tc := ⟨.hbm, 165, rfl⟩
abbrev main_c_18 : Ref sig .tc := ⟨.hbm, 166, rfl⟩
abbrev main_v130 : Ref sig .tc := ⟨.hbm, 167, rfl⟩
abbrev main_v131 : Ref sig .tc := ⟨.hbm, 168, rfl⟩
abbrev main_c_19 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_20 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  slices_S2x64_S1x64_0_0 : S2x64.Slices ![0, 0] S1x64
  reducesTo_S50000x64_S50000_d1 : S50000x64.ReducesTo [1] S50000
  h_S_ : 0 < S_.numel
  bcast_S_S50000x1 : S_.BroadcastsInDim S50000x1 (![] : Fin 0 → Fin S50000x1.rank)
  slices_S3x64x64_S1x64x64_1_0_0 : S3x64x64.Slices ![1, 0, 0] S1x64x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KB.Reg0.lean ====
/-
  The first region — the dense input layer on blocks of 5000 rows — as one step of the pipeline, at any entry
  contents `V`: a block of `x`, the whole of `W` and `b` come in, the body stores one block of the result, and
  nothing else is touched. What the result block holds is the body's one payload of the three input blocks.
-/
import proofs.«176669_j55628416418297_1_alg».proof.Proof.Gen.Kernel.Launch
import proofs.«176669_j55628416418297_1_alg».proof.Proof.Gen.Kernel.Skeleton
import proofs.«176669_j55628416418297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: every access is a whole buffer. -/
abbrev r0_x : Rect S5000x128 := Rect.unit (s := S5000x128) ![0, 0] S5000x128.size inb_S5000x128_S5000x128_0_0
abbrev r0_w : Rect S64x128 := Rect.unit (s := S64x128) ![0, 0] S64x128.size inb_S64x128_S64x128_0_0
abbrev r0_b : Rect S64 := Rect.unit (s := S64) ![0] S64.size inb_S64_S64_0
abbrev r0_o : Rect S5000x64 := Rect.unit (s := S5000x64) ![0, 0] S5000x64.size inb_S5000x64_S5000x64_0_0

/-- The result block after the body: its one store, of the payload of the three loads. -/
def out0_3 (x0 : Vec F S5000x128 .f32) (x1 : Vec F S64x128 .f32) (x2 : Vec F S64 .f32) : Vec F S5000x64 .f32 :=
  View.canon [⟨r0_o, k0_pay1 (View.ld x0 r0_x) (View.ld x1 r0_w) (View.ld x2 r0_b)⟩]

/-- The one store covers the block. -/
theorem cover0_3 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

set_option maxHeartbeats 1000000 in
/-- The body on whole staging buffers: the inputs stay, the result buffer ends at `out0_3` of the inputs. -/
theorem sound_kernel0 (c : Dev nD) (E : Set ℕ) (i : grid0.Coords) (arg1 : Memref sig .tc .vmem S5000x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S5000x64 .f32) (harg4 : arg4.IsWhole)
    (x0 : Vec F S5000x128 .f32) (x1 : Vec F S64x128 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as found; after the body each input's buffer at its block
    and the result's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Reg1.lean ====
/-
  A normalised graph layer as one step of the pipeline, at any entry contents `V`: a block of 5000 aggregated rows
  and the same block of the nodes' own rows come in with the two 64×64 weight matrices, the bias, the scale and the
  shift; the body stores one block of the result, and nothing else is touched. The result block is the body's last
  payload of the seven input blocks: the linear part, its row mean and variance, then scale, shift and clamp.
-/
import proofs.«176669_j55628416418297_1_alg».proof.Proof.Gen.Kernel.Launch
import proofs.«176669_j55628416418297_1_alg».proof.Proof.Gen.Kernel.Skeleton
import proofs.«176669_j55628416418297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: every access is a whole buffer. -/
abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S64 := Rect.unit (s := S64) ![0] S64.size inb_S64_S64_0

/-- The result block after the body: its one store, of the last payload over the payloads of the seven loads. -/
def out1_7 (x0 x1 : Vec F S5000x64 .f32) (x2 x3 : Vec F S64x64 .f32) (x4 x5 x6 : Vec F S64 .f32) : Vec F S5000x64 .f32 :=
  View.canon [⟨r1_a, k1_pay1
    (k1_pay4 (View.ld x0 r1_a) (View.ld x1 r1_a) (View.ld x2 r1_w) (View.ld x3 r1_w) (View.ld x4 r1_b) (View.ld x5 r1_b))
    (k1_pay5 (View.ld x0 r1_a) (View.ld x1 r1_a) (View.ld x2 r1_w) (View.ld x3 r1_w) (View.ld x4 r1_b))
    (View.ld x6 r1_b)⟩]

/-- The one store covers the block. -/
theorem cover1_7 (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

set_option maxHeartbeats 1000000 in
/-- The body on whole staging buffers: the inputs stay, the result buffer ends at `out1_7` of the inputs. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S5000x64 .f32) (harg8 : arg8.IsWhole)
    (x0 x1 : Vec F S5000x64 .f32) (x2 x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__kernel i arg1 harg1 arg2 harg2 arg3 harg3 arg4 harg4 arg5 harg5 arg6 harg6 arg7 harg7 arg8 harg8) K := by
  simp only [cc1__kernel_eq_skeleton]; unfold cc1__kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The region's proof data on core `c`: the arrays as found; after the body each input's buffer at its block
    and the result's at `out1_7` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Reg2.lean ====
/-
  A normalised graph layer as one step of the pipeline, at any entry contents `V`: a block of 5000 aggregated rows
  and the same block of the nodes' own rows come in with the two 64×64 weight matrices, the bias, the scale and the
  shift; the body stores one block of the result, and nothing else is touched. The result block is the body's last
  payload of the seven input blocks: the linear part, its row mean and variance, then scale, shift and clamp.
-/
import proofs.«176669_j55628416418297_1_alg».proof.Proof.Gen.Kernel.Launch
import proofs.«176669_j55628416418297_1_alg».proof.Proof.Gen.Kernel.Skeleton
import proofs.«176669_j55628416418297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body's rectangles: every access is a whole buffer. -/
abbrev r2_a : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S64 := Rect.unit (s := S64) ![0] S64.size inb_S64_S64_0

/-- The result block after the body: its one store, of the last payload over the payloads of the seven loads. -/
def out2_7 (x0 x1 : Vec F S5000x64 .f32) (x2 x3 : Vec F S64x64 .f32) (x4 x5 x6 : Vec F S64 .f32) : Vec F S5000x64 .f32 :=
  View.canon [⟨r2_a, k2_pay1
    (k2_pay4 (View.ld x0 r2_a) (View.ld x1 r2_a) (View.ld x2 r2_w) (View.ld x3 r2_w) (View.ld x4 r2_b) (View.ld x5 r2_b))
    (k2_pay5 (View.ld x0 r2_a) (View.ld x1 r2_a) (View.ld x2 r2_w) (View.ld x3 r2_w) (View.ld x4 r2_b))
    (View.ld x6 r2_b)⟩]

/-- The one store covers the block. -/
theorem cover2_7 (p0 : Vec F S5000x64 .f32) (y : S5000x64.Idx) :
    ∃ pc ∈ ([⟨r2_a, p0⟩] : List (View.Piece (Elt F) S5000x64 .f32)), y ∈ pc.1.set :=
  View.cover_of_tiled [⟨r2_a, p0⟩] S5000x64.size (by rfl) y

set_option maxHeartbeats 1000000 in
/-- The body on whole staging buffers: the inputs stay, the result buffer ends at `out2_7` of the inputs. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S5000x64 .f32) (harg8 : arg8.IsWhole)
    (x0 x1 : Vec F S5000x64 .f32) (x2 x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__kernel i arg1 harg1 arg2 harg2 arg3 harg3 arg4 harg4 arg5 harg5 arg6 harg6 arg7 harg7 arg8 harg8) K := by
  simp only [cc2__kernel_eq_skeleton]; unfold cc2__kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The region's proof data on core `c`: the arrays as found; after the body each input's buffer at its block
    and the result's at `out2_7` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Reg3.lean ====
/-
  The last graph layer as one step of the pipeline, at any entry contents `V`: a block of 5000 aggregated rows and
  the same block of the nodes' own rows come in with the two 64×64 weight matrices and the bias; two more vectors
  are staged and never read. The body stores one block of the result — the linear part, nothing after it — and
  nothing else is touched. The input windows' shares `q` are a parameter: two of them stage one array.
-/
import proofs.«176669_j55628416418297_1_alg».proof.Proof.Gen.Kernel.Launch
import proofs.«176669_j55628416418297_1_alg».proof.Proof.Gen.Kernel.Skeleton
import proofs.«176669_j55628416418297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The body's rectangles: every access is a whole buffer. -/
abbrev r3_a : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S64 := Rect.unit (s := S64) ![0] S64.size inb_S64_S64_0

/-- The result block after the body: its one store, of the payload of the five loads it makes. -/
def out3_7 (x0 x1 : Vec F S5000x64 .f32) (x2 x3 : Vec F S64x64 .f32) (x4 : Vec F S64 .f32) : Vec F S5000x64 .f32 :=
  View.canon [⟨r3_a, k3_pay1 (View.ld x0 r3_a) (View.ld x1 r3_a) (View.ld x2 r3_w) (View.ld x3 r3_w) (View.ld x4 r3_b)⟩]

/-- The one store covers the block. -/
theorem cover3_7 (p0 : Vec F S5000x64 .f32) (y : S5000x64.Idx) :
    ∃ pc ∈ ([⟨r3_a, p0⟩] : List (View.Piece (Elt F) S5000x64 .f32)), y ∈ pc.1.set :=
  View.cover_of_tiled [⟨r3_a, p0⟩] S5000x64.size (by rfl) y

set_option maxHeartbeats 1000000 in
/-- The body on whole staging buffers: the inputs stay, the result buffer ends at `out3_7` of the inputs. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S5000x64 .f32) (harg8 : arg8.IsWhole)
    (x0 x1 : Vec F S5000x64 .f32) (x2 x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4)) -∗ K ⟨⟩))
      ⊢ wp frame (wpE (defs₀ (F := F)) Variants.none c none) E (cc3__kernel i arg1 harg1 arg2 harg2 arg3 harg3 arg4 harg4 arg5 harg5 arg6 harg6 arg7 harg7 arg8 harg8) K := by
  simp only [cc3__kernel_eq_skeleton]; unfold cc3__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The region's proof data on core `c`: the arrays as found; after the body each input's buffer at its block
    and the result's at `out3_7` of the input blocks; nothing owed, full shares. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t)
  Φ _ := Pipeline.ΦA spec3 c
  q := q
  owed _ := 0

theorem A_eq3 (q : Fin cfg3.W → PosShare TreeShare) (c : Dev nD) (w : Fin cfg3.W) : (dat3 V q c).A w = V c (Pipeline.arrRef spec3 w) := by
  dsimp only [dat3]

theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = iblk3 V c 2 t := by dsimp only [dat3]
theorem after3_3 (q : Fin cfg3.W → PosShare TreeShare) (c : Dev nD) (t : Fin cfg3.N) : (dat3 V q c).after 3 t = iblk3 V c 3 t := by dsimp only [dat3]
theorem after3_4 (q : Fin cfg3.W → PosShare TreeShare) (c : Dev nD) (t : Fin cfg3.N) : (dat3 V q c).after 4 t = iblk3 V c 4 t := by dsimp only [dat3]
theorem after3_5 (q : Fin cfg3.W → PosShare TreeShare) (c : Dev nD) (t : Fin cfg3.N) : (dat3 V q c).after 5 t = iblk3 V c 5 t := by dsimp only [dat3]
theorem after3_6 (q : Fin cfg3.W → PosShare TreeShare) (c : Dev nD) (t : Fin cfg3.N) : (dat3 V q c).after 6 t = iblk3 V c 6 t := by dsimp only [dat3]
theorem after3_7 (q : Fin cfg3.W → PosShare TreeShare) (c : Dev nD) (t : Fin cfg3.N) : (dat3 V q c).after 7 t = out3_7 (iblk3 V c 0 t) (iblk3 V c 1 t) (iblk3 V c 2 t) (iblk3 V c 3 t) (iblk3 V c 4 t) := by dsimp only [dat3]

theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d
theorem before3_2 (q : Fin cfg3.W → PosShare TreeShare) (c : Dev nD) (t : Fin cfg3.N) (d) : (dat3 V q c).before 2 t d = iblk3 V c 2 t :=
  before3_2_of V (dat3 V q c) (A_eq3 V q c 2) (after3_2 V q c) t d
theorem before3_3 (q : Fin cfg3.W → PosShare TreeShare) (c : Dev nD) (t : Fin cfg3.N) (d) : (dat3 V q c).before 3 t d = iblk3 V c 3 t :=
  before3_3_of V (dat3 V q c) (A_eq3 V q c 3) (after3_3 V q c) t d
theorem before3_4 (q : Fin cfg3.W → PosShare TreeShare) (c : Dev nD) (t : Fin cfg3.N) (d) : (dat3 V q c).before 4 t d = iblk3 V c 4 t :=
  before3_4_of V (dat3 V q c) (A_eq3 V q c 4) (after3_4 V q c) t d
theorem before3_5 (q : Fin cfg3.W → PosShare TreeShare) (c : Dev nD) (t : Fin cfg3.N) (d) : (dat3 V q c).before 5 t d = iblk3 V c 5 t :=
  before3_5_of V (dat3 V q c) (A_eq3 V q c 5) (after3_5 V q c) t d
theorem before3_6 (q : Fin cfg3.W → PosShare TreeShare) (c : Dev nD) (t : Fin cfg3.N) (d) : (dat3 V q c).before 6 t d = iblk3 V c 6 t :=
  before3_6_of V (dat3 V q c) (A_eq3 V q c 6) (after3_6 V q c) t d

/-- What the body is called with at point `t`, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d))
    ∗ (∃ d, owns (c : Thread nD τ) (st3_5 t) fullShare ((dat3 V q c).before 5 t d))
    ∗ (∃ d, owns (c : Thread nD τ) (st3_6 t) fullShare ((dat3 V q c).before 6 t d))
    ∗ (∃ d, owns (c : Thread nD τ) (st3_7 t) fullShare ((dat3 V q c).before 7 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t)
    ∗ owns (c : Thread nD τ) (st3_5 t) fullShare ((dat3 V q c).after 5 t)
    ∗ owns (c : Thread nD τ) (st3_6 t) fullShare ((dat3 V q c).after 6 t)
    ∗ owns (c : Thread nD τ) (st3_7 t) fullShare ((dat3 V q c).after 7 t))

/-- The body at any point: the inputs' buffers hold their blocks, so the body's triple applies. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3, before3_4, before3_5, before3_6]
  rw [show (dat3 V q c).Φ t.succ = (dat3 V q c).Φ t.castSucc from rfl,
    show (dat3 V q c).owesAt () t.succ = (dat3 V q c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

end Cert.Kernel.Fr

end
-- ==== Proof.KB.Chain.lean ====
/-
  What the TensorCore's buffers hold at each boundary of the program, as closed terms of the launch memory.
  The program alternates host stretches and four pipelined regions. A host stretch replaces the contents by
  the result of its operations; a region changes exactly one array, the one its result window writes back to,
  and leaves there what the pipeline folds the result blocks into, point after point. The last region reads
  one zero vector through two of its windows, so it holds that array at two half shares.
-/
import proofs.«176669_j55628416418297_1_alg».proof.Proof.KB.Reg0
import proofs.«176669_j55628416418297_1_alg».proof.Proof.KB.Reg1
import proofs.«176669_j55628416418297_1_alg».proof.Proof.KB.Reg2
import proofs.«176669_j55628416418297_1_alg».proof.Proof.KB.Reg3
import proofs.«176669_j55628416418297_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The shares the last region holds its arrays at: windows 5 and 6 stage one array, each at one half of the
    full share; every other window's array is its own, at the full share. -/
def q3 : Fin cfg3.W → PosShare TreeShare := fun
  | ⟨5, _⟩ => fullShare.left
  | ⟨6, _⟩ => fullShare.right
  | _ => fullShare

/-- After the first host stretch: what the dense input layer's region is entered from. -/
abbrev X1 (c : Dev nD) : Valuation τ sig (Elt F) := StableHlo.after hostOps0 (fun b => m (c, b))
/-- What the dense input layer leaves in its result array: its ten result blocks, written back in order. -/
def o2 (c : Dev nD) : Buf (Elt F) ((c : Thread nD τ).loc main_v12) := (dat0 (fun c b => X1 m c b) c).arrAt 3 cfg0.N
/-- After the dense input layer: only its result array has changed. -/
abbrev X2 (c : Dev nD) : Valuation τ sig (Elt F) := Function.update (X1 m c) main_v12 (o2 m c)
/-- After the second host stretch: what the first graph layer's region is entered from. -/
abbrev X3 (c : Dev nD) : Valuation τ sig (Elt F) := StableHlo.after hostOps1 (X2 m c)
/-- What the first graph layer leaves in its result array. -/
def o4 (c : Dev nD) : Buf (Elt F) ((c : Thread nD τ).loc main_v37) := (dat1 (fun c b => X3 m c b) c).arrAt 7 cfg1.N
/-- After the first graph layer. -/
abbrev X4 (c : Dev nD) : Valuation τ sig (Elt F) := Function.update (X3 m c) main_v37 (o4 m c)
/-- After the third host stretch: what the second graph layer's region is entered from. -/
abbrev X5 (c : Dev nD) : Valuation τ sig (Elt F) := StableHlo.after hostOps2 (X4 m c)
/-- What the second graph layer leaves in its result array. -/
def o6 (c : Dev nD) : Buf (Elt F) ((c : Thread nD τ).loc main_v61) := (dat2 (fun c b => X5 m c b) c).arrAt 7 cfg2.N
/-- After the second graph layer. -/
abbrev X6 (c : Dev nD) : Valuation τ sig (Elt F) := Function.update (X5 m c) main_v61 (o6 m c)
/-- After the fourth host stretch: what the third graph layer's region is entered from. -/
abbrev X7 (c : Dev nD) : Valuation τ sig (Elt F) := StableHlo.after hostOps3 (X6 m c)
/-- What the third graph layer leaves in its result array: the program's result. -/
def o8 (c : Dev nD) : Buf (Elt F) ((c : Thread nD τ).loc main_v81) := (dat3 (fun c b => X7 m c b) q3 c).arrAt 7 cfg3.N
/-- After the third graph layer: the contents the program returns with. -/
abbrev X8 (c : Dev nD) : Valuation τ sig (Elt F) := Function.update (X7 m c) main_v81 (o8 m c)

/-! The same contents read at the TensorCore's own references: what a region's proof data take. -/
abbrev Y1 : (c : Dev nD) → (b : Ref sig .tc) → Buf (Elt F) ((c : Thread nD τ).loc b) := fun c b => X1 m c b
abbrev Y2 : (c : Dev nD) → (b : Ref sig .tc) → Buf (Elt F) ((c : Thread nD τ).loc b) := fun c b => X2 m c b
abbrev Y3 : (c : Dev nD) → (b : Ref sig .tc) → Buf (Elt F) ((c : Thread nD τ).loc b) := fun c b => X3 m c b
abbrev Y4 : (c : Dev nD) → (b : Ref sig .tc) → Buf (Elt F) ((c : Thread nD τ).loc b) := fun c b => X4 m c b
abbrev Y5 : (c : Dev nD) → (b : Ref sig .tc) → Buf (Elt F) ((c : Thread nD τ).loc b) := fun c b => X5 m c b
abbrev Y6 : (c : Dev nD) → (b : Ref sig .tc) → Buf (Elt F) ((c : Thread nD τ).loc b) := fun c b => X6 m c b
abbrev Y7 : (c : Dev nD) → (b : Ref sig .tc) → Buf (Elt F) ((c : Thread nD τ).loc b) := fun c b => X7 m c b
abbrev Y8 : (c : Dev nD) → (b : Ref sig .tc) → Buf (Elt F) ((c : Thread nD τ).loc b) := fun c b => X8 m c b

/-- What each region leaves, read off the boundary after it. -/
def outs : Gen.Outs (F := F) := fun J r c =>
  match J with
  | 2 => X2 m c r
  | 4 => X4 m c r
  | 6 => X6 m c r
  | _ => X8 m c r

theorem outs2 (c : Dev nD) : outs m 2 main_v12 c = o2 m c := by
  show Function.update (X1 m c) main_v12 (o2 m c) main_v12 = o2 m c
  exact Function.update_self _ _ _
theorem outs4 (c : Dev nD) : outs m 4 main_v37 c = o4 m c := by
  show Function.update (X3 m c) main_v37 (o4 m c) main_v37 = o4 m c
  exact Function.update_self _ _ _
theorem outs6 (c : Dev nD) : outs m 6 main_v61 c = o6 m c := by
  show Function.update (X5 m c) main_v61 (o6 m c) main_v61 = o6 m c
  exact Function.update_self _ _ _
theorem outs8 (c : Dev nD) : outs m 8 main_v81 c = o8 m c := by
  show Function.update (X7 m c) main_v81 (o8 m c) main_v81 = o8 m c
  exact Function.update_self _ _ _

/-! The generated boundary contents, at these values of what the regions leave, are the closed terms above. -/

theorem V1_eq (c : Dev nD) : Gen.V1 m c = X1 m c := rfl
theorem V2_eq (c : Dev nD) : Gen.V2 m (outs m) c = X2 m c := by
  show Function.update (Gen.V1 m c) main_v12 (outs m 2 main_v12 c) = _
  rw [outs2]
theorem V3_eq (c : Dev nD) : Gen.V3 m (outs m) c = X3 m c := by
  show StableHlo.after hostOps1 (Gen.V2 m (outs m) c) = _
  rw [V2_eq]
theorem V4_eq (c : Dev nD) : Gen.V4 m (outs m) c = X4 m c := by
  show Function.update (Gen.V3 m (outs m) c) main_v37 (outs m 4 main_v37 c) = _
  rw [outs4, V3_eq]
theorem V5_eq (c : Dev nD) : Gen.V5 m (outs m) c = X5 m c := by
  show StableHlo.after hostOps2 (Gen.V4 m (outs m) c) = _
  rw [V4_eq]
theorem V6_eq (c : Dev nD) : Gen.V6 m (outs m) c = X6 m c := by
  show Function.update (Gen.V5 m (outs m) c) main_v61 (outs m 6 main_v61 c) = _
  rw [outs6, V5_eq]
theorem V7_eq (c : Dev nD) : Gen.V7 m (outs m) c = X7 m c := by
  show StableHlo.after hostOps3 (Gen.V6 m (outs m) c) = _
  rw [V6_eq]
theorem V8_eq (c : Dev nD) : Gen.V8 m (outs m) c = X8 m c := by
  show Function.update (Gen.V7 m (outs m) c) main_v81 (outs m 8 main_v81 c) = _
  rw [outs8, V7_eq]

/-- The result array at the end holds what the last region left. -/
theorem X8_result (c : Dev nD) : X8 m c main_v81 = o8 m c := Function.update_self _ _ _

/-! ## The proof data of the four regions, and what rides beside the buffers -/

/-- Every region's proof data, each at the contents its region is entered from. -/
def pdats : (p : Fin 4) → (c : Dev nD) → Dat τ (Elt F) Unit ℕ (UR sig nD τ) ℕ (cfgs p) c
  | ⟨0, _⟩ => fun c => dat0 (fun c b => X1 m c b) c
  | ⟨1, _⟩ => fun c => dat1 (fun c b => X3 m c b) c
  | ⟨2, _⟩ => fun c => dat2 (fun c b => X5 m c b) c
  | ⟨3, _⟩ => fun c => dat3 (fun c b => X7 m c b) q3 c

/-- No core owes another anything: no level is assigned. -/
abbrev L0 : GSem nD τ sig → Finset Unit := fun _ => ∅
abbrev lv0 : GSem nD τ sig → Unit → ℕ := fun _ _ => 0

/-- What rides beside the buffers through every item: the core's generator register at some state and the
    record that it owes nothing. -/
abbrev Rest (c : Dev nD) : sProp 𝕄 := iprop((∃ r, prngReg c r) ∗ ∃ W, owes (c : Thread nD τ) (0 : CellTallies nD τ sig Unit) W)
/-- The same rest at every boundary. -/
abbrev E0 : Fin 5 → Dev nD → sProp 𝕄 := fun _ c => Rest (F := F) c

end Cert.Kernel.Fr

end
-- ==== Proof.KB.Seg0.lean ====
/-
  The dense input layer's region as one item of the program: entered with every buffer at the contents before it, it takes its
  windows' arrays out of them, runs its pipeline, and puts the arrays back — the inputs as they were, the
  result array at what the pipeline folded its blocks into. Nothing else moves.
-/
import proofs.«176669_j55628416418297_1_alg».proof.Proof.KB.Chain
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every window but the result's is an input, and stages an array other than the result's. -/
theorem isIn0 : ∀ w : Fin 4, w ≠ 3 → (cfg0.win w).isOut = false := by decide
theorem arr_ne0 : ∀ w : Fin 4, w ≠ 3 → Pipeline.arrRef spec0 w ≠ main_v12 := by decide

/-- At the region's exit each of its arrays holds what the pipeline leaves there: an input what it held, the
    result array the folded write-backs. -/
theorem hF0 (c : Dev nD) (w : Fin cfg0.W) : (dat0 (Y1 m) c).arrAt w cfg0.N = Y2 m c (Pipeline.arrRef spec0 w) := by
  by_cases h : w = 3
  · subst h
    show o2 m c = Function.update (X1 m c) main_v12 (o2 m c) main_v12
    rw [Function.update_self]
  · exact ((dat0 (Y1 m) c).arrAt_in w (isIn0 w h) _).trans
      ((A_eq0 (Y1 m) c w).trans (Function.update_of_ne (StableHlo.devRef_ne_of_ne (arr_ne0 w h)) _ _).symm)

/-- Every buffer that is none of the region's arrays holds at the exit what it held at the entry. -/
theorem hrest0 (c : Dev nD) : ∀ b : Ref sig .tc, b ∉ Finset.univ.image (Pipeline.arrRef spec0) → Y2 m c b = Y1 m c b :=
  fun b hb => Function.update_of_ne (StableHlo.devRef_ne_of_ne fun e =>
    hb (Finset.mem_image.mpr ⟨3, Finset.mem_univ _, (show Pipeline.arrRef spec0 3 = main_v12 from rfl).trans e.symm⟩)) _ _

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg0 : RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ L0 lv0 0 fun _ _ => rfl
  pre c := iprop(StableHlo.held (c : Thread nD τ) (Pipeline.ucRefs τ sig) (X1 m c) ∗ Rest c)
  post c := iprop(StableHlo.held (c : Thread nD τ) (Pipeline.ucRefs τ sig) (X2 m c) ∗ Rest c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg1.lean ====
/-
  The first graph layer's region as one item of the program: entered with every buffer at the contents before it, it takes its
  windows' arrays out of them, runs its pipeline, and puts the arrays back — the inputs as they were, the
  result array at what the pipeline folded its blocks into. Nothing else moves.
-/
import proofs.«176669_j55628416418297_1_alg».proof.Proof.KB.Chain
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every window but the result's is an input, and stages an array other than the result's. -/
theorem isIn1 : ∀ w : Fin 8, w ≠ 7 → (cfg1.win w).isOut = false := by decide
theorem arr_ne1 : ∀ w : Fin 8, w ≠ 7 → Pipeline.arrRef spec1 w ≠ main_v37 := by decide

/-- At the region's exit each of its arrays holds what the pipeline leaves there: an input what it held, the
    result array the folded write-backs. -/
theorem hF1 (c : Dev nD) (w : Fin cfg1.W) : (dat1 (Y3 m) c).arrAt w cfg1.N = Y4 m c (Pipeline.arrRef spec1 w) := by
  by_cases h : w = 7
  · subst h
    show o4 m c = Function.update (X3 m c) main_v37 (o4 m c) main_v37
    rw [Function.update_self]
  · exact ((dat1 (Y3 m) c).arrAt_in w (isIn1 w h) _).trans
      ((A_eq1 (Y3 m) c w).trans (Function.update_of_ne (StableHlo.devRef_ne_of_ne (arr_ne1 w h)) _ _).symm)

/-- Every buffer that is none of the region's arrays holds at the exit what it held at the entry. -/
theorem hrest1 (c : Dev nD) : ∀ b : Ref sig .tc, b ∉ Finset.univ.image (Pipeline.arrRef spec1) → Y4 m c b = Y3 m c b :=
  fun b hb => Function.update_of_ne (StableHlo.devRef_ne_of_ne fun e =>
    hb (Finset.mem_image.mpr ⟨7, Finset.mem_univ _, (show Pipeline.arrRef spec1 7 = main_v37 from rfl).trans e.symm⟩)) _ _

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg1 : RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Y3 m) c).loose
  hwaits := Pipeline.hwaits_of_owed_zero _ _ _ _ L0 lv0 1 fun _ _ => rfl
  pre c := iprop(StableHlo.held (c : Thread nD τ) (Pipeline.ucRefs τ sig) (X3 m c) ∗ Rest c)
  post c := iprop(StableHlo.held (c : Thread nD τ) (Pipeline.ucRefs τ sig) (X4 m c) ∗ Rest c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg2.lean ====
/-
  The second graph layer's region as one item of the program: entered with every buffer at the contents before it, it takes its
  windows' arrays out of them, runs its pipeline, and puts the arrays back — the inputs as they were, the
  result array at what the pipeline folded its blocks into. Nothing else moves.
-/
import proofs.«176669_j55628416418297_1_alg».proof.Proof.KB.Chain
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every window but the result's is an input, and stages an array other than the result's. -/
theorem isIn2 : ∀ w : Fin 8, w ≠ 7 → (cfg2.win w).isOut = false := by decide
theorem arr_ne2 : ∀ w : Fin 8, w ≠ 7 → Pipeline.arrRef spec2 w ≠ main_v61 := by decide

/-- At the region's exit each of its arrays holds what the pipeline leaves there: an input what it held, the
    result array the folded write-backs. -/
theorem hF2 (c : Dev nD) (w : Fin cfg2.W) : (dat2 (Y5 m) c).arrAt w cfg2.N = Y6 m c (Pipeline.arrRef spec2 w) := by
  by_cases h : w = 7
  · subst h
    show o6 m c = Function.update (X5 m c) main_v61 (o6 m c) main_v61
    rw [Function.update_self]
  · exact ((dat2 (Y5 m) c).arrAt_in w (isIn2 w h) _).trans
      ((A_eq2 (Y5 m) c w).trans (Function.update_of_ne (StableHlo.devRef_ne_of_ne (arr_ne2 w h)) _ _).symm)

/-- Every buffer that is none of the region's arrays holds at the exit what it held at the entry. -/
theorem hrest2 (c : Dev nD) : ∀ b : Ref sig .tc, b ∉ Finset.univ.image (Pipeline.arrRef spec2) → Y6 m c b = Y5 m c b :=
  fun b hb => Function.update_of_ne (StableHlo.devRef_ne_of_ne fun e =>
    hb (Finset.mem_image.mpr ⟨7, Finset.mem_univ _, (show Pipeline.arrRef spec2 7 = main_v61 from rfl).trans e.symm⟩)) _ _

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg2 : RegionSeg (pcfgs (F := F)) Gen.adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ L0 lv0 2 fun _ _ => rfl
  pre c := iprop(StableHlo.held (c : Thread nD τ) (Pipeline.ucRefs τ sig) (X5 m c) ∗ Rest c)
  post c := iprop(StableHlo.held (c : Thread nD τ) (Pipeline.ucRefs τ sig) (X6 m c) ∗ Rest c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg3.lean ====
/-
  The third graph layer's region as one item of the program. It differs from the others in one point: two of
  its windows stage the same array, a zero vector, so the region cannot hold that array twice at the full share.
  It holds it at two half shares instead, which compose to the full share; every other array is its own, at the
  full share. At the entry the one buffer is split in two halves, at the exit the halves are joined again.
-/
import proofs.«176669_j55628416418297_1_alg».proof.Proof.KB.Chain
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Arrays

variable {c : Dev nD} (dat : Dat τ (Elt F) Unit ℕ (UR sig nD τ) ℕ cfg3 c) (hq : ∀ w, dat.q w = q3 w)
  (V : (b : Ref sig .tc) → Buf (Elt F) ((c : Thread nD τ).loc b))

include hq in
/-- Every array but the shared one is held at the full share: an input by the choice of shares, the result
    array because it is written. -/
theorem share3_full : ∀ w : Fin cfg3.W, w ≠ 5 → w ≠ 6 → dat.share w = fullShare
  | ⟨0, _⟩, _, _ => by unfold Dat.share; rw [hq]; rfl
  | ⟨1, _⟩, _, _ => by unfold Dat.share; rw [hq]; rfl
  | ⟨2, _⟩, _, _ => by unfold Dat.share; rw [hq]; rfl
  | ⟨3, _⟩, _, _ => by unfold Dat.share; rw [hq]; rfl
  | ⟨4, _⟩, _, _ => by unfold Dat.share; rw [hq]; rfl
  | ⟨5, _⟩, h, _ => absurd rfl h
  | ⟨6, _⟩, _, h => absurd rfl h
  | ⟨7, _⟩, _, _ => rfl
include hq in
theorem share3_5 : dat.share 5 = fullShare.left := by unfold Dat.share; rw [hq]; rfl
include hq in
theorem share3_6 : dat.share 6 = fullShare.right := by unfold Dat.share; rw [hq]; rfl

/-- The seven buffers behind the region's eight windows are the windows but the second of the two that share. -/
theorem image3 : Finset.univ.image (Pipeline.arrRef spec3) = (Finset.univ.erase (6 : Fin 8)).image (Pipeline.arrRef spec3) := by decide
theorem injOn3 : Set.InjOn (Pipeline.arrRef spec3) ((Finset.univ.erase (6 : Fin 8) : Finset (Fin 8)) : Set (Fin 8)) := by
  have h : ∀ a ∈ Finset.univ.erase (6 : Fin 8), ∀ b ∈ Finset.univ.erase (6 : Fin 8), Pipeline.arrRef spec3 a = Pipeline.arrRef spec3 b → a = b := by decide
  exact fun a ha b hb e => h a (Finset.mem_coe.mp ha) b (Finset.mem_coe.mp hb) e

include hq in
/-- The buffers behind the region's arrays, each whole at the full share, ARE the region's arrays at the same
    contents: window by window the same points-to, but for the shared buffer, whose full share is the two
    halves its two windows hold. -/
theorem arrays3_iff :
    ((Pipeline.arrBufs spec3 c V : sProp 𝕄) ⊢ dat.arrays (fun w => V (Pipeline.arrRef spec3 w)))
      ∧ (dat.arrays (fun w => V (Pipeline.arrRef spec3 w)) ⊢ (Pipeline.arrBufs spec3 c V : sProp 𝕄)) := by
  have h5 : (5 : Fin 8) ∈ Finset.univ.erase (6 : Fin 8) := by decide
  have hrest : bigSep ((Finset.univ.erase (6 : Fin 8)).erase 5) (fun w : Fin cfg3.W => ((cfg3.win w).arr.view.loc (c.tc : Thread nD τ) ↦[(cfg3.win w).arr.view.set]{dat.share w} V (Pipeline.arrRef spec3 w) : sProp 𝕄))
      = bigSep ((Finset.univ.erase (6 : Fin 8)).erase 5) (fun w : Fin cfg3.W => (((c.tc : Thread nD τ).loc (Pipeline.arrRef spec3 w)) ↦{fullShare} V (Pipeline.arrRef spec3 w) : sProp 𝕄)) :=
    bigSep_congr fun w hw => by
      rw [(arr_whole3 w).set_eq_univ, share3_full dat hq w (Finset.mem_erase.mp hw).1 (Finset.mem_erase.mp (Finset.mem_erase.mp hw).2).1]
  have hL : (Pipeline.arrBufs spec3 c V : sProp 𝕄)
      = iprop((((c.tc : Thread nD τ).loc main_v13) ↦{fullShare} V main_v13)
          ∗ bigSep ((Finset.univ.erase (6 : Fin 8)).erase 5) (fun w : Fin cfg3.W => (((c.tc : Thread nD τ).loc (Pipeline.arrRef spec3 w)) ↦{fullShare} V (Pipeline.arrRef spec3 w) : sProp 𝕄))) := by
    unfold Pipeline.arrBufs
    rw [image3, bigSep_image_of_injOn injOn3, bigSep_erase h5]
    rfl
  have hR : dat.arrays (fun w => V (Pipeline.arrRef spec3 w))
      = iprop((((c.tc : Thread nD τ).loc main_v13) ↦{fullShare.right} V main_v13)
          ∗ (((c.tc : Thread nD τ).loc main_v13) ↦{fullShare.left} V main_v13)
          ∗ bigSep ((Finset.univ.erase (6 : Fin 8)).erase 5) (fun w : Fin cfg3.W => (((c.tc : Thread nD τ).loc (Pipeline.arrRef spec3 w)) ↦{fullShare} V (Pipeline.arrRef spec3 w) : sProp 𝕄))) := by
    unfold Dat.arrays
    rw [bigSep_erase (Finset.mem_univ (6 : Fin 8)), bigSep_erase h5, hrest, (arr_whole3 6).set_eq_univ, share3_5 dat hq, share3_6 dat hq]
    rfl
  have hsh1 : ((((c.tc : Thread nD τ).loc main_v13) ↦{fullShare} V main_v13 : sProp 𝕄))
      ⊢ iprop((((c.tc : Thread nD τ).loc main_v13) ↦{fullShare.left} V main_v13) ∗ (((c.tc : Thread nD τ).loc main_v13) ↦{fullShare.right} V main_v13)) :=
    (pointsTo_share (PosShare.mem_left_op_right fullShare)).1
  have hsh2 : (iprop((((c.tc : Thread nD τ).loc main_v13) ↦{fullShare.left} V main_v13) ∗ (((c.tc : Thread nD τ).loc main_v13) ↦{fullShare.right} V main_v13)) : sProp 𝕄)
      ⊢ (((c.tc : Thread nD τ).loc main_v13) ↦{fullShare} V main_v13) :=
    (pointsTo_share (PosShare.mem_left_op_right fullShare)).2
  rw [hL, hR]
  constructor
  · iintro ⟨H, HT⟩
    ihave H' := hsh1 $$ H
    icases H' with ⟨Hl, Hr⟩
    isplitl [Hr]; · iexact Hr
    isplitl [Hl]; · iexact Hl
    iexact HT
  · iintro ⟨Hr, Hl, HT⟩
    isplitl [Hl Hr]
    · iapply hsh2; isplitl [Hl]; · iexact Hl
      iexact Hr
    iexact HT

end Arrays

variable (m : (ℓ : Loc nD τ sig) → Buf (Elt F) ℓ)

/-- Every window but the result's is an input, and stages an array other than the result's. -/
theorem isIn3 : ∀ w : Fin 8, w ≠ 7 → (cfg3.win w).isOut = false := by decide
theorem arr_ne3 : ∀ w : Fin 8, w ≠ 7 → Pipeline.arrRef spec3 w ≠ main_v81 := by decide

/-- At the region's exit each of its arrays holds what the pipeline leaves there: an input what it held, the
    result array the folded write-backs. -/
theorem hF3 (c : Dev nD) (w : Fin cfg3.W) : (dat3 (Y7 m) q3 c).arrAt w cfg3.N = Y8 m c (Pipeline.arrRef spec3 w) := by
  by_cases h : w = 7
  · subst h
    show o8 m c = Function.update (X7 m c) main_v81 (o8 m c) main_v81
    rw [Function.update_self]
  · exact ((dat3 (Y7 m) q3 c).arrAt_in w (isIn3 w h) _).trans
      ((A_eq3 (Y7 m) q3 c w).trans (Function.update_of_ne (StableHlo.devRef_ne_of_ne (arr_ne3 w h)) _ _).symm)

/-- Every buffer that is none of the region's arrays holds at the exit what it held at the entry. -/
theorem hrest3 (c : Dev nD) : ∀ b : Ref sig .tc, b ∉ Finset.univ.image (Pipeline.arrRef spec3) → Y8 m c b = Y7 m c b :=
  fun b hb => Function.update_of_ne (StableHlo.devRef_ne_of_ne fun e =>
    hb (Finset.mem_image.mpr ⟨7, Finset.mem_univ _, (show Pipeline.arrRef spec3 7 = main_v81 from rfl).trans e.symm⟩)) _ _

/-- ENTRY, the arrays' part: the core's unscoped buffers at the entry contents are the region's arrays at the
    proof data's entry contents and the unscoped rest. -/
theorem entry3 (c : Dev nD) :
    (unscopedBufs c (Y7 m c) : sProp 𝕄) ⊢ iprop((pdats m 3 c).arrays ((pdats m 3 c).arrAt · 0) ∗ Pipeline.unscopedRest spec3 c (Y7 m c)) := by
  rw [Pipeline.unscopedBufs_split₀ cfgs 3 winFacts₀3.arr_unscoped c (Y7 m c)]
  exact sep_mono (arrays3_iff (dat3 (Y7 m) q3 c) (fun _ => rfl) (Y7 m c)).1 .rfl

/-- EXIT, the arrays' part: the region's arrays at what the pipeline leaves and the unscoped rest are the core's
    unscoped buffers at the exit contents. -/
theorem exit3 (c : Dev nD) :
    iprop((pdats m 3 c).arrays ((pdats m 3 c).arrAt · cfg3.N) ∗ Pipeline.unscopedRest spec3 c (Y7 m c)) ⊢ (unscopedBufs c (Y8 m c) : sProp 𝕄) := by
  rw [Pipeline.unscopedBufs_split₀ cfgs 3 winFacts₀3.arr_unscoped c (Y8 m c),
    show ((pdats m 3 c).arrAt · cfg3.N) = (fun w => Y8 m c (Pipeline.arrRef spec3 w)) from funext (hF3 m c)]
  refine sep_mono (arrays3_iff (dat3 (Y7 m) q3 c) (fun _ => rfl) (Y8 m c)).2 (Entails.of_eq ?_)
  unfold Pipeline.unscopedRest
  exact bigSep_congr fun b hb => by rw [hrest3 m c b (Finset.mem_sdiff.mp hb).2]

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg3 : RegionSeg (pcfgs (F := F)) Gen.adm (pdats m) () defs₀ Variants.none L0 lv0 3 where
  win := winFacts₀3
  block_pos := block_pos3
  stage_whole := stage_whole3
  K := PEmpty
  osem k := k.elim
  ho := Pipeline.OwnSemFacts.none _
  hbody c := (body_obligation3 (Y7 m) q3 c).loose
  hwaits := Pipeline.hwaits_of_owed_zero _ _ _ _ L0 lv0 3 fun _ _ => rfl
  pre c := iprop(StableHlo.held (c : Thread nD τ) (Pipeline.ucRefs τ sig) (X7 m c) ∗ Rest c)
  post c := iprop(StableHlo.held (c : Thread nD τ) (Pipeline.ucRefs τ sig) (X8 m c) ∗ Rest c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := entry3 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Run.lean ====
/-
  The whole run. The program is eight items in a row — a host stretch, then a region, four times over — and
  each item is entered from what the one before it left. The launch deals every buffer at the launch memory
  and the core owing nothing; the items carry the buffers from boundary to boundary; at the end the argument
  arrays are read off the last boundary's contents, which no item has changed at an argument.
-/
import proofs.«176669_j55628416418297_1_alg».proof.Proof.KB.Seg0
import proofs.«176669_j55628416418297_1_alg».proof.Proof.KB.Seg1
import proofs.«176669_j55628416418297_1_alg».proof.Proof.KB.Seg2
import proofs.«176669_j55628416418297_1_alg».proof.Proof.KB.Seg3
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipeline library's own, and no other ghost resource is dealt. -/
theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes the rest on every core: the generator register at its
    launch state, the core owing nothing. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L0 lv0)
      ⊢ (|={Set.univ}=> bigSep Finset.univ (E0 (F := F) 0) : sProp 𝕄) := by
  refine Pipeline.initEach L0 lv0 fun c => ?_
  iintro ⟨⟨-, HO, -, Hp, -⟩, -⟩
  imodintro
  isplitl [Hp]; · iexists _; iexact Hp
  iexists ∅; iexact HO

/-- The rest at the end says the core owes nothing. -/
theorem rest_owes (c : Dev nD) : E0 (F := F) 4 c ⊢ (iprop(∃ W, owes (c : Thread nD τ) (0 : CellTallies nD τ sig Unit) W) : sProp 𝕄) := by
  iintro ⟨-, HO⟩; iexact HO

/-! Each region is entered from the generated contents before it and leaves the generated contents after it. -/

theorem hpre0 (c : Dev nD) : iprop(StableHlo.held (c : Thread nD τ) (Pipeline.ucRefs τ sig) (Gen.V1 m c) ∗ E0 0 c) ⊢ (reg0 m).pre c := .rfl
theorem hpost0 (c : Dev nD) : (reg0 m).post c ⊢ iprop(StableHlo.held (c : Thread nD τ) (Pipeline.ucRefs τ sig) (Gen.V2 m (outs m) c) ∗ E0 1 c) := by rw [V2_eq]; exact .rfl
theorem hpre1 (c : Dev nD) : iprop(StableHlo.held (c : Thread nD τ) (Pipeline.ucRefs τ sig) (Gen.V3 m (outs m) c) ∗ E0 1 c) ⊢ (reg1 m).pre c := by rw [V3_eq]; exact .rfl
theorem hpost1 (c : Dev nD) : (reg1 m).post c ⊢ iprop(StableHlo.held (c : Thread nD τ) (Pipeline.ucRefs τ sig) (Gen.V4 m (outs m) c) ∗ E0 2 c) := by rw [V4_eq]; exact .rfl
theorem hpre2 (c : Dev nD) : iprop(StableHlo.held (c : Thread nD τ) (Pipeline.ucRefs τ sig) (Gen.V5 m (outs m) c) ∗ E0 2 c) ⊢ (reg2 m).pre c := by rw [V5_eq]; exact .rfl
theorem hpost2 (c : Dev nD) : (reg2 m).post c ⊢ iprop(StableHlo.held (c : Thread nD τ) (Pipeline.ucRefs τ sig) (Gen.V6 m (outs m) c) ∗ E0 3 c) := by rw [V6_eq]; exact .rfl
theorem hpre3 (c : Dev nD) : iprop(StableHlo.held (c : Thread nD τ) (Pipeline.ucRefs τ sig) (Gen.V7 m (outs m) c) ∗ E0 3 c) ⊢ (reg3 m).pre c := by rw [V7_eq]; exact .rfl
theorem hpost3 (c : Dev nD) : (reg3 m).post c ⊢ iprop(StableHlo.held (c : Thread nD τ) (Pipeline.ucRefs τ sig) (Gen.V8 m (outs m) c) ∗ E0 4 c) := by rw [V8_eq]; exact .rfl

/-- THE FRAME, at any float instance: from any memory with zero counters every weakly fair execution of the
    program terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := launch_ghost) (E := E0) (hE0 := launch_rest ρ) (hE4 := rest_owes)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)

end Cert.Kernel.Fr

end
-- ==== Proof.KI.Reg0.lean ====
/-
  The first region — the dense input layer on blocks of 5000 rows — as one step of the pipeline, at any entry
  contents `V`: a block of `x`, the whole of `W` and `b` come in, the body stores one block of the result, and
  nothing else is touched. What the result block holds is the body's one payload of the three input blocks.
-/
import proofs.«176669_j55628416418297_1_alg».proof.Proof.Gen.KernelIdeal.Launch
import proofs.«176669_j55628416418297_1_alg».proof.Proof.Gen.KernelIdeal.Skeleton
import proofs.«176669_j55628416418297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: every access is a whole buffer. -/
abbrev r0_x : Rect S5000x128 := Rect.unit (s := S5000x128) ![0, 0] S5000x128.size inb_S5000x128_S5000x128_0_0
abbrev r0_w : Rect S64x128 := Rect.unit (s := S64x128) ![0, 0] S64x128.size inb_S64x128_S64x128_0_0
abbrev r0_b : Rect S64 := Rect.unit (s := S64) ![0] S64.size inb_S64_S64_0
abbrev r0_o : Rect S5000x64 := Rect.unit (s := S5000x64) ![0, 0] S5000x64.size inb_S5000x64_S5000x64_0_0

/-- The result block after the body: its one store, of the payload of the three loads. -/
def out0_3 (x0 : Vec F S5000x128 .f32) (x1 : Vec F S64x128 .f32) (x2 : Vec F S64 .f32) : Vec F S5000x64 .f32 :=
  View.canon [⟨r0_o, k0_pay1 (View.ld x0 r0_x) (View.ld x1 r0_w) (View.ld x2 r0_b)⟩]

/-- The one store covers the block. -/
theorem cover0_3 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

set_option maxHeartbeats 1000000 in
/-- The body on whole staging buffers: the inputs stay, the result buffer ends at `out0_3` of the inputs. -/
theorem sound_kernel0 (c : Dev nD) (E : Set ℕ) (i : grid0.Coords) (arg1 : Memref sig .tc .vmem S5000x128 .f32) (harg1 : arg1.IsWhole) (arg2 : Memref sig .tc .vmem S64x128 .f32) (harg2 : arg2.IsWhole) (arg3 : Memref sig .tc .vmem S64 .f32) (harg3 : arg3.IsWhole) (arg4 : Memref sig .tc .vmem S5000x64 .f32) (harg4 : arg4.IsWhole)
    (x0 : Vec F S5000x128 .f32) (x1 : Vec F S64x128 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as found; after the body each input's buffer at its block
    and the result's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  A normalised graph layer as one step of the pipeline, at any entry contents `V`: a block of 5000 aggregated rows
  and the same block of the nodes' own rows come in with the two 64×64 weight matrices, the bias, the scale and the
  shift; the body stores one block of the result, and nothing else is touched. The result block is the body's last
  payload of the seven input blocks: the linear part, its row mean and variance, then scale, shift and clamp.
-/
import proofs.«176669_j55628416418297_1_alg».proof.Proof.Gen.KernelIdeal.Launch
import proofs.«176669_j55628416418297_1_alg».proof.Proof.Gen.KernelIdeal.Skeleton
import proofs.«176669_j55628416418297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: every access is a whole buffer. -/
abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S64 := Rect.unit (s := S64) ![0] S64.size inb_S64_S64_0

/-- The result block after the body: its one store, of the last payload over the payloads of the seven loads. -/
def out1_7 (x0 x1 : Vec F S5000x64 .f32) (x2 x3 : Vec F S64x64 .f32) (x4 x5 x6 : Vec F S64 .f32) : Vec F S5000x64 .f32 :=
  View.canon [⟨r1_a, k1_pay1
    (k1_pay4 (View.ld x0 r1_a) (View.ld x1 r1_a) (View.ld x2 r1_w) (View.ld x3 r1_w) (View.ld x4 r1_b) (View.ld x5 r1_b))
    (k1_pay5 (View.ld x0 r1_a) (View.ld x1 r1_a) (View.ld x2 r1_w) (View.ld x3 r1_w) (View.ld x4 r1_b))
    (View.ld x6 r1_b)⟩]

/-- The one store covers the block. -/
theorem cover1_7 (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

set_option maxHeartbeats 1000000 in
/-- The body on whole staging buffers: the inputs stay, the result buffer ends at `out1_7` of the inputs. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S5000x64 .f32) (harg8 : arg8.IsWhole)
    (x0 x1 : Vec F S5000x64 .f32) (x2 x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__kernel i arg1 harg1 arg2 harg2 arg3 harg3 arg4 harg4 arg5 harg5 arg6 harg6 arg7 harg7 arg8 harg8) K := by
  simp only [cc1__kernel_eq_skeleton]; unfold cc1__kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The region's proof data on core `c`: the arrays as found; after the body each input's buffer at its block
    and the result's at `out1_7` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  A normalised graph layer as one step of the pipeline, at any entry contents `V`: a block of 5000 aggregated rows
  and the same block of the nodes' own rows come in with the two 64×64 weight matrices, the bias, the scale and the
  shift; the body stores one block of the result, and nothing else is touched. The result block is the body's last
  payload of the seven input blocks: the linear part, its row mean and variance, then scale, shift and clamp.
-/
import proofs.«176669_j55628416418297_1_alg».proof.Proof.Gen.KernelIdeal.Launch
import proofs.«176669_j55628416418297_1_alg».proof.Proof.Gen.KernelIdeal.Skeleton
import proofs.«176669_j55628416418297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body's rectangles: every access is a whole buffer. -/
abbrev r2_a : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S64 := Rect.unit (s := S64) ![0] S64.size inb_S64_S64_0

/-- The result block after the body: its one store, of the last payload over the payloads of the seven loads. -/
def out2_7 (x0 x1 : Vec F S5000x64 .f32) (x2 x3 : Vec F S64x64 .f32) (x4 x5 x6 : Vec F S64 .f32) : Vec F S5000x64 .f32 :=
  View.canon [⟨r2_a, k2_pay1
    (k2_pay4 (View.ld x0 r2_a) (View.ld x1 r2_a) (View.ld x2 r2_w) (View.ld x3 r2_w) (View.ld x4 r2_b) (View.ld x5 r2_b))
    (k2_pay5 (View.ld x0 r2_a) (View.ld x1 r2_a) (View.ld x2 r2_w) (View.ld x3 r2_w) (View.ld x4 r2_b))
    (View.ld x6 r2_b)⟩]

/-- The one store covers the block. -/
theorem cover2_7 (p0 : Vec F S5000x64 .f32) (y : S5000x64.Idx) :
    ∃ pc ∈ ([⟨r2_a, p0⟩] : List (View.Piece (Elt F) S5000x64 .f32)), y ∈ pc.1.set :=
  View.cover_of_tiled [⟨r2_a, p0⟩] S5000x64.size (by rfl) y

set_option maxHeartbeats 1000000 in
/-- The body on whole staging buffers: the inputs stay, the result buffer ends at `out2_7` of the inputs. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S5000x64 .f32) (harg8 : arg8.IsWhole)
    (x0 x1 : Vec F S5000x64 .f32) (x2 x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__kernel i arg1 harg1 arg2 harg2 arg3 harg3 arg4 harg4 arg5 harg5 arg6 harg6 arg7 harg7 arg8 harg8) K := by
  simp only [cc2__kernel_eq_skeleton]; unfold cc2__kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The region's proof data on core `c`: the arrays as found; after the body each input's buffer at its block
    and the result's at `out2_7` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/-
  The last graph layer as one step of the pipeline, at any entry contents `V`: a block of 5000 aggregated rows and
  the same block of the nodes' own rows come in with the two 64×64 weight matrices and the bias; two more vectors
  are staged and never read. The body stores one block of the result — the linear part, nothing after it — and
  nothing else is touched. The input windows' shares `q` are a parameter: two of them stage one array.
-/
import proofs.«176669_j55628416418297_1_alg».proof.Proof.Gen.KernelIdeal.Launch
import proofs.«176669_j55628416418297_1_alg».proof.Proof.Gen.KernelIdeal.Skeleton
import proofs.«176669_j55628416418297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The body's rectangles: every access is a whole buffer. -/
abbrev r3_a : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S64 := Rect.unit (s := S64) ![0] S64.size inb_S64_S64_0

/-- The result block after the body: its one store, of the payload of the five loads it makes. -/
def out3_7 (x0 x1 : Vec F S5000x64 .f32) (x2 x3 : Vec F S64x64 .f32) (x4 : Vec F S64 .f32) : Vec F S5000x64 .f32 :=
  View.canon [⟨r3_a, k3_pay1 (View.ld x0 r3_a) (View.ld x1 r3_a) (View.ld x2 r3_w) (View.ld x3 r3_w) (View.ld x4 r3_b)⟩]

/-- The one store covers the block. -/
theorem cover3_7 (p0 : Vec F S5000x64 .f32) (y : S5000x64.Idx) :
    ∃ pc ∈ ([⟨r3_a, p0⟩] : List (View.Piece (Elt F) S5000x64 .f32)), y ∈ pc.1.set :=
  View.cover_of_tiled [⟨r3_a, p0⟩] S5000x64.size (by rfl) y

set_option maxHeartbeats 1000000 in
/-- The body on whole staging buffers: the inputs stay, the result buffer ends at `out3_7` of the inputs. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S64 .f32) (harg6 : arg6.IsWhole) (arg7 : Memref sig .tc .vmem S64 .f32) (harg7 : arg7.IsWhole) (arg8 : Memref sig .tc .vmem S5000x64 .f32) (harg8 : arg8.IsWhole)
    (x0 x1 : Vec F S5000x64 .f32) (x2 x3 : Vec F S64x64 .f32) (x4 x5 x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4)) -∗ K ⟨⟩))
      ⊢ wp frame (wpE (defs₀ (F := F)) Variants.none c none) E (cc3__kernel i arg1 harg1 arg2 harg2 arg3 harg3 arg4 harg4 arg5 harg5 arg6 harg6 arg7 harg7 arg8 harg8) K := by
  simp only [cc3__kernel_eq_skeleton]; unfold cc3__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The region's proof data on core `c`: the arrays as found; after the body each input's buffer at its block
    and the result's at `out3_7` of the input blocks; nothing owed, full shares. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t)
  Φ _ := Pipeline.ΦA spec3 c
  q := q
  owed _ := 0

theorem A_eq3 (q : Fin cfg3.W → PosShare TreeShare) (c : Dev nD) (w : Fin cfg3.W) : (dat3 V q c).A w = V c (Pipeline.arrRef spec3 w) := by
  dsimp only [dat3]

theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = iblk3 V c 2 t := by dsimp only [dat3]
theorem after3_3 (q : Fin cfg3.W → PosShare TreeShare) (c : Dev nD) (t : Fin cfg3.N) : (dat3 V q c).after 3 t = iblk3 V c 3 t := by dsimp only [dat3]
theorem after3_4 (q : Fin cfg3.W → PosShare TreeShare) (c : Dev nD) (t : Fin cfg3.N) : (dat3 V q c).after 4 t = iblk3 V c 4 t := by dsimp only [dat3]
theorem after3_5 (q : Fin cfg3.W → PosShare TreeShare) (c : Dev nD) (t : Fin cfg3.N) : (dat3 V q c).after 5 t = iblk3 V c 5 t := by dsimp only [dat3]
theorem after3_6 (q : Fin cfg3.W → PosShare TreeShare) (c : Dev nD) (t : Fin cfg3.N) : (dat3 V q c).after 6 t = iblk3 V c 6 t := by dsimp only [dat3]
theorem after3_7 (q : Fin cfg3.W → PosShare TreeShare) (c : Dev nD) (t : Fin cfg3.N) : (dat3 V q c).after 7 t = out3_7 (iblk3 V c 0 t) (iblk3 V c 1 t) (iblk3 V c 2 t) (iblk3 V c 3 t) (iblk3 V c 4 t) := by dsimp only [dat3]

theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d
theorem before3_2 (q : Fin cfg3.W → PosShare TreeShare) (c : Dev nD) (t : Fin cfg3.N) (d) : (dat3 V q c).before 2 t d = iblk3 V c 2 t :=
  before3_2_of V (dat3 V q c) (A_eq3 V q c 2) (after3_2 V q c) t d
theorem before3_3 (q : Fin cfg3.W → PosShare TreeShare) (c : Dev nD) (t : Fin cfg3.N) (d) : (dat3 V q c).before 3 t d = iblk3 V c 3 t :=
  before3_3_of V (dat3 V q c) (A_eq3 V q c 3) (after3_3 V q c) t d
theorem before3_4 (q : Fin cfg3.W → PosShare TreeShare) (c : Dev nD) (t : Fin cfg3.N) (d) : (dat3 V q c).before 4 t d = iblk3 V c 4 t :=
  before3_4_of V (dat3 V q c) (A_eq3 V q c 4) (after3_4 V q c) t d
theorem before3_5 (q : Fin cfg3.W → PosShare TreeShare) (c : Dev nD) (t : Fin cfg3.N) (d) : (dat3 V q c).before 5 t d = iblk3 V c 5 t :=
  before3_5_of V (dat3 V q c) (A_eq3 V q c 5) (after3_5 V q c) t d
theorem before3_6 (q : Fin cfg3.W → PosShare TreeShare) (c : Dev nD) (t : Fin cfg3.N) (d) : (dat3 V q c).before 6 t d = iblk3 V c 6 t :=
  before3_6_of V (dat3 V q c) (A_eq3 V q c 6) (after3_6 V q c) t d

/-- What the body is called with at point `t`, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d))
    ∗ (∃ d, owns (c : Thread nD τ) (st3_5 t) fullShare ((dat3 V q c).before 5 t d))
    ∗ (∃ d, owns (c : Thread nD τ) (st3_6 t) fullShare ((dat3 V q c).before 6 t d))
    ∗ (∃ d, owns (c : Thread nD τ) (st3_7 t) fullShare ((dat3 V q c).before 7 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t)
    ∗ owns (c : Thread nD τ) (st3_5 t) fullShare ((dat3 V q c).after 5 t)
    ∗ owns (c : Thread nD τ) (st3_6 t) fullShare ((dat3 V q c).after 6 t)
    ∗ owns (c : Thread nD τ) (st3_7 t) fullShare ((dat3 V q c).after 7 t))

/-- The body at any point: the inputs' buffers hold their blocks, so the body's triple applies. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3, before3_4, before3_5, before3_6]
  rw [show (dat3 V q c).Φ t.succ = (dat3 V q c).Φ t.castSucc from rfl,
    show (dat3 V q c).owesAt () t.succ = (dat3 V q c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

end Cert.KernelIdeal.Fr

end
-- ==== Proof.KI.Chain.lean ====
/-
  What the TensorCore's buffers hold at each boundary of the program, as closed terms of the launch memory.
  The program alternates host stretches and four pipelined regions. A host stretch replaces the contents by
  the result of its operations; a region changes exactly one array, the one its result window writes back to,
  and leaves there what the pipeline folds the result blocks into, point after point. The last region reads
  one zero vector through two of its windows, so it holds that array at two half shares.
-/
import proofs.«176669_j55628416418297_1_alg».proof.Proof.KI.Reg0
import proofs.«176669_j55628416418297_1_alg».proof.Proof.KI.Reg1
import proofs.«176669_j55628416418297_1_alg».proof.Proof.KI.Reg2
import proofs.«176669_j55628416418297_1_alg».proof.Proof.KI.Reg3
import proofs.«176669_j55628416418297_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The shares the last region holds its arrays at: windows 5 and 6 stage one array, each at one half of the
    full share; every other window's array is its own, at the full share. -/
def q3 : Fin cfg3.W → PosShare TreeShare := fun
  | ⟨5, _⟩ => fullShare.left
  | ⟨6, _⟩ => fullShare.right
  | _ => fullShare

/-- After the first host stretch: what the dense input layer's region is entered from. -/
abbrev X1 (c : Dev nD) : Valuation τ sig (Elt F) := StableHlo.after hostOps0 (fun b => m (c, b))
/-- What the dense input layer leaves in its result array: its ten result blocks, written back in order. -/
def o2 (c : Dev nD) : Buf (Elt F) ((c : Thread nD τ).loc main_v12) := (dat0 (fun c b => X1 m c b) c).arrAt 3 cfg0.N
/-- After the dense input layer: only its result array has changed. -/
abbrev X2 (c : Dev nD) : Valuation τ sig (Elt F) := Function.update (X1 m c) main_v12 (o2 m c)
/-- After the second host stretch: what the first graph layer's region is entered from. -/
abbrev X3 (c : Dev nD) : Valuation τ sig (Elt F) := StableHlo.after hostOps1 (X2 m c)
/-- What the first graph layer leaves in its result array. -/
def o4 (c : Dev nD) : Buf (Elt F) ((c : Thread nD τ).loc main_v37) := (dat1 (fun c b => X3 m c b) c).arrAt 7 cfg1.N
/-- After the first graph layer. -/
abbrev X4 (c : Dev nD) : Valuation τ sig (Elt F) := Function.update (X3 m c) main_v37 (o4 m c)
/-- After the third host stretch: what the second graph layer's region is entered from. -/
abbrev X5 (c : Dev nD) : Valuation τ sig (Elt F) := StableHlo.after hostOps2 (X4 m c)
/-- What the second graph layer leaves in its result array. -/
def o6 (c : Dev nD) : Buf (Elt F) ((c : Thread nD τ).loc main_v61) := (dat2 (fun c b => X5 m c b) c).arrAt 7 cfg2.N
/-- After the second graph layer. -/
abbrev X6 (c : Dev nD) : Valuation τ sig (Elt F) := Function.update (X5 m c) main_v61 (o6 m c)
/-- After the fourth host stretch: what the third graph layer's region is entered from. -/
abbrev X7 (c : Dev nD) : Valuation τ sig (Elt F) := StableHlo.after hostOps3 (X6 m c)
/-- What the third graph layer leaves in its result array: the program's result. -/
def o8 (c : Dev nD) : Buf (Elt F) ((c : Thread nD τ).loc main_v81) := (dat3 (fun c b => X7 m c b) q3 c).arrAt 7 cfg3.N
/-- After the third graph layer: the contents the program returns with. -/
abbrev X8 (c : Dev nD) : Valuation τ sig (Elt F) := Function.update (X7 m c) main_v81 (o8 m c)

/-! The same contents read at the TensorCore's own references: what a region's proof data take. -/
abbrev Y1 : (c : Dev nD) → (b : Ref sig .tc) → Buf (Elt F) ((c : Thread nD τ).loc b) := fun c b => X1 m c b
abbrev Y2 : (c : Dev nD) → (b : Ref sig .tc) → Buf (Elt F) ((c : Thread nD τ).loc b) := fun c b => X2 m c b
abbrev Y3 : (c : Dev nD) → (b : Ref sig .tc) → Buf (Elt F) ((c : Thread nD τ).loc b) := fun c b => X3 m c b
abbrev Y4 : (c : Dev nD) → (b : Ref sig .tc) → Buf (Elt F) ((c : Thread nD τ).loc b) := fun c b => X4 m c b
abbrev Y5 : (c : Dev nD) → (b : Ref sig .tc) → Buf (Elt F) ((c : Thread nD τ).loc b) := fun c b => X5 m c b
abbrev Y6 : (c : Dev nD) → (b : Ref sig .tc) → Buf (Elt F) ((c : Thread nD τ).loc b) := fun c b => X6 m c b
abbrev Y7 : (c : Dev nD) → (b : Ref sig .tc) → Buf (Elt F) ((c : Thread nD τ).loc b) := fun c b => X7 m c b
abbrev Y8 : (c : Dev nD) → (b : Ref sig .tc) → Buf (Elt F) ((c : Thread nD τ).loc b) := fun c b => X8 m c b

/-- What each region leaves, read off the boundary after it. -/
def outs : Gen.Outs (F := F) := fun J r c =>
  match J with
  | 2 => X2 m c r
  | 4 => X4 m c r
  | 6 => X6 m c r
  | _ => X8 m c r

theorem outs2 (c : Dev nD) : outs m 2 main_v12 c = o2 m c := by
  show Function.update (X1 m c) main_v12 (o2 m c) main_v12 = o2 m c
  exact Function.update_self _ _ _
theorem outs4 (c : Dev nD) : outs m 4 main_v37 c = o4 m c := by
  show Function.update (X3 m c) main_v37 (o4 m c) main_v37 = o4 m c
  exact Function.update_self _ _ _
theorem outs6 (c : Dev nD) : outs m 6 main_v61 c = o6 m c := by
  show Function.update (X5 m c) main_v61 (o6 m c) main_v61 = o6 m c
  exact Function.update_self _ _ _
theorem outs8 (c : Dev nD) : outs m 8 main_v81 c = o8 m c := by
  show Function.update (X7 m c) main_v81 (o8 m c) main_v81 = o8 m c
  exact Function.update_self _ _ _

/-! The generated boundary contents, at these values of what the regions leave, are the closed terms above. -/

theorem V1_eq (c : Dev nD) : Gen.V1 m c = X1 m c := rfl
theorem V2_eq (c : Dev nD) : Gen.V2 m (outs m) c = X2 m c := by
  show Function.update (Gen.V1 m c) main_v12 (outs m 2 main_v12 c) = _
  rw [outs2]
theorem V3_eq (c : Dev nD) : Gen.V3 m (outs m) c = X3 m c := by
  show StableHlo.after hostOps1 (Gen.V2 m (outs m) c) = _
  rw [V2_eq]
theorem V4_eq (c : Dev nD) : Gen.V4 m (outs m) c = X4 m c := by
  show Function.update (Gen.V3 m (outs m) c) main_v37 (outs m 4 main_v37 c) = _
  rw [outs4, V3_eq]
theorem V5_eq (c : Dev nD) : Gen.V5 m (outs m) c = X5 m c := by
  show StableHlo.after hostOps2 (Gen.V4 m (outs m) c) = _
  rw [V4_eq]
theorem V6_eq (c : Dev nD) : Gen.V6 m (outs m) c = X6 m c := by
  show Function.update (Gen.V5 m (outs m) c) main_v61 (outs m 6 main_v61 c) = _
  rw [outs6, V5_eq]
theorem V7_eq (c : Dev nD) : Gen.V7 m (outs m) c = X7 m c := by
  show StableHlo.after hostOps3 (Gen.V6 m (outs m) c) = _
  rw [V6_eq]
theorem V8_eq (c : Dev nD) : Gen.V8 m (outs m) c = X8 m c := by
  show Function.update (Gen.V7 m (outs m) c) main_v81 (outs m 8 main_v81 c) = _
  rw [outs8, V7_eq]

/-- The result array at the end holds what the last region left. -/
theorem X8_result (c : Dev nD) : X8 m c main_v81 = o8 m c := Function.update_self _ _ _

/-! ## The proof data of the four regions, and what rides beside the buffers -/

/-- Every region's proof data, each at the contents its region is entered from. -/
def pdats : (p : Fin 4) → (c : Dev nD) → Dat τ (Elt F) Unit ℕ (UR sig nD τ) ℕ (cfgs p) c
  | ⟨0, _⟩ => fun c => dat0 (fun c b => X1 m c b) c
  | ⟨1, _⟩ => fun c => dat1 (fun c b => X3 m c b) c
  | ⟨2, _⟩ => fun c => dat2 (fun c b => X5 m c b) c
  | ⟨3, _⟩ => fun c => dat3 (fun c b => X7 m c b) q3 c

/-- No core owes another anything: no level is assigned. -/
abbrev L0 : GSem nD τ sig → Finset Unit := fun _ => ∅
abbrev lv0 : GSem nD τ sig → Unit → ℕ := fun _ _ => 0

/-- What rides beside the buffers through every item: the core's generator register at some state and the
    record that it owes nothing. -/
abbrev Rest (c : Dev nD) : sProp 𝕄 := iprop((∃ r, prngReg c r) ∗ ∃ W, owes (c : Thread nD τ) (0 : CellTallies nD τ sig Unit) W)
/-- The same rest at every boundary. -/
abbrev E0 : Fin 5 → Dev nD → sProp 𝕄 := fun _ c => Rest (F := F) c

end Cert.KernelIdeal.Fr

end
-- ==== Proof.KI.Seg0.lean ====
/-
  The dense input layer's region as one item of the program: entered with every buffer at the contents before it, it takes its
  windows' arrays out of them, runs its pipeline, and puts the arrays back — the inputs as they were, the
  result array at what the pipeline folded its blocks into. Nothing else moves.
-/
import proofs.«176669_j55628416418297_1_alg».proof.Proof.KI.Chain
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every window but the result's is an input, and stages an array other than the result's. -/
theorem isIn0 : ∀ w : Fin 4, w ≠ 3 → (cfg0.win w).isOut = false := by decide
theorem arr_ne0 : ∀ w : Fin 4, w ≠ 3 → Pipeline.arrRef spec0 w ≠ main_v12 := by decide

/-- At the region's exit each of its arrays holds what the pipeline leaves there: an input what it held, the
    result array the folded write-backs. -/
theorem hF0 (c : Dev nD) (w : Fin cfg0.W) : (dat0 (Y1 m) c).arrAt w cfg0.N = Y2 m c (Pipeline.arrRef spec0 w) := by
  by_cases h : w = 3
  · subst h
    show o2 m c = Function.update (X1 m c) main_v12 (o2 m c) main_v12
    rw [Function.update_self]
  · exact ((dat0 (Y1 m) c).arrAt_in w (isIn0 w h) _).trans
      ((A_eq0 (Y1 m) c w).trans (Function.update_of_ne (StableHlo.devRef_ne_of_ne (arr_ne0 w h)) _ _).symm)

/-- Every buffer that is none of the region's arrays holds at the exit what it held at the entry. -/
theorem hrest0 (c : Dev nD) : ∀ b : Ref sig .tc, b ∉ Finset.univ.image (Pipeline.arrRef spec0) → Y2 m c b = Y1 m c b :=
  fun b hb => Function.update_of_ne (StableHlo.devRef_ne_of_ne fun e =>
    hb (Finset.mem_image.mpr ⟨3, Finset.mem_univ _, (show Pipeline.arrRef spec0 3 = main_v12 from rfl).trans e.symm⟩)) _ _

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg0 : RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ L0 lv0 0 fun _ _ => rfl
  pre c := iprop(StableHlo.held (c : Thread nD τ) (Pipeline.ucRefs τ sig) (X1 m c) ∗ Rest c)
  post c := iprop(StableHlo.held (c : Thread nD τ) (Pipeline.ucRefs τ sig) (X2 m c) ∗ Rest c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
/-
  The first graph layer's region as one item of the program: entered with every buffer at the contents before it, it takes its
  windows' arrays out of them, runs its pipeline, and puts the arrays back — the inputs as they were, the
  result array at what the pipeline folded its blocks into. Nothing else moves.
-/
import proofs.«176669_j55628416418297_1_alg».proof.Proof.KI.Chain
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every window but the result's is an input, and stages an array other than the result's. -/
theorem isIn1 : ∀ w : Fin 8, w ≠ 7 → (cfg1.win w).isOut = false := by decide
theorem arr_ne1 : ∀ w : Fin 8, w ≠ 7 → Pipeline.arrRef spec1 w ≠ main_v37 := by decide

/-- At the region's exit each of its arrays holds what the pipeline leaves there: an input what it held, the
    result array the folded write-backs. -/
theorem hF1 (c : Dev nD) (w : Fin cfg1.W) : (dat1 (Y3 m) c).arrAt w cfg1.N = Y4 m c (Pipeline.arrRef spec1 w) := by
  by_cases h : w = 7
  · subst h
    show o4 m c = Function.update (X3 m c) main_v37 (o4 m c) main_v37
    rw [Function.update_self]
  · exact ((dat1 (Y3 m) c).arrAt_in w (isIn1 w h) _).trans
      ((A_eq1 (Y3 m) c w).trans (Function.update_of_ne (StableHlo.devRef_ne_of_ne (arr_ne1 w h)) _ _).symm)

/-- Every buffer that is none of the region's arrays holds at the exit what it held at the entry. -/
theorem hrest1 (c : Dev nD) : ∀ b : Ref sig .tc, b ∉ Finset.univ.image (Pipeline.arrRef spec1) → Y4 m c b = Y3 m c b :=
  fun b hb => Function.update_of_ne (StableHlo.devRef_ne_of_ne fun e =>
    hb (Finset.mem_image.mpr ⟨7, Finset.mem_univ _, (show Pipeline.arrRef spec1 7 = main_v37 from rfl).trans e.symm⟩)) _ _

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg1 : RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Y3 m) c).loose
  hwaits := Pipeline.hwaits_of_owed_zero _ _ _ _ L0 lv0 1 fun _ _ => rfl
  pre c := iprop(StableHlo.held (c : Thread nD τ) (Pipeline.ucRefs τ sig) (X3 m c) ∗ Rest c)
  post c := iprop(StableHlo.held (c : Thread nD τ) (Pipeline.ucRefs τ sig) (X4 m c) ∗ Rest c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
/-
  The second graph layer's region as one item of the program: entered with every buffer at the contents before it, it takes its
  windows' arrays out of them, runs its pipeline, and puts the arrays back — the inputs as they were, the
  result array at what the pipeline folded its blocks into. Nothing else moves.
-/
import proofs.«176669_j55628416418297_1_alg».proof.Proof.KI.Chain
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every window but the result's is an input, and stages an array other than the result's. -/
theorem isIn2 : ∀ w : Fin 8, w ≠ 7 → (cfg2.win w).isOut = false := by decide
theorem arr_ne2 : ∀ w : Fin 8, w ≠ 7 → Pipeline.arrRef spec2 w ≠ main_v61 := by decide

/-- At the region's exit each of its arrays holds what the pipeline leaves there: an input what it held, the
    result array the folded write-backs. -/
theorem hF2 (c : Dev nD) (w : Fin cfg2.W) : (dat2 (Y5 m) c).arrAt w cfg2.N = Y6 m c (Pipeline.arrRef spec2 w) := by
  by_cases h : w = 7
  · subst h
    show o6 m c = Function.update (X5 m c) main_v61 (o6 m c) main_v61
    rw [Function.update_self]
  · exact ((dat2 (Y5 m) c).arrAt_in w (isIn2 w h) _).trans
      ((A_eq2 (Y5 m) c w).trans (Function.update_of_ne (StableHlo.devRef_ne_of_ne (arr_ne2 w h)) _ _).symm)

/-- Every buffer that is none of the region's arrays holds at the exit what it held at the entry. -/
theorem hrest2 (c : Dev nD) : ∀ b : Ref sig .tc, b ∉ Finset.univ.image (Pipeline.arrRef spec2) → Y6 m c b = Y5 m c b :=
  fun b hb => Function.update_of_ne (StableHlo.devRef_ne_of_ne fun e =>
    hb (Finset.mem_image.mpr ⟨7, Finset.mem_univ _, (show Pipeline.arrRef spec2 7 = main_v61 from rfl).trans e.symm⟩)) _ _

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg2 : RegionSeg (pcfgs (F := F)) Gen.adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ L0 lv0 2 fun _ _ => rfl
  pre c := iprop(StableHlo.held (c : Thread nD τ) (Pipeline.ucRefs τ sig) (X5 m c) ∗ Rest c)
  post c := iprop(StableHlo.held (c : Thread nD τ) (Pipeline.ucRefs τ sig) (X6 m c) ∗ Rest c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
/-
  The third graph layer's region as one item of the program. It differs from the others in one point: two of
  its windows stage the same array, a zero vector, so the region cannot hold that array twice at the full share.
  It holds it at two half shares instead, which compose to the full share; every other array is its own, at the
  full share. At the entry the one buffer is split in two halves, at the exit the halves are joined again.
-/
import proofs.«176669_j55628416418297_1_alg».proof.Proof.KI.Chain
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Arrays

variable {c : Dev nD} (dat : Dat τ (Elt F) Unit ℕ (UR sig nD τ) ℕ cfg3 c) (hq : ∀ w, dat.q w = q3 w)
  (V : (b : Ref sig .tc) → Buf (Elt F) ((c : Thread nD τ).loc b))

include hq in
/-- Every array but the shared one is held at the full share: an input by the choice of shares, the result
    array because it is written. -/
theorem share3_full : ∀ w : Fin cfg3.W, w ≠ 5 → w ≠ 6 → dat.share w = fullShare
  | ⟨0, _⟩, _, _ => by unfold Dat.share; rw [hq]; rfl
  | ⟨1, _⟩, _, _ => by unfold Dat.share; rw [hq]; rfl
  | ⟨2, _⟩, _, _ => by unfold Dat.share; rw [hq]; rfl
  | ⟨3, _⟩, _, _ => by unfold Dat.share; rw [hq]; rfl
  | ⟨4, _⟩, _, _ => by unfold Dat.share; rw [hq]; rfl
  | ⟨5, _⟩, h, _ => absurd rfl h
  | ⟨6, _⟩, _, h => absurd rfl h
  | ⟨7, _⟩, _, _ => rfl
include hq in
theorem share3_5 : dat.share 5 = fullShare.left := by unfold Dat.share; rw [hq]; rfl
include hq in
theorem share3_6 : dat.share 6 = fullShare.right := by unfold Dat.share; rw [hq]; rfl

/-- The seven buffers behind the region's eight windows are the windows but the second of the two that share. -/
theorem image3 : Finset.univ.image (Pipeline.arrRef spec3) = (Finset.univ.erase (6 : Fin 8)).image (Pipeline.arrRef spec3) := by decide
theorem injOn3 : Set.InjOn (Pipeline.arrRef spec3) ((Finset.univ.erase (6 : Fin 8) : Finset (Fin 8)) : Set (Fin 8)) := by
  have h : ∀ a ∈ Finset.univ.erase (6 : Fin 8), ∀ b ∈ Finset.univ.erase (6 : Fin 8), Pipeline.arrRef spec3 a = Pipeline.arrRef spec3 b → a = b := by decide
  exact fun a ha b hb e => h a (Finset.mem_coe.mp ha) b (Finset.mem_coe.mp hb) e

include hq in
/-- The buffers behind the region's arrays, each whole at the full share, ARE the region's arrays at the same
    contents: window by window the same points-to, but for the shared buffer, whose full share is the two
    halves its two windows hold. -/
theorem arrays3_iff :
    ((Pipeline.arrBufs spec3 c V : sProp 𝕄) ⊢ dat.arrays (fun w => V (Pipeline.arrRef spec3 w)))
      ∧ (dat.arrays (fun w => V (Pipeline.arrRef spec3 w)) ⊢ (Pipeline.arrBufs spec3 c V : sProp 𝕄)) := by
  have h5 : (5 : Fin 8) ∈ Finset.univ.erase (6 : Fin 8) := by decide
  have hrest : bigSep ((Finset.univ.erase (6 : Fin 8)).erase 5) (fun w : Fin cfg3.W => ((cfg3.win w).arr.view.loc (c.tc : Thread nD τ) ↦[(cfg3.win w).arr.view.set]{dat.share w} V (Pipeline.arrRef spec3 w) : sProp 𝕄))
      = bigSep ((Finset.univ.erase (6 : Fin 8)).erase 5) (fun w : Fin cfg3.W => (((c.tc : Thread nD τ).loc (Pipeline.arrRef spec3 w)) ↦{fullShare} V (Pipeline.arrRef spec3 w) : sProp 𝕄)) :=
    bigSep_congr fun w hw => by
      rw [(arr_whole3 w).set_eq_univ, share3_full dat hq w (Finset.mem_erase.mp hw).1 (Finset.mem_erase.mp (Finset.mem_erase.mp hw).2).1]
  have hL : (Pipeline.arrBufs spec3 c V : sProp 𝕄)
      = iprop((((c.tc : Thread nD τ).loc main_v13) ↦{fullShare} V main_v13)
          ∗ bigSep ((Finset.univ.erase (6 : Fin 8)).erase 5) (fun w : Fin cfg3.W => (((c.tc : Thread nD τ).loc (Pipeline.arrRef spec3 w)) ↦{fullShare} V (Pipeline.arrRef spec3 w) : sProp 𝕄))) := by
    unfold Pipeline.arrBufs
    rw [image3, bigSep_image_of_injOn injOn3, bigSep_erase h5]
    rfl
  have hR : dat.arrays (fun w => V (Pipeline.arrRef spec3 w))
      = iprop((((c.tc : Thread nD τ).loc main_v13) ↦{fullShare.right} V main_v13)
          ∗ (((c.tc : Thread nD τ).loc main_v13) ↦{fullShare.left} V main_v13)
          ∗ bigSep ((Finset.univ.erase (6 : Fin 8)).erase 5) (fun w : Fin cfg3.W => (((c.tc : Thread nD τ).loc (Pipeline.arrRef spec3 w)) ↦{fullShare} V (Pipeline.arrRef spec3 w) : sProp 𝕄))) := by
    unfold Dat.arrays
    rw [bigSep_erase (Finset.mem_univ (6 : Fin 8)), bigSep_erase h5, hrest, (arr_whole3 6).set_eq_univ, share3_5 dat hq, share3_6 dat hq]
    rfl
  have hsh1 : ((((c.tc : Thread nD τ).loc main_v13) ↦{fullShare} V main_v13 : sProp 𝕄))
      ⊢ iprop((((c.tc : Thread nD τ).loc main_v13) ↦{fullShare.left} V main_v13) ∗ (((c.tc : Thread nD τ).loc main_v13) ↦{fullShare.right} V main_v13)) :=
    (pointsTo_share (PosShare.mem_left_op_right fullShare)).1
  have hsh2 : (iprop((((c.tc : Thread nD τ).loc main_v13) ↦{fullShare.left} V main_v13) ∗ (((c.tc : Thread nD τ).loc main_v13) ↦{fullShare.right} V main_v13)) : sProp 𝕄)
      ⊢ (((c.tc : Thread nD τ).loc main_v13) ↦{fullShare} V main_v13) :=
    (pointsTo_share (PosShare.mem_left_op_right fullShare)).2
  rw [hL, hR]
  constructor
  · iintro ⟨H, HT⟩
    ihave H' := hsh1 $$ H
    icases H' with ⟨Hl, Hr⟩
    isplitl [Hr]; · iexact Hr
    isplitl [Hl]; · iexact Hl
    iexact HT
  · iintro ⟨Hr, Hl, HT⟩
    isplitl [Hl Hr]
    · iapply hsh2; isplitl [Hl]; · iexact Hl
      iexact Hr
    iexact HT

end Arrays

variable (m : (ℓ : Loc nD τ sig) → Buf (Elt F) ℓ)

/-- Every window but the result's is an input, and stages an array other than the result's. -/
theorem isIn3 : ∀ w : Fin 8, w ≠ 7 → (cfg3.win w).isOut = false := by decide
theorem arr_ne3 : ∀ w : Fin 8, w ≠ 7 → Pipeline.arrRef spec3 w ≠ main_v81 := by decide

/-- At the region's exit each of its arrays holds what the pipeline leaves there: an input what it held, the
    result array the folded write-backs. -/
theorem hF3 (c : Dev nD) (w : Fin cfg3.W) : (dat3 (Y7 m) q3 c).arrAt w cfg3.N = Y8 m c (Pipeline.arrRef spec3 w) := by
  by_cases h : w = 7
  · subst h
    show o8 m c = Function.update (X7 m c) main_v81 (o8 m c) main_v81
    rw [Function.update_self]
  · exact ((dat3 (Y7 m) q3 c).arrAt_in w (isIn3 w h) _).trans
      ((A_eq3 (Y7 m) q3 c w).trans (Function.update_of_ne (StableHlo.devRef_ne_of_ne (arr_ne3 w h)) _ _).symm)

/-- Every buffer that is none of the region's arrays holds at the exit what it held at the entry. -/
theorem hrest3 (c : Dev nD) : ∀ b : Ref sig .tc, b ∉ Finset.univ.image (Pipeline.arrRef spec3) → Y8 m c b = Y7 m c b :=
  fun b hb => Function.update_of_ne (StableHlo.devRef_ne_of_ne fun e =>
    hb (Finset.mem_image.mpr ⟨7, Finset.mem_univ _, (show Pipeline.arrRef spec3 7 = main_v81 from rfl).trans e.symm⟩)) _ _

/-- ENTRY, the arrays' part: the core's unscoped buffers at the entry contents are the region's arrays at the
    proof data's entry contents and the unscoped rest. -/
theorem entry3 (c : Dev nD) :
    (unscopedBufs c (Y7 m c) : sProp 𝕄) ⊢ iprop((pdats m 3 c).arrays ((pdats m 3 c).arrAt · 0) ∗ Pipeline.unscopedRest spec3 c (Y7 m c)) := by
  rw [Pipeline.unscopedBufs_split₀ cfgs 3 winFacts₀3.arr_unscoped c (Y7 m c)]
  exact sep_mono (arrays3_iff (dat3 (Y7 m) q3 c) (fun _ => rfl) (Y7 m c)).1 .rfl

/-- EXIT, the arrays' part: the region's arrays at what the pipeline leaves and the unscoped rest are the core's
    unscoped buffers at the exit contents. -/
theorem exit3 (c : Dev nD) :
    iprop((pdats m 3 c).arrays ((pdats m 3 c).arrAt · cfg3.N) ∗ Pipeline.unscopedRest spec3 c (Y7 m c)) ⊢ (unscopedBufs c (Y8 m c) : sProp 𝕄) := by
  rw [Pipeline.unscopedBufs_split₀ cfgs 3 winFacts₀3.arr_unscoped c (Y8 m c),
    show ((pdats m 3 c).arrAt · cfg3.N) = (fun w => Y8 m c (Pipeline.arrRef spec3 w)) from funext (hF3 m c)]
  refine sep_mono (arrays3_iff (dat3 (Y7 m) q3 c) (fun _ => rfl) (Y8 m c)).2 (Entails.of_eq ?_)
  unfold Pipeline.unscopedRest
  exact bigSep_congr fun b hb => by rw [hrest3 m c b (Finset.mem_sdiff.mp hb).2]

set_option backward.isDefEq.respectTransparency.types false in
/-- The region over the thread state: every unscoped buffer at the entry contents beside the rest, to every
    unscoped buffer at the exit contents beside the rest. The generator register goes into the pipeline's
    invariant and comes back; nothing is owed; the kernel has no semaphore of its own. -/
def reg3 : RegionSeg (pcfgs (F := F)) Gen.adm (pdats m) () defs₀ Variants.none L0 lv0 3 where
  win := winFacts₀3
  block_pos := block_pos3
  stage_whole := stage_whole3
  K := PEmpty
  osem k := k.elim
  ho := Pipeline.OwnSemFacts.none _
  hbody c := (body_obligation3 (Y7 m) q3 c).loose
  hwaits := Pipeline.hwaits_of_owed_zero _ _ _ _ L0 lv0 3 fun _ _ => rfl
  pre c := iprop(StableHlo.held (c : Thread nD τ) (Pipeline.ucRefs τ sig) (X7 m c) ∗ Rest c)
  post c := iprop(StableHlo.held (c : Thread nD τ) (Pipeline.ucRefs τ sig) (X8 m c) ∗ Rest c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := entry3 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/-
  The whole run. The program is eight items in a row — a host stretch, then a region, four times over — and
  each item is entered from what the one before it left. The launch deals every buffer at the launch memory
  and the core owing nothing; the items carry the buffers from boundary to boundary; at the end the argument
  arrays are read off the last boundary's contents, which no item has changed at an argument, and the result
  array holds what the last region folded its blocks into.
-/
import proofs.«176669_j55628416418297_1_alg».proof.Proof.KI.Seg0
import proofs.«176669_j55628416418297_1_alg».proof.Proof.KI.Seg1
import proofs.«176669_j55628416418297_1_alg».proof.Proof.KI.Seg2
import proofs.«176669_j55628416418297_1_alg».proof.Proof.KI.Seg3
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipeline library's own, and no other ghost resource is dealt. -/
theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes the rest on every core: the generator register at its
    launch state, the core owing nothing. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L0 lv0)
      ⊢ (|={Set.univ}=> bigSep Finset.univ (E0 (F := F) 0) : sProp 𝕄) := by
  refine Pipeline.initEach L0 lv0 fun c => ?_
  iintro ⟨⟨-, HO, -, Hp, -⟩, -⟩
  imodintro
  isplitl [Hp]; · iexists _; iexact Hp
  iexists ∅; iexact HO

/-- The rest at the end says the core owes nothing. -/
theorem rest_owes (c : Dev nD) : E0 (F := F) 4 c ⊢ (iprop(∃ W, owes (c : Thread nD τ) (0 : CellTallies nD τ sig Unit) W) : sProp 𝕄) := by
  iintro ⟨-, HO⟩; iexact HO

/-! Each region is entered from the generated contents before it and leaves the generated contents after it. -/

theorem hpre0 (c : Dev nD) : iprop(StableHlo.held (c : Thread nD τ) (Pipeline.ucRefs τ sig) (Gen.V1 m c) ∗ E0 0 c) ⊢ (reg0 m).pre c := .rfl
theorem hpost0 (c : Dev nD) : (reg0 m).post c ⊢ iprop(StableHlo.held (c : Thread nD τ) (Pipeline.ucRefs τ sig) (Gen.V2 m (outs m) c) ∗ E0 1 c) := by rw [V2_eq]; exact .rfl
theorem hpre1 (c : Dev nD) : iprop(StableHlo.held (c : Thread nD τ) (Pipeline.ucRefs τ sig) (Gen.V3 m (outs m) c) ∗ E0 1 c) ⊢ (reg1 m).pre c := by rw [V3_eq]; exact .rfl
theorem hpost1 (c : Dev nD) : (reg1 m).post c ⊢ iprop(StableHlo.held (c : Thread nD τ) (Pipeline.ucRefs τ sig) (Gen.V4 m (outs m) c) ∗ E0 2 c) := by rw [V4_eq]; exact .rfl
theorem hpre2 (c : Dev nD) : iprop(StableHlo.held (c : Thread nD τ) (Pipeline.ucRefs τ sig) (Gen.V5 m (outs m) c) ∗ E0 2 c) ⊢ (reg2 m).pre c := by rw [V5_eq]; exact .rfl
theorem hpost2 (c : Dev nD) : (reg2 m).post c ⊢ iprop(StableHlo.held (c : Thread nD τ) (Pipeline.ucRefs τ sig) (Gen.V6 m (outs m) c) ∗ E0 3 c) := by rw [V6_eq]; exact .rfl
theorem hpre3 (c : Dev nD) : iprop(StableHlo.held (c : Thread nD τ) (Pipeline.ucRefs τ sig) (Gen.V7 m (outs m) c) ∗ E0 3 c) ⊢ (reg3 m).pre c := by rw [V7_eq]; exact .rfl
theorem hpost3 (c : Dev nD) : (reg3 m).post c ⊢ iprop(StableHlo.held (c : Thread nD τ) (Pipeline.ucRefs τ sig) (Gen.V8 m (outs m) c) ∗ E0 4 c) := by rw [V8_eq]; exact .rfl

/-- THE FRAME, at any float instance: from any memory with zero counters every weakly fair execution of the
    program terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := launch_ghost) (E := E0) (hE0 := launch_rest ρ) (hE4 := rest_owes)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)

set_option backward.isDefEq.respectTransparency.types false in
/-- THE RUN WITH ITS RESULT NAMED: the same run, and the result array ends holding what the last region
    folded its ten result blocks into, `o8`. -/
theorem run_value : θ_run defs (onTc (τ := τ) (main (F := F))) ⟨m, fun _ => 0, ρ⟩ (fun r => ∀ c : Dev nD,
      r.2.mem ((c.tc : Thread nD τ).loc main_v81) = o8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) Gen.adm (pdats m) () cellOf_inj emb₁ defs₀ Variants.none L0 lv0 m ρ main
    (Gen.segs m (outs m) Variants.none L0 lv0 E0 () (pdats m) (reg0 m) (reg1 m) (reg2 m) (reg3 m))
    (fun c Q => by
      rewrite [main_chain c, Seg.run_eq_chain,
        show (Gen.segs m (outs m) Variants.none L0 lv0 E0 () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide)
    (0 : Dev nD → CellTallies nD τ sig Unit) (fun _ _ => rfl) (fun _ => iprop(emp))
    (initOf (Pipeline.cells cfgs cellOf_inj) (Pipeline.launchToks cfgs cellOf_inj)) launch_ghost
    (T₀ := fun c => iprop(StableHlo.held (c : Thread nD τ) (Pipeline.ucRefs τ sig) (Gen.V0 m c) ∗ E0 0 c))
    (Tₙ := fun c => StableHlo.held (c : Thread nD τ) (Pipeline.ucRefs τ sig) (Gen.V8 m (outs m) c))
    (hch := fun c => ⟨.rfl, hpre0 m c, hpost0 m c, hpre1 m c, hpost1 m c, hpre2 m c, hpost2 m c, hpre3 m c,
      (hpost3 m c).trans (sep_mono .rfl (rest_owes c))⟩)
    (hinit := ?_) (QY := fun c s => s.mem ((c.tc : Thread nD τ).loc main_v81) = o8 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: every unscoped buffer at the launch memory; the rest made on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c)) (E0 (F := F) 0)]
    isplitl [Hh]; · iexact Hh
    iexact HE
  · -- the end: the result array and each argument read off the last boundary's contents
    unfold StableHlo.held
    iintro ⟨Hh, HSI⟩
    ihave Hr := (pointsTo_read_all (Pipeline.ucRefs τ sig) (fun b => ((c : Thread nD τ).1, b)) (Gen.V8 m (outs m) c) s') $$ [Hh HSI]
    · isplitl [Hh] <;> iassumption
    icases Hr with ⟨%h, HSI⟩
    imodintro
    isplitr
    · ipureintro
      exact ⟨(h (Proc.devRef .tc main_v81) (Finset.mem_filter.mpr ⟨StableHlo.devRef_mem_tcRefs main_v81, by decide⟩)).trans ((congrFun (V8_eq m c) _).trans (X8_result m c)),
        (h (Proc.devRef .tc main_arg0) (Finset.mem_filter.mpr ⟨StableHlo.devRef_mem_tcRefs main_arg0, by decide⟩)).trans (Gen.V8_main_arg0 m (outs m) c),
        (h (Proc.devRef .tc main_arg1) (Finset.mem_filter.mpr ⟨StableHlo.devRef_mem_tcRefs main_arg1, by decide⟩)).trans (Gen.V8_main_arg1 m (outs m) c),
        (h (Proc.devRef .tc main_arg2) (Finset.mem_filter.mpr ⟨StableHlo.devRef_mem_tcRefs main_arg2, by decide⟩)).trans (Gen.V8_main_arg2 m (outs m) c),
        (h (Proc.devRef .tc main_arg3) (Finset.mem_filter.mpr ⟨StableHlo.devRef_mem_tcRefs main_arg3, by decide⟩)).trans (Gen.V8_main_arg3 m (outs m) c),
        (h (Proc.devRef .tc main_arg4) (Finset.mem_filter.mpr ⟨StableHlo.devRef_mem_tcRefs main_arg4, by decide⟩)).trans (Gen.V8_main_arg4 m (outs m) c),
        (h (Proc.devRef .tc main_arg5) (Finset.mem_filter.mpr ⟨StableHlo.devRef_mem_tcRefs main_arg5, by decide⟩)).trans (Gen.V8_main_arg5 m (outs m) c),
        (h (Proc.devRef .tc main_arg6) (Finset.mem_filter.mpr ⟨StableHlo.devRef_mem_tcRefs main_arg6, by decide⟩)).trans (Gen.V8_main_arg6 m (outs m) c),
        (h (Proc.devRef .tc main_arg7) (Finset.mem_filter.mpr ⟨StableHlo.devRef_mem_tcRefs main_arg7, by decide⟩)).trans (Gen.V8_main_arg7 m (outs m) c),
        (h (Proc.devRef .tc main_arg8) (Finset.mem_filter.mpr ⟨StableHlo.devRef_mem_tcRefs main_arg8, by decide⟩)).trans (Gen.V8_main_arg8 m (outs m) c),
        (h (Proc.devRef .tc main_arg9) (Finset.mem_filter.mpr ⟨StableHlo.devRef_mem_tcRefs main_arg9, by decide⟩)).trans (Gen.V8_main_arg9 m (outs m) c)⟩
    · iexact HSI

end Cert.KernelIdeal.Fr

end
-- ==== Proof.Spec.lean ====
/-
  What one node of the network computes, row by row, on the extended reals — no program in sight.

  A node's row of 128 features goes through a dense layer and a clamp at zero (`fc`). Each of the three graph
  layers takes a node's row `h` and the row `a` that the neighbourhood aggregation made of everybody's rows, and
  forms `a · Wlᵀ + h · Wrᵀ + b` (`lin`); the first two layers then normalise that row to zero mean and unit
  variance (the variance offset by a small constant), scale by `g`, shift by `n`, and clamp at zero (`ln`). The whole
  network (`net`) chains them, the aggregation `agg` being whatever function of the full array of rows the two
  programs share.
-/
import Idealize.ShloMosaic.PureOps.Ideal
import Idealize.ShloMosaic.Lib.ValueIdx

noncomputable section

namespace Cert.Spec

open Idealize.ShloMosaic Idealize.ShloMosaic.ValueIdx

/-- A rank-2 array given entry by entry. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ix2 p q) = f p q := rfl

/-- The float words the two programs share: zero, sixty-four, and the variance offset. -/
def zero : EReal := Ideal.ofBits .f32 0x00000000#32
def c64 : EReal := Ideal.ofBits .f32 0x42800000#32
def eps : EReal := Ideal.ofBits .f32 0x3727C5AC#32

/-- The dense input layer at one row `x` and output column `j`: `max (x · W j + b j) 0`. -/
def fc (x : Fin 128 → EReal) (W : Fin 64 → Fin 128 → EReal) (b : Fin 64 → EReal) (j : Fin 64) : EReal :=
  max ((∑ k : Fin 128, x k * W j k) + b j) zero

/-- The linear part of a graph layer at one node, column `j`: aggregated row times `Wlᵀ`, own row times `Wrᵀ`, bias. -/
def lin (a h : Fin 64 → EReal) (Wl Wr : Fin 64 → Fin 64 → EReal) (b : Fin 64 → EReal) (j : Fin 64) : EReal :=
  ((∑ k : Fin 64, a k * Wl j k) + (∑ k : Fin 64, h k * Wr j k)) + b j

/-- A row's mean. -/
def mean (x : Fin 64 → EReal) : EReal := Ideal.div (∑ k : Fin 64, x k) c64

/-- A row's variance about its mean. -/
def var (x : Fin 64 → EReal) : EReal := Ideal.div (∑ k : Fin 64, (x k - mean x) * (x k - mean x)) c64

/-- Layer normalisation of a row, scaled and shifted, then clamped at zero, at column `j`. -/
def ln (x g n : Fin 64 → EReal) (j : Fin 64) : EReal :=
  max ((g j * (x j - mean x)) * Ideal.rsqrt (var x + eps) + n j) zero

abbrev A128 : Type := (⟨2, ![50000, 128]⟩ : Shape).Idx → EReal
abbrev A64 : Type := (⟨2, ![50000, 64]⟩ : Shape).Idx → EReal
abbrev W128 : Type := (⟨2, ![64, 128]⟩ : Shape).Idx → EReal
abbrev W64 : Type := (⟨2, ![64, 64]⟩ : Shape).Idx → EReal
abbrev B64 : Type := (⟨1, ![64]⟩ : Shape).Idx → EReal

/-- The dense input layer over all nodes. -/
def fcArr (x : A128) (W : W128) (b : B64) : A64 :=
  arr2 fun (r : Fin 50000) (j : Fin 64) => fc (fun k => x (ix2 r k)) (fun j' k => W (ix2 j' k)) (fun j' => b (ix1 j')) j

/-- A graph layer without normalisation over all nodes (the last layer). -/
def linArr (a h : A64) (Wl Wr : W64) (b : B64) : A64 :=
  arr2 fun (r : Fin 50000) (j : Fin 64) =>
    lin (fun k => a (ix2 r k)) (fun k => h (ix2 r k)) (fun j' k => Wl (ix2 j' k)) (fun j' k => Wr (ix2 j' k)) (fun j' => b (ix1 j')) j

/-- A normalised graph layer over all nodes (the first two layers). -/
def lnArr (a h : A64) (Wl Wr : W64) (b g n : B64) : A64 :=
  arr2 fun (r : Fin 50000) (j : Fin 64) =>
    ln (lin (fun k => a (ix2 r k)) (fun k => h (ix2 r k)) (fun j' k => Wl (ix2 j' k)) (fun j' k => Wr (ix2 j' k)) (fun j' => b (ix1 j')))
      (fun j' => g (ix1 j')) (fun j' => n (ix1 j')) j

/-- The network: dense layer, two normalised graph layers, one plain graph layer, each graph layer fed the
    aggregation `agg` of the rows before it. -/
def net (agg : A64 → A64) (x : A128) (W : W128) (b : B64)
    (Wl0 Wr0 : W64) (b0 g0 n0 : B64) (Wl1 Wr1 : W64) (b1 g1 n1 : B64) (Wl2 Wr2 : W64) (b2 : B64) : A64 :=
  let h0 := fcArr x W b
  let h1 := lnArr (agg h0) h0 Wl0 Wr0 b0 g0 n0
  let h2 := lnArr (agg h1) h1 Wl1 Wr1 b1 g1 n1
  linArr (agg h2) h2 Wl2 Wr2 b2

end Cert.Spec

end
-- ==== Proof.KI.PayOps.lean ====
/-
  The layout operations and contractions of the kernel bodies, read at an entry of a 5000-row block over the extended
  reals: a row vector broadcast down the rows, a column broadcast along the rows, the sum along a row, and a block
  times a transposed weight matrix as a sum over the contracted index.
-/
import proofs.«176669_j55628416418297_1_alg».proof.Proof.Gen.KernelIdeal.Skeleton
import proofs.«176669_j55628416418297_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- A vector of 64 entries broadcast down 5000 rows reads, at `(p, q)`, its entry `q`. -/
theorem rowb (v : FVec Ideal S64 .f32) (p : Fin 5000) (q : Fin 64) :
    broadcastTo S5000x64 (shapeCast S1x64 v shapeCasts_S64_S1x64) broadcasts_S1x64_S5000x64 (ix2 p q) = v (ix1 q) :=
  (broadcastTo_1b_ab_apply _ _ p q).trans (shapeCast_a_1a_apply v _ 0 q)

/-- A vector of 5000 entries as a column reads, at `(p, u)`, its entry `p`. -/
theorem colcast (v : FVec Ideal S5000 .f32) (p : Fin 5000) (u : Fin 1) :
    shapeCast S5000x1 v shapeCasts_S5000_S5000x1 (ix2 p u) = v (ix1 p) :=
  shapeCast_apply v _ _ _ (by
    have hu : u.val = 0 := by omega
    rw [Shape.rowMajor_val_one, Shape.rowMajor_val_two]
    show p.val = p.val * 1 + u.val
    omega)

/-- A column broadcast along 64 columns reads, at `(p, q)`, its entry `p`. -/
theorem colb (x : FVec Ideal S5000x1 .f32) (p : Fin 5000) (q : Fin 64) :
    broadcastTo S5000x64 x broadcasts_S5000x1_S5000x64 (ix2 p q) = x (ix2 p (0 : Fin 1)) := by
  refine broadcastTo_apply x _ (ix2 p q) (ix2 p (0 : Fin 1)) fun ax => ?_
  match ax with
  | ⟨0, _⟩ =>
    show p.val = if (5000 : Nat) = 1 then 0 else p.val
    rw [if_neg (by decide)]
  | ⟨1, _⟩ => rfl

/-- The sum along a row of a block. -/
theorem lanesum (src : FVec Ideal S5000x64 .f32) (p : Fin 5000) :
    multiReduction .add [1] S5000 src 0x00000000#32 reduces_S5000x64_S5000 (.inl rfl) rfl (ix1 p) = ∑ k : Fin 64, src (ix2 p k) := by
  refine (Ideal.multiReduction_add_single src 0x00000000#32 reduces_S5000x64_S5000 (.inl rfl) rfl (ix1 p)).trans ?_
  exact Finset.sum_congr rfl fun k _ => congrArg src (funext fun a => Fin.ext (by match a with | ⟨0, _⟩ => rfl | ⟨1, _⟩ => rfl))

theorem d64_lhs0 (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d64_lhs1 (i : S5000x64.Idx) (c : dot_S5000x64_S64x64_S5000x64_1_0_0_1_n_n.contr.Idx) : (dot_S5000x64_S64x64_S5000x64_1_0_0_1_n_n.lhsIdx i c 1).val = (c ⟨0, by decide⟩).val :=
  dot_S5000x64_S64x64_S5000x64_1_0_0_1_n_n.lhsIdx_val_of_single rfl i c
theorem d64_rhs0 (i : S5000x64.Idx) (c : dot_S5000x64_S64x64_S5000x64_1_0_0_1_n_n.contr.Idx) : (dot_S5000x64_S64x64_S5000x64_1_0_0_1_n_n.rhsIdx i c 0).val = (c ⟨0, by decide⟩).val :=
  dot_S5000x64_S64x64_S5000x64_1_0_0_1_n_n.rhsIdx_val_of_single rfl i c
theorem d64_rhs1 (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the transpose of a 64×64 matrix, from zero: entry `(p, q)` is the sum over `k` of
    the block's `(p, k)` times the matrix's `(q, k)`. -/
theorem mm64 (a : FVec Ideal S5000x64 .bf16) (w : FVec Ideal S64x64 .bf16) (p : Fin 5000) (q : Fin 64) :
    matmul dot_S5000x64_S64x64_S5000x64_1_0_0_1_n_n none a (transpose S64x64 [1, 0] w transposes_S64x64_p1_0_S64x64)
        (constant S5000x64 .f32 0x00000000#32) (ix2 p q)
      = ∑ k : Fin 64, a (ix2 p k) * w (ix2 q k) := by
  generalize hT : transpose S64x64 [1, 0] w transposes_S64x64_p1_0_S64x64 = wT
  refine (Ideal.matmul_constant_zero_apply dot_S5000x64_S64x64_S5000x64_1_0_0_1_n_n none a wT (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact d64_lhs0 _ _
      | ⟨1, _⟩ => exact (d64_lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (d64_rhs0 _ _).trans hk
      | ⟨1, _⟩ => exact d64_rhs1 _ _)
  rw [el, er, ← hT]
  exact congrArg (a (ix2 p k) * ·) (transpose_ix2_apply w transposes_S64x64_p1_0_S64x64 k q)

theorem d128_lhs0 (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d128_lhs1 (i : S5000x64.Idx) (c : dot_S5000x128_S128x64_S5000x64_1_0_0_1_n_n.contr.Idx) : (dot_S5000x128_S128x64_S5000x64_1_0_0_1_n_n.lhsIdx i c 1).val = (c ⟨0, by decide⟩).val :=
  dot_S5000x128_S128x64_S5000x64_1_0_0_1_n_n.lhsIdx_val_of_single rfl i c
theorem d128_rhs0 (i : S5000x64.Idx) (c : dot_S5000x128_S128x64_S5000x64_1_0_0_1_n_n.contr.Idx) : (dot_S5000x128_S128x64_S5000x64_1_0_0_1_n_n.rhsIdx i c 0).val = (c ⟨0, by decide⟩).val :=
  dot_S5000x128_S128x64_S5000x64_1_0_0_1_n_n.rhsIdx_val_of_single rfl i c
theorem d128_rhs1 (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The same for the input layer: a block of 128-feature rows times the transpose of the 64×128 matrix. -/
theorem mm128 (a : FVec Ideal S5000x128 .bf16) (w : FVec Ideal S64x128 .bf16) (p : Fin 5000) (q : Fin 64) :
    matmul dot_S5000x128_S128x64_S5000x64_1_0_0_1_n_n none a (transpose S128x64 [1, 0] w transposes_S64x128_p1_0_S128x64)
        (constant S5000x64 .f32 0x00000000#32) (ix2 p q)
      = ∑ k : Fin 128, a (ix2 p k) * w (ix2 q k) := by
  generalize hT : transpose S128x64 [1, 0] w transposes_S64x128_p1_0_S128x64 = wT
  refine (Ideal.matmul_constant_zero_apply dot_S5000x128_S128x64_S5000x64_1_0_0_1_n_n none a wT (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun ax => Fin.ext (by
      match ax with
      | ⟨0, _⟩ => exact d128_lhs0 _ _
      | ⟨1, _⟩ => exact (d128_lhs1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun ax => Fin.ext (by
      match ax with
      | ⟨0, _⟩ => exact (d128_rhs0 _ _).trans hk
      | ⟨1, _⟩ => exact d128_rhs1 _ _)
  rw [el, er, ← hT]
  exact congrArg (a (ix2 p k) * ·) (transpose_ix2_apply w transposes_S64x128_p1_0_S128x64 k q)

/-! ## The input layer's payload at an entry of the block -/

/-- The stored value at `(p, q)`: row `p` against row `q` of the matrix, plus the bias, clamped at zero. -/
theorem pay_fc (v0 : Vec Ideal S5000x128 .f32) (v2 : Vec Ideal S64x128 .f32) (v6 : Vec Ideal S64 .f32) (p : Fin 5000) (q : Fin 64) :
    k0_pay1 v0 v2 v6 (ix2 p q) = Cert.Spec.fc (fun k => v0 (ix2 p k)) (fun j k => v2 (ix2 j k)) (fun j => v6 (ix1 j)) q := by
  unfold k0_pay1 Cert.Spec.fc
  exact congrArg₂ max (congrArg₂ (· + ·) (mm128 _ _ p q) (rowb v6 p q)) rfl

/-! ## Layer 1's payloads at an entry of the block -/

/-- The linear part at `(p, q)`: the aggregated row and the node's own row against rows `q` of the two matrices, plus the bias. -/
theorem pay_lin1 (v0 v3 : Vec Ideal S5000x64 .f32) (v6 v9 : Vec Ideal S64x64 .f32) (v17 : Vec Ideal S64 .f32) (p : Fin 5000) (q : Fin 64) :
    k1_pay2 v0 v3 v6 v9 v17 (ix2 p q)
      = Cert.Spec.lin (fun k => v0 (ix2 p k)) (fun k => v3 (ix2 p k)) (fun j k => v6 (ix2 j k)) (fun j k => v9 (ix2 j k)) (fun j => v17 (ix1 j)) q := by
  unfold k1_pay2 Cert.Spec.lin
  simp only [shapeCast_self]
  exact congrArg₂ (· + ·) (congrArg₂ (· + ·) (mm64 _ _ p q) (mm64 _ _ p q)) (rowb _ p q)

/-- The row mean, kept as a column, at `(p, u)`. -/
theorem pay_mean1 (v0 v3 : Vec Ideal S5000x64 .f32) (v6 v9 : Vec Ideal S64x64 .f32) (v17 : Vec Ideal S64 .f32) (p : Fin 5000) (u : Fin 1) :
    k1_pay3 v0 v3 v6 v9 v17 (ix2 p u)
      = Cert.Spec.mean (Cert.Spec.lin (fun k => v0 (ix2 p k)) (fun k => v3 (ix2 p k)) (fun j k => v6 (ix2 j k)) (fun j k => v9 (ix2 j k)) (fun j => v17 (ix1 j))) := by
  unfold k1_pay3 Cert.Spec.mean
  exact congrArg₂ Ideal.div ((colcast _ p u).trans ((lanesum _ p).trans (Finset.sum_congr rfl fun k _ => pay_lin1 v0 v3 v6 v9 v17 p k))) rfl

/-- The row's deviation from its mean at `(p, q)`. -/
theorem pay_dev1 (v0 v3 : Vec Ideal S5000x64 .f32) (v6 v9 : Vec Ideal S64x64 .f32) (v17 : Vec Ideal S64 .f32) (p : Fin 5000) (q : Fin 64) :
    subf (k1_pay2 v0 v3 v6 v9 v17) (broadcastTo S5000x64 (k1_pay3 v0 v3 v6 v9 v17) broadcasts_S5000x1_S5000x64) (ix2 p q)
      = Cert.Spec.lin (fun k => v0 (ix2 p k)) (fun k => v3 (ix2 p k)) (fun j k => v6 (ix2 j k)) (fun j k => v9 (ix2 j k)) (fun j => v17 (ix1 j)) q
        - Cert.Spec.mean (Cert.Spec.lin (fun k => v0 (ix2 p k)) (fun k => v3 (ix2 p k)) (fun j k => v6 (ix2 j k)) (fun j k => v9 (ix2 j k)) (fun j => v17 (ix1 j))) :=
  congrArg₂ (· - ·) (pay_lin1 v0 v3 v6 v9 v17 p q) ((colb _ p q).trans (pay_mean1 v0 v3 v6 v9 v17 p 0))

/-- The row variance plus the offset, kept as a column, at `(p, u)`. -/
theorem pay_var1 (v0 v3 : Vec Ideal S5000x64 .f32) (v6 v9 : Vec Ideal S64x64 .f32) (v17 : Vec Ideal S64 .f32) (p : Fin 5000) (u : Fin 1) :
    k1_pay5 v0 v3 v6 v9 v17 (ix2 p u)
      = Cert.Spec.var (Cert.Spec.lin (fun k => v0 (ix2 p k)) (fun k => v3 (ix2 p k)) (fun j k => v6 (ix2 j k)) (fun j k => v9 (ix2 j k)) (fun j => v17 (ix1 j))) + Cert.Spec.eps := by
  unfold k1_pay5 Cert.Spec.var
  exact congrArg₂ (· + ·) (congrArg₂ Ideal.div ((colcast _ p u).trans ((lanesum _ p).trans (Finset.sum_congr rfl fun k _ =>
    congrArg₂ (· * ·) (pay_dev1 v0 v3 v6 v9 v17 p k) (pay_dev1 v0 v3 v6 v9 v17 p k)))) rfl) rfl

/-- The stored value at `(p, q)`: the normalised, scaled, shifted and clamped linear part of row `p`. -/
theorem pay_ln1 (v0 v3 : Vec Ideal S5000x64 .f32) (v6 v9 : Vec Ideal S64x64 .f32) (v17 v33 v45 : Vec Ideal S64 .f32) (p : Fin 5000) (q : Fin 64) :
    k1_pay1 (k1_pay4 v0 v3 v6 v9 v17 v33) (k1_pay5 v0 v3 v6 v9 v17) v45 (ix2 p q)
      = Cert.Spec.ln (Cert.Spec.lin (fun k => v0 (ix2 p k)) (fun k => v3 (ix2 p k)) (fun j k => v6 (ix2 j k)) (fun j k => v9 (ix2 j k)) (fun j => v17 (ix1 j)))
          (fun j => v33 (ix1 j)) (fun j => v45 (ix1 j)) q := by
  unfold k1_pay1 k1_pay4 Cert.Spec.ln
  simp only [shapeCast_self]
  exact congrArg₂ max (congrArg₂ (· + ·) (congrArg₂ (· * ·) (congrArg₂ (· * ·) (rowb v33 p q) (pay_dev1 v0 v3 v6 v9 v17 p q))
    ((colb _ p q).trans (congrArg Ideal.rsqrt (pay_var1 v0 v3 v6 v9 v17 p 0)))) (rowb v45 p q)) rfl

/-! ## Layer 2's payloads at an entry of the block -/

/-- The linear part at `(p, q)`: the aggregated row and the node's own row against rows `q` of the two matrices, plus the bias. -/
theorem pay_lin2 (v0 v3 : Vec Ideal S5000x64 .f32) (v6 v9 : Vec Ideal S64x64 .f32) (v17 : Vec Ideal S64 .f32) (p : Fin 5000) (q : Fin 64) :
    k2_pay2 v0 v3 v6 v9 v17 (ix2 p q)
      = Cert.Spec.lin (fun k => v0 (ix2 p k)) (fun k => v3 (ix2 p k)) (fun j k => v6 (ix2 j k)) (fun j k => v9 (ix2 j k)) (fun j => v17 (ix1 j)) q := by
  unfold k2_pay2 Cert.Spec.lin
  simp only [shapeCast_self]
  exact congrArg₂ (· + ·) (congrArg₂ (· + ·) (mm64 _ _ p q) (mm64 _ _ p q)) (rowb _ p q)

/-- The row mean, kept as a column, at `(p, u)`. -/
theorem pay_mean2 (v0 v3 : Vec Ideal S5000x64 .f32) (v6 v9 : Vec Ideal S64x64 .f32) (v17 : Vec Ideal S64 .f32) (p : Fin 5000) (u : Fin 1) :
    k2_pay3 v0 v3 v6 v9 v17 (ix2 p u)
      = Cert.Spec.mean (Cert.Spec.lin (fun k => v0 (ix2 p k)) (fun k => v3 (ix2 p k)) (fun j k => v6 (ix2 j k)) (fun j k => v9 (ix2 j k)) (fun j => v17 (ix1 j))) := by
  unfold k2_pay3 Cert.Spec.mean
  exact congrArg₂ Ideal.div ((colcast _ p u).trans ((lanesum _ p).trans (Finset.sum_congr rfl fun k _ => pay_lin2 v0 v3 v6 v9 v17 p k))) rfl

/-- The row's deviation from its mean at `(p, q)`. -/
theorem pay_dev2 (v0 v3 : Vec Ideal S5000x64 .f32) (v6 v9 : Vec Ideal S64x64 .f32) (v17 : Vec Ideal S64 .f32) (p : Fin 5000) (q : Fin 64) :
    subf (k2_pay2 v0 v3 v6 v9 v17) (broadcastTo S5000x64 (k2_pay3 v0 v3 v6 v9 v17) broadcasts_S5000x1_S5000x64) (ix2 p q)
      = Cert.Spec.lin (fun k => v0 (ix2 p k)) (fun k => v3 (ix2 p k)) (fun j k => v6 (ix2 j k)) (fun j k => v9 (ix2 j k)) (fun j => v17 (ix1 j)) q
        - Cert.Spec.mean (Cert.Spec.lin (fun k => v0 (ix2 p k)) (fun k => v3 (ix2 p k)) (fun j k => v6 (ix2 j k)) (fun j k => v9 (ix2 j k)) (fun j => v17 (ix1 j))) :=
  congrArg₂ (· - ·) (pay_lin2 v0 v3 v6 v9 v17 p q) ((colb _ p q).trans (pay_mean2 v0 v3 v6 v9 v17 p 0))

/-- The row variance plus the offset, kept as a column, at `(p, u)`. -/
theorem pay_var2 (v0 v3 : Vec Ideal S5000x64 .f32) (v6 v9 : Vec Ideal S64x64 .f32) (v17 : Vec Ideal S64 .f32) (p : Fin 5000) (u : Fin 1) :
    k2_pay5 v0 v3 v6 v9 v17 (ix2 p u)
      = Cert.Spec.var (Cert.Spec.lin (fun k => v0 (ix2 p k)) (fun k => v3 (ix2 p k)) (fun j k => v6 (ix2 j k)) (fun j k => v9 (ix2 j k)) (fun j => v17 (ix1 j))) + Cert.Spec.eps := by
  unfold k2_pay5 Cert.Spec.var
  exact congrArg₂ (· + ·) (congrArg₂ Ideal.div ((colcast _ p u).trans ((lanesum _ p).trans (Finset.sum_congr rfl fun k _ =>
    congrArg₂ (· * ·) (pay_dev2 v0 v3 v6 v9 v17 p k) (pay_dev2 v0 v3 v6 v9 v17 p k)))) rfl) rfl

/-- The stored value at `(p, q)`: the normalised, scaled, shifted and clamped linear part of row `p`. -/
theorem pay_ln2 (v0 v3 : Vec Ideal S5000x64 .f32) (v6 v9 : Vec Ideal S64x64 .f32) (v17 v33 v45 : Vec Ideal S64 .f32) (p : Fin 5000) (q : Fin 64) :
    k2_pay1 (k2_pay4 v0 v3 v6 v9 v17 v33) (k2_pay5 v0 v3 v6 v9 v17) v45 (ix2 p q)
      = Cert.Spec.ln (Cert.Spec.lin (fun k => v0 (ix2 p k)) (fun k => v3 (ix2 p k)) (fun j k => v6 (ix2 j k)) (fun j k => v9 (ix2 j k)) (fun j => v17 (ix1 j)))
          (fun j => v33 (ix1 j)) (fun j => v45 (ix1 j)) q := by
  unfold k2_pay1 k2_pay4 Cert.Spec.ln
  simp only [shapeCast_self]
  exact congrArg₂ max (congrArg₂ (· + ·) (congrArg₂ (· * ·) (congrArg₂ (· * ·) (rowb v33 p q) (pay_dev2 v0 v3 v6 v9 v17 p q))
    ((colb _ p q).trans (congrArg Ideal.rsqrt (pay_var2 v0 v3 v6 v9 v17 p 0)))) (rowb v45 p q)) rfl

/-! ## The last layer's payload at an entry of the block -/

theorem pay_lin3 (v0 v3 : Vec Ideal S5000x64 .f32) (v6 v9 : Vec Ideal S64x64 .f32) (v17 : Vec Ideal S64 .f32) (p : Fin 5000) (q : Fin 64) :
    k3_pay1 v0 v3 v6 v9 v17 (ix2 p q)
      = Cert.Spec.lin (fun k => v0 (ix2 p k)) (fun k => v3 (ix2 p k)) (fun j k => v6 (ix2 j k)) (fun j k => v9 (ix2 j k)) (fun j => v17 (ix1 j)) q := by
  unfold k3_pay1 Cert.Spec.lin
  simp only [shapeCast_self]
  exact congrArg₂ (· + ·) (congrArg₂ (· + ·) (mm64 _ _ p q) (mm64 _ _ p q)) (rowb _ p q)

end Cert.KernelIdeal.Pay

end
-- ==== Proof.KI.Val0.lean ====
/-
  What the dense input layer's region leaves in its result array, at any entry contents `V`: point `t` of the grid
  reads rows 5000·t … 5000·t + 4999 of the node features and the whole weight matrix and bias, and writes the same rows
  of the result; the ten blocks tile the 50000 rows, so the array ends holding the dense layer of the entry arrays.
-/
import proofs.«176669_j55628416418297_1_alg».proof.Proof.KI.Reg0
import proofs.«176669_j55628416418297_1_alg».proof.Proof.KI.PayOps
import Idealize.ShloMosaic.Lib.Pipeline.Value

set_option maxRecDepth 16384

noncomputable section

namespace Cert.KernelIdeal.Fr

open Cert.KernelIdeal Cert.KernelIdeal.Gen
open Idealize.SL Idealize.SL.RA
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- The printed index maps over the grid: the two row-blocked windows sit at block `t`, the small operands at block 0. -/
theorem idx_facts0 : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- Row `p` of block `t` is row `5000·t + p` of the array. -/
def row0 (t : Fin cfg0.N) (p : Fin 5000) : Fin 50000 :=
  ⟨t.val * 5000 + p.val, by have := t.isLt; have hN : cfg0.N = 10 := N_0; have := p.isLt; omega⟩

theorem emb0_0 (t : Fin cfg0.N) (p : Fin 5000) (k : Fin 128) : ((cfg0.win 0).blk t).view.emb (ix2 p k) = ix2 (row0 t p) k := by
  obtain ⟨e0, e1, -⟩ := idx_facts0 t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega
theorem emb0_3 (t : Fin cfg0.N) (p : Fin 5000) (k : Fin 64) : ((cfg0.win 3).blk t).view.emb (ix2 p k) = ix2 (row0 t p) k := by
  obtain ⟨-, -, e0, e1, -⟩ := idx_facts0 t
  funext a; apply Fin.ext
  match a with
  | ⟨0, _⟩ => show win0_3.index t (0 : Fin 2) * 5000 + 1 * p.val = t.val * 5000 + p.val; rw [e0]; omega
  | ⟨1, _⟩ => show win0_3.index t (1 : Fin 2) * 64 + 1 * k.val = k.val; rw [e1]; omega
theorem emb0_1 (t : Fin cfg0.N) (j : Fin 64) (k : Fin 128) : ((cfg0.win 1).blk t).view.emb (ix2 j k) = ix2 j k := by
  obtain ⟨-, -, -, -, e0, e1, -⟩ := idx_facts0 t
  funext a; apply Fin.ext
  match a with
  | ⟨0, _⟩ => show win0_1.index t (0 : Fin 2) * 64 + 1 * j.val = j.val; rw [e0]; omega
  | ⟨1, _⟩ => show win0_1.index t (1 : Fin 2) * 128 + 1 * k.val = k.val; rw [e1]; omega
theorem emb0_2 (t : Fin cfg0.N) (j : Fin 64) : ((cfg0.win 2).blk t).view.emb (ix1 j) = ix1 j := by
  obtain ⟨-, -, -, -, -, -, e0⟩ := idx_facts0 t
  funext a; apply Fin.ext
  match a with
  | ⟨0, _⟩ => show win0_2.index t (0 : Fin 1) * 64 + 1 * j.val = j.val; rw [e0]; omega

theorem blk0_0 (c : Dev nD) (t : Fin cfg0.N) (p : Fin 5000) (k : Fin 128) : iblk0 V c 0 t (ix2 p k) = V c main_arg0 (ix2 (row0 t p) k) :=
  show V c main_arg0 (((cfg0.win 0).blk t).view.emb (ix2 p k)) = _ from congrArg _ (emb0_0 t p k)
theorem blk0_1 (c : Dev nD) (t : Fin cfg0.N) (j : Fin 64) (k : Fin 128) : iblk0 V c 1 t (ix2 j k) = V c main_arg3 (ix2 j k) :=
  show V c main_arg3 (((cfg0.win 1).blk t).view.emb (ix2 j k)) = _ from congrArg _ (emb0_1 t j k)
theorem blk0_2 (c : Dev nD) (t : Fin cfg0.N) (j : Fin 64) : iblk0 V c 2 t (ix1 j) = V c main_arg4 (ix1 j) :=
  show V c main_arg4 (((cfg0.win 2).blk t).view.emb (ix1 j)) = _ from congrArg _ (emb0_2 t j)

/-- What point `t` writes back is block `t` of the dense layer of the entry arrays. -/
theorem flushed0_eq (c : Dev nD) (t : Fin cfg0.N) :
    (dat0 V c).flushed 3 t = ((cfg0.win 3).blk t).view.read (Elt Ideal) (Cert.Spec.fcArr (V c main_arg0) (V c main_arg3) (V c main_arg4)) := by
  show (cfg0.win 3).cut (grid0.coords t) ((dat0 V c).after 3 t) = _
  rw [after0_3]
  unfold out0_3
  rw [View.canon_unit_zero hz2_0]
  simp only [View.ld_unit_zero (S := S5000x128) hz2_0, View.ld_unit_zero (S := S64x128) hz2_0, View.ld_unit_zero (S := S64) hz1_0]
  funext j
  obtain ⟨p, k, rfl⟩ : ∃ (p : Fin 5000) (k : Fin 64), j = ix2 p k := ⟨j 0, j 1, eq_ix2 j⟩
  refine (Pay.pay_fc _ _ _ p k).trans ?_
  show _ = (Cert.Spec.fcArr (V c main_arg0) (V c main_arg3) (V c main_arg4)) (((cfg0.win 3).blk t).view.emb (ix2 p k))
  rw [emb0_3 t p k]
  unfold Cert.Spec.fcArr
  rw [Cert.Spec.arr2_ix2]
  simp only [blk0_0, blk0_1, blk0_2]

theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  refine ⟨⟨(i 0).val / 5000, by omega⟩, flush0_3 _, ?_⟩
  rw [mem_blk0]
  obtain ⟨-, -, e0, e1, -⟩ := idx_facts0 ⟨(i 0).val / 5000, by omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e1]; omega

/-- The result array after the region: the dense layer of the entry arrays. -/
theorem final0 (c : Dev nD) : (dat0 V c).arrAt 3 cfg0.N = Cert.Spec.fcArr (V c main_arg0) (V c main_arg3) (V c main_arg4) :=
  (dat0 V c).arrAt_eq_of_cover 3 _ (fun t _ => flushed0_eq V c t) cover0

end Cert.KernelIdeal.Fr

end
-- ==== Proof.KI.Val1.lean ====
/-
  What the normalised graph layer's region leaves in its result array, at any entry contents `V`: point `t` of the grid reads rows
  5000·t … 5000·t + 4999 of the aggregated rows and of the nodes' own rows, and the whole of the small operands, and
  writes the same rows of the result; the ten blocks tile the 50000 rows, so the array ends holding the layer's
  function of the entry arrays, row by row.
-/
import proofs.«176669_j55628416418297_1_alg».proof.Proof.KI.Reg1
import proofs.«176669_j55628416418297_1_alg».proof.Proof.KI.PayOps
import Idealize.ShloMosaic.Lib.Pipeline.Value

set_option maxRecDepth 16384

noncomputable section

namespace Cert.KernelIdeal.Fr

open Cert.KernelIdeal Cert.KernelIdeal.Gen
open Idealize.SL Idealize.SL.RA
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- The printed index maps over the grid: the three row-blocked windows sit at block `t`, the small operands at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0 :=
  (by decide +kernel : ∀ t : Fin grid1.N, _)

/-- Row `p` of block `t` is row `5000·t + p` of the array. -/
def row1 (t : Fin cfg1.N) (p : Fin 5000) : Fin 50000 :=
  ⟨t.val * 5000 + p.val, by have := t.isLt; have hN : cfg1.N = 10 := N_1; have := p.isLt; omega⟩

/-- A row-blocked window's block at `t` sits at rows `5000·t …`, all 64 columns. -/
theorem emb1_0 (t : Fin cfg1.N) (p : Fin 5000) (k : Fin 64) : ((cfg1.win 0).blk t).view.emb (ix2 p k) = ix2 (row1 t p) k := by
  obtain ⟨e0, e1, -⟩ := idx_facts1 t
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega
theorem emb1_1 (t : Fin cfg1.N) (p : Fin 5000) (k : Fin 64) : ((cfg1.win 1).blk t).view.emb (ix2 p k) = ix2 (row1 t p) k := by
  obtain ⟨-, -, e0, e1, -⟩ := idx_facts1 t
  funext a; apply Fin.ext
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega
theorem emb1_7 (t : Fin cfg1.N) (p : Fin 5000) (k : Fin 64) : ((cfg1.win 7).blk t).view.emb (ix2 p k) = ix2 (row1 t p) k := by
  obtain ⟨-, -, -, -, e0, e1, -⟩ := idx_facts1 t
  funext a; apply Fin.ext
  match a with
  | ⟨0, _⟩ => show win1_7.index t (0 : Fin 2) * 5000 + 1 * p.val = t.val * 5000 + p.val; rw [e0]; omega
  | ⟨1, _⟩ => show win1_7.index t (1 : Fin 2) * 64 + 1 * k.val = k.val; rw [e1]; omega
/-- A small operand's one block is the whole of it. -/
theorem emb1_2 (t : Fin cfg1.N) (j k : Fin 64) : ((cfg1.win 2).blk t).view.emb (ix2 j k) = ix2 j k := by
  obtain ⟨-, -, -, -, -, -, e0, e1, -⟩ := idx_facts1 t
  funext a; apply Fin.ext
  match a with
  | ⟨0, _⟩ => show win1_2.index t (0 : Fin 2) * 64 + 1 * j.val = j.val; rw [e0]; omega
  | ⟨1, _⟩ => show win1_2.index t (1 : Fin 2) * 64 + 1 * k.val = k.val; rw [e1]; omega
theorem emb1_3 (t : Fin cfg1.N) (j k : Fin 64) : ((cfg1.win 3).blk t).view.emb (ix2 j k) = ix2 j k := by
  obtain ⟨-, -, -, -, -, -, -, -, e0, e1, -⟩ := idx_facts1 t
  funext a; apply Fin.ext
  match a with
  | ⟨0, _⟩ => show win1_3.index t (0 : Fin 2) * 64 + 1 * j.val = j.val; rw [e0]; omega
  | ⟨1, _⟩ => show win1_3.index t (1 : Fin 2) * 64 + 1 * k.val = k.val; rw [e1]; omega
theorem emb1_4 (t : Fin cfg1.N) (j : Fin 64) : ((cfg1.win 4).blk t).view.emb (ix1 j) = ix1 j := by
  obtain ⟨-, -, -, -, -, -, -, -, -, -, e0, -⟩ := idx_facts1 t
  funext a; apply Fin.ext
  match a with
  | ⟨0, _⟩ => show win1_4.index t (0 : Fin 1) * 64 + 1 * j.val = j.val; rw [e0]; omega
theorem emb1_5 (t : Fin cfg1.N) (j : Fin 64) : ((cfg1.win 5).blk t).view.emb (ix1 j) = ix1 j := by
  obtain ⟨-, -, -, -, -, -, -, -, -, -, -, e0, -⟩ := idx_facts1 t
  funext a; apply Fin.ext
  match a with
  | ⟨0, _⟩ => show win1_5.index t (0 : Fin 1) * 64 + 1 * j.val = j.val; rw [e0]; omega
theorem emb1_6 (t : Fin cfg1.N) (j : Fin 64) : ((cfg1.win 6).blk t).view.emb (ix1 j) = ix1 j := by
  obtain ⟨-, -, -, -, -, -, -, -, -, -, -, -, e0⟩ := idx_facts1 t
  funext a; apply Fin.ext
  match a with
  | ⟨0, _⟩ => show win1_6.index t (0 : Fin 1) * 64 + 1 * j.val = j.val; rw [e0]; omega

/-- The input blocks read where the result block's rows say. -/
theorem blk1_0 (c : Dev nD) (t : Fin cfg1.N) (p : Fin 5000) (k : Fin 64) : iblk1 V c 0 t (ix2 p k) = V c main_v26 (ix2 (row1 t p) k) :=
  show V c main_v26 (((cfg1.win 0).blk t).view.emb (ix2 p k)) = _ from congrArg _ (emb1_0 t p k)
theorem blk1_1 (c : Dev nD) (t : Fin cfg1.N) (p : Fin 5000) (k : Fin 64) : iblk1 V c 1 t (ix2 p k) = V c main_v12 (ix2 (row1 t p) k) :=
  show V c main_v12 (((cfg1.win 1).blk t).view.emb (ix2 p k)) = _ from congrArg _ (emb1_1 t p k)
theorem blk1_2 (c : Dev nD) (t : Fin cfg1.N) (j k : Fin 64) : iblk1 V c 2 t (ix2 j k) = V c main_v32 (ix2 j k) :=
  show V c main_v32 (((cfg1.win 2).blk t).view.emb (ix2 j k)) = _ from congrArg _ (emb1_2 t j k)
theorem blk1_3 (c : Dev nD) (t : Fin cfg1.N) (j k : Fin 64) : iblk1 V c 3 t (ix2 j k) = V c main_v34 (ix2 j k) :=
  show V c main_v34 (((cfg1.win 3).blk t).view.emb (ix2 j k)) = _ from congrArg _ (emb1_3 t j k)
theorem blk1_4 (c : Dev nD) (t : Fin cfg1.N) (j : Fin 64) : iblk1 V c 4 t (ix1 j) = V c main_v36 (ix1 j) :=
  show V c main_v36 (((cfg1.win 4).blk t).view.emb (ix1 j)) = _ from congrArg _ (emb1_4 t j)
theorem blk1_5 (c : Dev nD) (t : Fin cfg1.N) (j : Fin 64) : iblk1 V c 5 t (ix1 j) = V c main_v28 (ix1 j) :=
  show V c main_v28 (((cfg1.win 5).blk t).view.emb (ix1 j)) = _ from congrArg _ (emb1_5 t j)
theorem blk1_6 (c : Dev nD) (t : Fin cfg1.N) (j : Fin 64) : iblk1 V c 6 t (ix1 j) = V c main_v30 (ix1 j) :=
  show V c main_v30 (((cfg1.win 6).blk t).view.emb (ix1 j)) = _ from congrArg _ (emb1_6 t j)

/-- What point `t` writes back is block `t` of the layer's function of the entry arrays. -/
theorem flushed1_eq (c : Dev nD) (t : Fin cfg1.N) :
    (dat1 V c).flushed 7 t = ((cfg1.win 7).blk t).view.read (Elt Ideal) (Cert.Spec.lnArr (V c main_v26) (V c main_v12) (V c main_v32) (V c main_v34) (V c main_v36) (V c main_v28) (V c main_v30)) := by
  show (cfg1.win 7).cut (grid1.coords t) ((dat1 V c).after 7 t) = _
  rw [after1_7]
  unfold out1_7
  rw [View.canon_unit_zero hz2_1]
  simp only [View.ld_unit_zero (S := S5000x64) hz2_1, View.ld_unit_zero (S := S64x64) hz2_1, View.ld_unit_zero (S := S64) hz1_1]
  funext j
  obtain ⟨p, k, rfl⟩ : ∃ (p : Fin 5000) (k : Fin 64), j = ix2 p k := ⟨j 0, j 1, eq_ix2 j⟩
  refine (Pay.pay_ln1 _ _ _ _ _ _ _ p k).trans ?_
  show _ = (Cert.Spec.lnArr (V c main_v26) (V c main_v12) (V c main_v32) (V c main_v34) (V c main_v36) (V c main_v28) (V c main_v30)) (((cfg1.win 7).blk t).view.emb (ix2 p k))
  rw [emb1_7 t p k]
  unfold Cert.Spec.lnArr
  rw [Cert.Spec.arr2_ix2]
  simp only [blk1_0, blk1_1, blk1_2, blk1_3, blk1_4, blk1_5, blk1_6]

/-- An index of the result array is in point `t`'s block iff its row is one of the block's 5000. -/
theorem mem_blk1 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v37).slice (win1_7.rect t)).set ↔ _
  rw [View.set_slice_whole, Rect.mem_set_unit]
  exact Iff.rfl

/-- Every index of the result array is in some point's block: the point of its row's block of 5000. -/
theorem cover1 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  refine ⟨⟨(i 0).val / 5000, by omega⟩, flush1_7 _, ?_⟩
  rw [mem_blk1]
  obtain ⟨-, -, -, -, e0, e1, -⟩ := idx_facts1 ⟨(i 0).val / 5000, by omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e1]; omega

/-- The result array after the region: the layer's function of the entry arrays. -/
theorem final1 (c : Dev nD) : (dat1 V c).arrAt 7 cfg1.N = Cert.Spec.lnArr (V c main_v26) (V c main_v12) (V c main_v32) (V c main_v34) (V c main_v36) (V c main_v28) (V c main_v30) :=
  (dat1 V c).arrAt_eq_of_cover 7 _ (fun t _ => flushed1_eq V c t) cover1

end Cert.KernelIdeal.Fr

end
-- ==== Proof.KI.Val2.lean ====
/-
  What the normalised graph layer's region leaves in its result array, at any entry contents `V`: point `t` of the grid reads rows
  5000·t … 5000·t + 4999 of the aggregated rows and of the nodes' own rows, and the whole of the small operands, and
  writes the same rows of the result; the ten blocks tile the 50000 rows, so the array ends holding the layer's
  function of the entry arrays, row by row.
-/
import proofs.«176669_j55628416418297_1_alg».proof.Proof.KI.Reg2
import proofs.«176669_j55628416418297_1_alg».proof.Proof.KI.PayOps
import Idealize.ShloMosaic.Lib.Pipeline.Value

set_option maxRecDepth 16384

noncomputable section

namespace Cert.KernelIdeal.Fr

open Cert.KernelIdeal Cert.KernelIdeal.Gen
open Idealize.SL Idealize.SL.RA
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a; rfl

/-- The printed index maps over the grid: the three row-blocked windows sit at block `t`, the small operands at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0 :=
  (by decide +kernel : ∀ t : Fin grid2.N, _)

/-- Row `p` of block `t` is row `5000·t + p` of the array. -/
def row2 (t : Fin cfg2.N) (p : Fin 5000) : Fin 50000 :=
  ⟨t.val * 5000 + p.val, by have := t.isLt; have hN : cfg2.N = 10 := N_2; have := p.isLt; omega⟩

/-- A row-blocked window's block at `t` sits at rows `5000·t …`, all 64 columns. -/
theorem emb2_0 (t : Fin cfg2.N) (p : Fin 5000) (k : Fin 64) : ((cfg2.win 0).blk t).view.emb (ix2 p k) = ix2 (row2 t p) k := by
  obtain ⟨e0, e1, -⟩ := idx_facts2 t
  funext a; apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega
theorem emb2_1 (t : Fin cfg2.N) (p : Fin 5000) (k : Fin 64) : ((cfg2.win 1).blk t).view.emb (ix2 p k) = ix2 (row2 t p) k := by
  obtain ⟨-, -, e0, e1, -⟩ := idx_facts2 t
  funext a; apply Fin.ext
  match a with
  | ⟨0, _⟩ => show win2_1.index t (0 : Fin 2) * 5000 + 1 * p.val = t.val * 5000 + p.val; rw [e0]; omega
  | ⟨1, _⟩ => show win2_1.index t (1 : Fin 2) * 64 + 1 * k.val = k.val; rw [e1]; omega
theorem emb2_7 (t : Fin cfg2.N) (p : Fin 5000) (k : Fin 64) : ((cfg2.win 7).blk t).view.emb (ix2 p k) = ix2 (row2 t p) k := by
  obtain ⟨-, -, -, -, e0, e1, -⟩ := idx_facts2 t
  funext a; apply Fin.ext
  match a with
  | ⟨0, _⟩ => show win2_7.index t (0 : Fin 2) * 5000 + 1 * p.val = t.val * 5000 + p.val; rw [e0]; omega
  | ⟨1, _⟩ => show win2_7.index t (1 : Fin 2) * 64 + 1 * k.val = k.val; rw [e1]; omega
/-- A small operand's one block is the whole of it. -/
theorem emb2_2 (t : Fin cfg2.N) (j k : Fin 64) : ((cfg2.win 2).blk t).view.emb (ix2 j k) = ix2 j k := by
  obtain ⟨-, -, -, -, -, -, e0, e1, -⟩ := idx_facts2 t
  funext a; apply Fin.ext
  match a with
  | ⟨0, _⟩ => show win2_2.index t (0 : Fin 2) * 64 + 1 * j.val = j.val; rw [e0]; omega
  | ⟨1, _⟩ => show win2_2.index t (1 : Fin 2) * 64 + 1 * k.val = k.val; rw [e1]; omega
theorem emb2_3 (t : Fin cfg2.N) (j k : Fin 64) : ((cfg2.win 3).blk t).view.emb (ix2 j k) = ix2 j k := by
  obtain ⟨-, -, -, -, -, -, -, -, e0, e1, -⟩ := idx_facts2 t
  funext a; apply Fin.ext
  match a with
  | ⟨0, _⟩ => show win2_3.index t (0 : Fin 2) * 64 + 1 * j.val = j.val; rw [e0]; omega
  | ⟨1, _⟩ => show win2_3.index t (1 : Fin 2) * 64 + 1 * k.val = k.val; rw [e1]; omega
theorem emb2_4 (t : Fin cfg2.N) (j : Fin 64) : ((cfg2.win 4).blk t).view.emb (ix1 j) = ix1 j := by
  obtain ⟨-, -, -, -, -, -, -, -, -, -, e0, -⟩ := idx_facts2 t
  funext a; apply Fin.ext
  match a with
  | ⟨0, _⟩ => show win2_4.index t (0 : Fin 1) * 64 + 1 * j.val = j.val; rw [e0]; omega
theorem emb2_5 (t : Fin cfg2.N) (j : Fin 64) : ((cfg2.win 5).blk t).view.emb (ix1 j) = ix1 j := by
  obtain ⟨-, -, -, -, -, -, -, -, -, -, -, e0, -⟩ := idx_facts2 t
  funext a; apply Fin.ext
  match a with
  | ⟨0, _⟩ => show win2_5.index t (0 : Fin 1) * 64 + 1 * j.val = j.val; rw [e0]; omega
theorem emb2_6 (t : Fin cfg2.N) (j : Fin 64) : ((cfg2.win 6).blk t).view.emb (ix1 j) = ix1 j := by
  obtain ⟨-, -, -, -, -, -, -, -, -, -, -, -, e0⟩ := idx_facts2 t
  funext a; apply Fin.ext
  match a with
  | ⟨0, _⟩ => show win2_6.index t (0 : Fin 1) * 64 + 1 * j.val = j.val; rw [e0]; omega

/-- The input blocks read where the result block's rows say. -/
theorem blk2_0 (c : Dev nD) (t : Fin cfg2.N) (p : Fin 5000) (k : Fin 64) : iblk2 V c 0 t (ix2 p k) = V c main_v50 (ix2 (row2 t p) k) :=
  show V c main_v50 (((cfg2.win 0).blk t).view.emb (ix2 p k)) = _ from congrArg _ (emb2_0 t p k)
theorem blk2_1 (c : Dev nD) (t : Fin cfg2.N) (p : Fin 5000) (k : Fin 64) : iblk2 V c 1 t (ix2 p k) = V c main_v37 (ix2 (row2 t p) k) :=
  show V c main_v37 (((cfg2.win 1).blk t).view.emb (ix2 p k)) = _ from congrArg _ (emb2_1 t p k)
theorem blk2_2 (c : Dev nD) (t : Fin cfg2.N) (j k : Fin 64) : iblk2 V c 2 t (ix2 j k) = V c main_v56 (ix2 j k) :=
  show V c main_v56 (((cfg2.win 2).blk t).view.emb (ix2 j k)) = _ from congrArg _ (emb2_2 t j k)
theorem blk2_3 (c : Dev nD) (t : Fin cfg2.N) (j k : Fin 64) : iblk2 V c 3 t (ix2 j k) = V c main_v58 (ix2 j k) :=
  show V c main_v58 (((cfg2.win 3).blk t).view.emb (ix2 j k)) = _ from congrArg _ (emb2_3 t j k)
theorem blk2_4 (c : Dev nD) (t : Fin cfg2.N) (j : Fin 64) : iblk2 V c 4 t (ix1 j) = V c main_v60 (ix1 j) :=
  show V c main_v60 (((cfg2.win 4).blk t).view.emb (ix1 j)) = _ from congrArg _ (emb2_4 t j)
theorem blk2_5 (c : Dev nD) (t : Fin cfg2.N) (j : Fin 64) : iblk2 V c 5 t (ix1 j) = V c main_v52 (ix1 j) :=
  show V c main_v52 (((cfg2.win 5).blk t).view.emb (ix1 j)) = _ from congrArg _ (emb2_5 t j)
theorem blk2_6 (c : Dev nD) (t : Fin cfg2.N) (j : Fin 64) : iblk2 V c 6 t (ix1 j) = V c main_v54 (ix1 j) :=
  show V c main_v54 (((cfg2.win 6).blk t).view.emb (ix1 j)) = _ from congrArg _ (emb2_6 t j)

/-- What point `t` writes back is block `t` of the layer's function of the entry arrays. -/
theorem flushed2_eq (c : Dev nD) (t : Fin cfg2.N) :
    (dat2 V c).flushed 7 t = ((cfg2.win 7).blk t).view.read (Elt Ideal) (Cert.Spec.lnArr (V c main_v50) (V c main_v37) (V c main_v56) (V c main_v58) (V c main_v60) (V c main_v52) (V c main_v54)) := by
  show (cfg2.win 7).cut (grid2.coords t) ((dat2 V c).after 7 t) = _
  rw [after2_7]
  unfold out2_7
  rw [View.canon_unit_zero hz2_2]
  simp only [View.ld_unit_zero (S := S5000x64) hz2_2, View.ld_unit_zero (S := S64x64) hz2_2, View.ld_unit_zero (S := S64) hz1_2]
  funext j
  obtain ⟨p, k, rfl⟩ : ∃ (p : Fin 5000) (k : Fin 64), j = ix2 p k := ⟨j 0, j 1, eq_ix2 j⟩
  refine (Pay.pay_ln2 _ _ _ _ _ _ _ p k).trans ?_
  show _ = (Cert.Spec.lnArr (V c main_v50) (V c main_v37) (V c main_v56) (V c main_v58) (V c main_v60) (V c main_v52) (V c main_v54)) (((cfg2.win 7).blk t).view.emb (ix2 p k))
  rw [emb2_7 t p k]
  unfold Cert.Spec.lnArr
  rw [Cert.Spec.arr2_ix2]
  simp only [blk2_0, blk2_1, blk2_2, blk2_3, blk2_4, blk2_5, blk2_6]

/-- An index of the result array is in point `t`'s block iff its row is one of the block's 5000. -/
theorem mem_blk2 (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v61).slice (win2_7.rect t)).set ↔ _
  rw [View.set_slice_whole, Rect.mem_set_unit]
  exact Iff.rfl

/-- Every index of the result array is in some point's block: the point of its row's block of 5000. -/
theorem cover2 (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have hN : cfg2.N = 10 := N_2
  refine ⟨⟨(i 0).val / 5000, by omega⟩, flush2_7 _, ?_⟩
  rw [mem_blk2]
  obtain ⟨-, -, -, -, e0, e1, -⟩ := idx_facts2 ⟨(i 0).val / 5000, by omega⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 64 ≤ (i 1).val ∧ (i 1).val < win2_7.index _ (1 : Fin 2) * 64 + 64
    rw [e1]; omega

/-- The result array after the region: the layer's function of the entry arrays. -/
theorem final2 (c : Dev nD) : (dat2 V c).arrAt 7 cfg2.N = Cert.Spec.lnArr (V c main_v50) (V c main_v37) (V c main_v56) (V c main_v58) (V c main_v60) (V c main_v52) (V c main_v54) :=
  (dat2 V c).arrAt_eq_of_cover 7 _ (fun t _ => flushed2_eq V c t) cover2

end Cert.KernelIdeal.Fr

end
-- ==== Proof.KI.Val3.lean ====
/-
  What the last graph layer's region leaves in its result array, at any entry contents `V`: point `t` of the grid reads rows
  5000·t … 5000·t + 4999 of the aggregated rows and of the nodes' own rows, and the whole of the small operands, and
  writes the same rows of the result; the ten blocks tile the 50000 rows, so the array ends holding the layer's
  function of the entry arrays, row by row.
-/
import proofs.«176669_j55628416418297_1_alg».proof.Proof.KI.Reg3
import proofs.«176669_j55628416418297_1_alg».proof.Proof.KI.PayOps
import Idealize.ShloMosaic.Lib.Pipeline.Value

set_option maxRecDepth 16384

noncomputable section

namespace Cert.KernelIdeal.Fr

open Cert.KernelIdeal Cert.KernelIdeal.Gen
open Idealize.SL Idealize.SL.RA
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a; rfl

/-- The printed index maps over the grid: the three row-blocked windows sit at block `t`, the small operands at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_7.index t (0 : Fin 2) = t.val ∧ win3_7.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 ∧ win3_5.index t (0 : Fin 1) = 0 ∧ win3_6.index t (0 : Fin 1) = 0 :=
  (by decide +kernel : ∀ t : Fin grid3.N, _)

/-- Row `p` of block `t` is row `5000·t + p` of the array. -/
def row3 (t : Fin cfg3.N) (p : Fin 5000) : Fin 50000 :=
  ⟨t.val * 5000 + p.val, by have := t.isLt; have hN : cfg3.N = 10 := N_3; have := p.isLt; omega⟩

/-- A row-blocked window's block at `t` sits at rows `5000·t …`, all 64 columns. -/
theorem emb3_0 (t : Fin cfg3.N) (p : Fin 5000) (k : Fin 64) : ((cfg3.win 0).blk t).view.emb (ix2 p k) = ix2 (row3 t p) k := by
  obtain ⟨e0, e1, -⟩ := idx_facts3 t
  funext a; apply Fin.ext
  match a with
  | ⟨0, _⟩ => show win3_0.index t (0 : Fin 2) * 5000 + 1 * p.val = t.val * 5000 + p.val; rw [e0]; omega
  | ⟨1, _⟩ => show win3_0.index t (1 : Fin 2) * 64 + 1 * k.val = k.val; rw [e1]; omega
theorem emb3_1 (t : Fin cfg3.N) (p : Fin 5000) (k : Fin 64) : ((cfg3.win 1).blk t).view.emb (ix2 p k) = ix2 (row3 t p) k := by
  obtain ⟨-, -, e0, e1, -⟩ := idx_facts3 t
  funext a; apply Fin.ext
  match a with
  | ⟨0, _⟩ => show win3_1.index t (0 : Fin 2) * 5000 + 1 * p.val = t.val * 5000 + p.val; rw [e0]; omega
  | ⟨1, _⟩ => show win3_1.index t (1 : Fin 2) * 64 + 1 * k.val = k.val; rw [e1]; omega
theorem emb3_7 (t : Fin cfg3.N) (p : Fin 5000) (k : Fin 64) : ((cfg3.win 7).blk t).view.emb (ix2 p k) = ix2 (row3 t p) k := by
  obtain ⟨-, -, -, -, e0, e1, -⟩ := idx_facts3 t
  funext a; apply Fin.ext
  match a with
  | ⟨0, _⟩ => show win3_7.index t (0 : Fin 2) * 5000 + 1 * p.val = t.val * 5000 + p.val; rw [e0]; omega
  | ⟨1, _⟩ => show win3_7.index t (1 : Fin 2) * 64 + 1 * k.val = k.val; rw [e1]; omega
/-- A small operand's one block is the whole of it. -/
theorem emb3_2 (t : Fin cfg3.N) (j k : Fin 64) : ((cfg3.win 2).blk t).view.emb (ix2 j k) = ix2 j k := by
  obtain ⟨-, -, -, -, -, -, e0, e1, -⟩ := idx_facts3 t
  funext a; apply Fin.ext
  match a with
  | ⟨0, _⟩ => show win3_2.index t (0 : Fin 2) * 64 + 1 * j.val = j.val; rw [e0]; omega
  | ⟨1, _⟩ => show win3_2.index t (1 : Fin 2) * 64 + 1 * k.val = k.val; rw [e1]; omega
theorem emb3_3 (t : Fin cfg3.N) (j k : Fin 64) : ((cfg3.win 3).blk t).view.emb (ix2 j k) = ix2 j k := by
  obtain ⟨-, -, -, -, -, -, -, -, e0, e1, -⟩ := idx_facts3 t
  funext a; apply Fin.ext
  match a with
  | ⟨0, _⟩ => show win3_3.index t (0 : Fin 2) * 64 + 1 * j.val = j.val; rw [e0]; omega
  | ⟨1, _⟩ => show win3_3.index t (1 : Fin 2) * 64 + 1 * k.val = k.val; rw [e1]; omega
theorem emb3_4 (t : Fin cfg3.N) (j : Fin 64) : ((cfg3.win 4).blk t).view.emb (ix1 j) = ix1 j := by
  obtain ⟨-, -, -, -, -, -, -, -, -, -, e0, -⟩ := idx_facts3 t
  funext a; apply Fin.ext
  match a with
  | ⟨0, _⟩ => show win3_4.index t (0 : Fin 1) * 64 + 1 * j.val = j.val; rw [e0]; omega

/-- The input blocks read where the result block's rows say. -/
theorem blk3_0 (c : Dev nD) (t : Fin cfg3.N) (p : Fin 5000) (k : Fin 64) : iblk3 V c 0 t (ix2 p k) = V c main_v74 (ix2 (row3 t p) k) :=
  show V c main_v74 (((cfg3.win 0).blk t).view.emb (ix2 p k)) = _ from congrArg _ (emb3_0 t p k)
theorem blk3_1 (c : Dev nD) (t : Fin cfg3.N) (p : Fin 5000) (k : Fin 64) : iblk3 V c 1 t (ix2 p k) = V c main_v61 (ix2 (row3 t p) k) :=
  show V c main_v61 (((cfg3.win 1).blk t).view.emb (ix2 p k)) = _ from congrArg _ (emb3_1 t p k)
theorem blk3_2 (c : Dev nD) (t : Fin cfg3.N) (j k : Fin 64) : iblk3 V c 2 t (ix2 j k) = V c main_v76 (ix2 j k) :=
  show V c main_v76 (((cfg3.win 2).blk t).view.emb (ix2 j k)) = _ from congrArg _ (emb3_2 t j k)
theorem blk3_3 (c : Dev nD) (t : Fin cfg3.N) (j k : Fin 64) : iblk3 V c 3 t (ix2 j k) = V c main_v78 (ix2 j k) :=
  show V c main_v78 (((cfg3.win 3).blk t).view.emb (ix2 j k)) = _ from congrArg _ (emb3_3 t j k)
theorem blk3_4 (c : Dev nD) (t : Fin cfg3.N) (j : Fin 64) : iblk3 V c 4 t (ix1 j) = V c main_v80 (ix1 j) :=
  show V c main_v80 (((cfg3.win 4).blk t).view.emb (ix1 j)) = _ from congrArg _ (emb3_4 t j)

/-- What point `t` writes back is block `t` of the layer's function of the entry arrays. -/
theorem flushed3_eq (q : Fin cfg3.W → PosShare TreeShare) (c : Dev nD) (t : Fin cfg3.N) :
    (dat3 V q c).flushed 7 t = ((cfg3.win 7).blk t).view.read (Elt Ideal) (Cert.Spec.linArr (V c main_v74) (V c main_v61) (V c main_v76) (V c main_v78) (V c main_v80)) := by
  show (cfg3.win 7).cut (grid3.coords t) ((dat3 V q c).after 7 t) = _
  rw [after3_7]
  unfold out3_7
  rw [View.canon_unit_zero hz2_3]
  simp only [View.ld_unit_zero (S := S5000x64) hz2_3, View.ld_unit_zero (S := S64x64) hz2_3, View.ld_unit_zero (S := S64) hz1_3]
  funext j
  obtain ⟨p, k, rfl⟩ : ∃ (p : Fin 5000) (k : Fin 64), j = ix2 p k := ⟨j 0, j 1, eq_ix2 j⟩
  refine (Pay.pay_lin3 _ _ _ _ _ p k).trans ?_
  show _ = (Cert.Spec.linArr (V c main_v74) (V c main_v61) (V c main_v76) (V c main_v78) (V c main_v80)) (((cfg3.win 7).blk t).view.emb (ix2 p k))
  rw [emb3_7 t p k]
  unfold Cert.Spec.linArr
  rw [Cert.Spec.arr2_ix2]
  simp only [blk3_0, blk3_1, blk3_2, blk3_3, blk3_4]

/-- An index of the result array is in point `t`'s block iff its row is one of the block's 5000. -/
theorem mem_blk3 (t : Fin cfg3.N) (i : S50000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v81).slice (win3_7.rect t)).set ↔ _
  rw [View.set_slice_whole, Rect.mem_set_unit]
  exact Iff.rfl

/-- Every index of the result array is in some point's block: the point of its row's block of 5000. -/
theorem cover3 (i : S50000x64.Idx) : ∃ t : Fin cfg3.N, (cfg3.win 7).flush t = true ∧ i ∈ ((cfg3.win 7).blk t).view.set := by
  have hi0 : (i 0).val < 50000 := (i 0).isLt
  have hi1 : (i 1).val < 64 := (i 1).isLt
  have hN : cfg3.N = 10 := N_3
  refine ⟨⟨(i 0).val / 5000, by omega⟩, flush3_7 _, ?_⟩
  rw [mem_blk3]
  obtain ⟨-, -, -, -, e0, e1, -⟩ := idx_facts3 ⟨(i 0).val / 5000, by omega⟩
  intro a
  match a with
  | ⟨0, _⟩ =>
    show win3_7.index _ (0 : Fin 2) * 5000 ≤ (i 0).val ∧ (i 0).val < win3_7.index _ (0 : Fin 2) * 5000 + 5000
    rw [e0]; show (i 0).val / 5000 * 5000 ≤ (i 0).val ∧ (i 0).val < (i 0).val / 5000 * 5000 + 5000; omega
  | ⟨1, _⟩ =>
    show win3_7.index _ (1 : Fin 2) * 64 ≤ (i 1).val ∧ (i 1).val < win3_7.index _ (1 : Fin 2) * 64 + 64
    rw [e1]; omega

/-- The result array after the region: the layer's function of the entry arrays. -/
theorem final3 (q : Fin cfg3.W → PosShare TreeShare) (c : Dev nD) : (dat3 V q c).arrAt 7 cfg3.N = Cert.Spec.linArr (V c main_v74) (V c main_v61) (V c main_v76) (V c main_v78) (V c main_v80) :=
  (dat3 V q c).arrAt_eq_of_cover 7 _ (fun t _ => flushed3_eq V q c t) cover3

end Cert.KernelIdeal.Fr

end
-- ==== Proof.RefGlue.lean ====
/-
  The host functions the reference applies around its dense stages, each named once as a function of what it reads.

  `agg e h` is the mean over in-neighbours: every edge (s, d) of the edge list `e` adds row `s` of `h` into row `d`
  (a source index below zero counted from the end), and row `d` is then scaled by one over the larger of its
  in-degree and one; the in-degree itself is the same edge list scattering ones. The other definitions cut one
  layer's matrix or vector out of a stacked parameter array: the leading axis sliced at the layer's position and
  dropped.
-/
import proofs.«176669_j55628416418297_1_alg».proof.ReferenceIdeal
import Idealize.ShloMosaic.PureOps.Ideal

noncomputable section

namespace Cert.RefValue

open Cert.ReferenceIdeal Idealize.ShloMosaic
open Cert.ReferenceIdeal.Facts₀

variable [Cert.ReferenceIdeal.Facts₀]

/-- Row 0 of the edge list: every edge's source node. -/
def src (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge list: every edge's destination node. -/
def dst (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- One over `max (in-degree) 1`, per node: ones scattered along the destinations, clamped below at one, inverted. -/
def invDeg (e : (⟨S2x1600000, .i32⟩ : BufTy).Contents (Elt Ideal)) : FVec Ideal S50000 .f32 :=
  Host.divf (F := Ideal) (broadcastInDim S50000 ![] bcast_S_S50000 (constant (F := Ideal) S_ .f32 0x3F800000#32))
    (maximumf
      (Host.scatterAdd (F := Ideal) scatter_S50000_S1600000x1_S1600000_n_0_0_1
        (broadcastInDim S50000 ![] bcast_S_S50000 (constant (F := Ideal) S_ .f32 0x00000000#32))
        (broadcastInDim S1600000x1 ![0] bcast_S1600000_S1600000x1_0 (dst e))
        (broadcastInDim S1600000 ![] bcast_S_S1600000 (constant (F := Ideal) S_ .f32 0x3F800000#32)))
      (broadcastInDim S50000 ![] bcast_S_S50000 (constant (F := Ideal) S_ .f32 0x3F800000#32)))

/-- The source indices as the gather takes them: a negative index has the node count added. -/
def srcWrapped (e : (⟨S2x1600000, .i32⟩ : BufTy).Contents (Elt Ideal)) : (⟨S1600000, .i32⟩ : BufTy).Contents (Elt Ideal) :=
  select (cmpi .slt (src e) (broadcastInDim S1600000 ![] bcast_S_S1600000 (constantI S_ 32 0#32)))
    (addi (src e) (broadcastInDim S1600000 ![] bcast_S_S1600000 (constantI S_ 32 50000#32)))
    (src e)

/-- Mean aggregation over in-neighbours: gather the source rows, add them into the destination rows, scale each row
    by the inverse degree. -/
def agg (e : (⟨S2x1600000, .i32⟩ : BufTy).Contents (Elt Ideal)) (h : FVec Ideal S50000x64 .f32) : FVec Ideal S50000x64 .f32 :=
  mulf
    (Host.scatterAdd (F := Ideal) scatter_S50000x64_S1600000x1_S1600000x64_1_0_0_1
      (broadcastInDim S50000x64 ![] bcast_S_S50000x64 (constant (F := Ideal) S_ .f32 0x00000000#32))
      (broadcastInDim S1600000x1 ![0] bcast_S1600000_S1600000x1_0 (dst e))
      (Host.gather gather_S50000x64_S1600000x1_S1600000x64_1_0_n_n_0_1_164 h
        (broadcastInDim S1600000x1 ![0] bcast_S1600000_S1600000x1_0 (srcWrapped e))))
    (broadcastInDim S50000x64 ![0, 1] bcast_S50000x1_S50000x64_0_1
      (broadcastInDim S50000x1 ![0] bcast_S50000_S50000x1_0 (invDeg e)))

/-- Layer `i`'s neighbour matrix out of the stack of three. -/
def wl0 (a : FVec Ideal S3x64x64 .f32) : FVec Ideal S64x64 .f32 :=
  shapeCast _ (extractStridedSlice S1x64x64 ![0, 0, 0] a slices_S3x64x64_S1x64x64_0_0_0) shapeCasts_S1x64x64_S64x64
def wl1 (a : FVec Ideal S3x64x64 .f32) : FVec Ideal S64x64 .f32 :=
  shapeCast _ (extractStridedSlice S1x64x64 ![1, 0, 0] a slices_S3x64x64_S1x64x64_1_0_0) shapeCasts_S1x64x64_S64x64
def wl2 (a : FVec Ideal S3x64x64 .f32) : FVec Ideal S64x64 .f32 :=
  shapeCast _ (extractStridedSlice S1x64x64 ![2, 0, 0] a slices_S3x64x64_S1x64x64_2_0_0) shapeCasts_S1x64x64_S64x64

/-- Layer `i`'s self matrix out of the stack of three: the same cut of the other stack. -/
def wr0 (a : FVec Ideal S3x64x64 .f32) : FVec Ideal S64x64 .f32 :=
  shapeCast _ (extractStridedSlice S1x64x64 ![0, 0, 0] a slices_S3x64x64_S1x64x64_0_0_0) shapeCasts_S1x64x64_S64x64
def wr1 (a : FVec Ideal S3x64x64 .f32) : FVec Ideal S64x64 .f32 :=
  shapeCast _ (extractStridedSlice S1x64x64 ![1, 0, 0] a slices_S3x64x64_S1x64x64_1_0_0) shapeCasts_S1x64x64_S64x64
def wr2 (a : FVec Ideal S3x64x64 .f32) : FVec Ideal S64x64 .f32 :=
  shapeCast _ (extractStridedSlice S1x64x64 ![2, 0, 0] a slices_S3x64x64_S1x64x64_2_0_0) shapeCasts_S1x64x64_S64x64

/-- Layer `i`'s bias out of the stack of three. -/
def lb0 (a : FVec Ideal S3x64 .f32) : FVec Ideal S64 .f32 :=
  shapeCast _ (extractStridedSlice S1x64 ![0, 0] a slices_S3x64_S1x64_0_0) shapeCasts_S1x64_S64
def lb1 (a : FVec Ideal S3x64 .f32) : FVec Ideal S64 .f32 :=
  shapeCast _ (extractStridedSlice S1x64 ![1, 0] a slices_S3x64_S1x64_1_0) shapeCasts_S1x64_S64
def lb2 (a : FVec Ideal S3x64 .f32) : FVec Ideal S64 .f32 :=
  shapeCast _ (extractStridedSlice S1x64 ![2, 0] a slices_S3x64_S1x64_2_0) shapeCasts_S1x64_S64

/-- Layer `i`'s normalisation scale out of the stack of two. -/
def g0 (a : FVec Ideal S2x64 .f32) : FVec Ideal S64 .f32 :=
  shapeCast _ (extractStridedSlice S1x64 ![0, 0] a slices_S2x64_S1x64_0_0) shapeCasts_S1x64_S64
def g1 (a : FVec Ideal S2x64 .f32) : FVec Ideal S64 .f32 :=
  shapeCast _ (extractStridedSlice S1x64 ![1, 0] a slices_S2x64_S1x64_1_0) shapeCasts_S1x64_S64

/-- Layer `i`'s normalisation shift out of the stack of two: the same cut of the other stack. -/
def nb0 (a : FVec Ideal S2x64 .f32) : FVec Ideal S64 .f32 :=
  shapeCast _ (extractStridedSlice S1x64 ![0, 0] a slices_S2x64_S1x64_0_0) shapeCasts_S1x64_S64
def nb1 (a : FVec Ideal S2x64 .f32) : FVec Ideal S64 .f32 :=
  shapeCast _ (extractStridedSlice S1x64 ![1, 0] a slices_S2x64_S1x64_1_0) shapeCasts_S1x64_S64

end Cert.RefValue

end
-- ==== Proof.KI.Host.lean ====
/-
  The kernel program's host stretches, read at the buffers the four regions take in: the aggregated rows are the
  reference's own mean aggregation `agg` of the rows the region before left, the weights and vectors are the
  reference's own slices of the stacked parameters, and the arguments are as launched. Each is the stretch's
  operations composed, which spell the same functions as the reference's.
-/
import proofs.«176669_j55628416418297_1_alg».proof.Proof.Gen.KernelIdeal.Regions
import proofs.«176669_j55628416418297_1_alg».proof.Proof.Gen.ReferenceIdeal
import proofs.«176669_j55628416418297_1_alg».proof.Proof.RefGlue
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

/-! ## After the first stretch: the edge list's two rows and the inverse degrees -/

theorem V1_src : V1 m c main_v1 = Cert.RefValue.src (m ((c : Thread nD τ).loc main_arg1)) := by
  show StableHlo.after hostOps0 (V0 m c) (Proc.devRef .tc main_v1) = _
  after_results
  rfl

theorem V1_dst : V1 m c main_v3 = Cert.RefValue.dst (m ((c : Thread nD τ).loc main_arg1)) := by
  show StableHlo.after hostOps0 (V0 m c) (Proc.devRef .tc main_v3) = _
  after_results
  rfl

theorem V1_invDeg : V1 m c main_v11 = Cert.RefValue.invDeg (m ((c : Thread nD τ).loc main_arg1)) := by
  show StableHlo.after hostOps0 (V0 m c) (Proc.devRef .tc main_v11) = _
  after_results
  rfl

/-! ## The arguments, as the first region finds them -/

theorem V1_arg0 : V1 m c main_arg0 = m ((c : Thread nD τ).loc main_arg0) := V1_of m c main_arg0 (by decide)
theorem V1_arg3 : V1 m c main_arg3 = m ((c : Thread nD τ).loc main_arg3) := V1_of m c main_arg3 (by decide)
theorem V1_arg4 : V1 m c main_arg4 = m ((c : Thread nD τ).loc main_arg4) := V1_of m c main_arg4 (by decide)

/-! ## What a later stretch still finds of the first: no item in between writes these buffers -/

theorem V2_src : V2 m outs c main_v1 = Cert.RefValue.src (m ((c : Thread nD τ).loc main_arg1)) :=
  (V2_of m outs c main_v1 (by decide)).trans (V1_src m c)
theorem V2_dst : V2 m outs c main_v3 = Cert.RefValue.dst (m ((c : Thread nD τ).loc main_arg1)) :=
  (V2_of m outs c main_v3 (by decide)).trans (V1_dst m c)
theorem V2_invDeg : V2 m outs c main_v11 = Cert.RefValue.invDeg (m ((c : Thread nD τ).loc main_arg1)) :=
  (V2_of m outs c main_v11 (by decide)).trans (V1_invDeg m c)
theorem V2_out : V2 m outs c main_v12 = outs 2 main_v12 c := Function.update_self ..
theorem V2_arg5 : V2 m outs c main_arg5 = m ((c : Thread nD τ).loc main_arg5) := (V2_of m outs c main_arg5 (by decide)).trans (V1_of m c main_arg5 (by decide))
theorem V2_arg6 : V2 m outs c main_arg6 = m ((c : Thread nD τ).loc main_arg6) := (V2_of m outs c main_arg6 (by decide)).trans (V1_of m c main_arg6 (by decide))
theorem V2_arg7 : V2 m outs c main_arg7 = m ((c : Thread nD τ).loc main_arg7) := (V2_of m outs c main_arg7 (by decide)).trans (V1_of m c main_arg7 (by decide))
theorem V2_arg8 : V2 m outs c main_arg8 = m ((c : Thread nD τ).loc main_arg8) := (V2_of m outs c main_arg8 (by decide)).trans (V1_of m c main_arg8 (by decide))
theorem V2_arg9 : V2 m outs c main_arg9 = m ((c : Thread nD τ).loc main_arg9) := (V2_of m outs c main_arg9 (by decide)).trans (V1_of m c main_arg9 (by decide))

theorem V4_src : V4 m outs c main_v1 = Cert.RefValue.src (m ((c : Thread nD τ).loc main_arg1)) :=
  (V4_of m outs c main_v1 (by decide)).trans ((V3_of m outs c main_v1 (by decide)).trans (V2_src m outs c))
theorem V4_dst : V4 m outs c main_v3 = Cert.RefValue.dst (m ((c : Thread nD τ).loc main_arg1)) :=
  (V4_of m outs c main_v3 (by decide)).trans ((V3_of m outs c main_v3 (by decide)).trans (V2_dst m outs c))
theorem V4_invDeg : V4 m outs c main_v11 = Cert.RefValue.invDeg (m ((c : Thread nD τ).loc main_arg1)) :=
  (V4_of m outs c main_v11 (by decide)).trans ((V3_of m outs c main_v11 (by decide)).trans (V2_invDeg m outs c))
theorem V4_out : V4 m outs c main_v37 = outs 4 main_v37 c := Function.update_self ..
theorem V4_arg5 : V4 m outs c main_arg5 = m ((c : Thread nD τ).loc main_arg5) := (V4_of m outs c main_arg5 (by decide)).trans ((V3_of m outs c main_arg5 (by decide)).trans (V2_arg5 m outs c))
theorem V4_arg6 : V4 m outs c main_arg6 = m ((c : Thread nD τ).loc main_arg6) := (V4_of m outs c main_arg6 (by decide)).trans ((V3_of m outs c main_arg6 (by decide)).trans (V2_arg6 m outs c))
theorem V4_arg7 : V4 m outs c main_arg7 = m ((c : Thread nD τ).loc main_arg7) := (V4_of m outs c main_arg7 (by decide)).trans ((V3_of m outs c main_arg7 (by decide)).trans (V2_arg7 m outs c))
theorem V4_arg8 : V4 m outs c main_arg8 = m ((c : Thread nD τ).loc main_arg8) := (V4_of m outs c main_arg8 (by decide)).trans ((V3_of m outs c main_arg8 (by decide)).trans (V2_arg8 m outs c))
theorem V4_arg9 : V4 m outs c main_arg9 = m ((c : Thread nD τ).loc main_arg9) := (V4_of m outs c main_arg9 (by decide)).trans ((V3_of m outs c main_arg9 (by decide)).trans (V2_arg9 m outs c))

theorem V6_src : V6 m outs c main_v1 = Cert.RefValue.src (m ((c : Thread nD τ).loc main_arg1)) :=
  (V6_of m outs c main_v1 (by decide)).trans ((V5_of m outs c main_v1 (by decide)).trans (V4_src m outs c))
theorem V6_dst : V6 m outs c main_v3 = Cert.RefValue.dst (m ((c : Thread nD τ).loc main_arg1)) :=
  (V6_of m outs c main_v3 (by decide)).trans ((V5_of m outs c main_v3 (by decide)).trans (V4_dst m outs c))
theorem V6_invDeg : V6 m outs c main_v11 = Cert.RefValue.invDeg (m ((c : Thread nD τ).loc main_arg1)) :=
  (V6_of m outs c main_v11 (by decide)).trans ((V5_of m outs c main_v11 (by decide)).trans (V4_invDeg m outs c))
theorem V6_out : V6 m outs c main_v61 = outs 6 main_v61 c := Function.update_self ..
theorem V6_arg5 : V6 m outs c main_arg5 = m ((c : Thread nD τ).loc main_arg5) := (V6_of m outs c main_arg5 (by decide)).trans ((V5_of m outs c main_arg5 (by decide)).trans (V4_arg5 m outs c))
theorem V6_arg6 : V6 m outs c main_arg6 = m ((c : Thread nD τ).loc main_arg6) := (V6_of m outs c main_arg6 (by decide)).trans ((V5_of m outs c main_arg6 (by decide)).trans (V4_arg6 m outs c))
theorem V6_arg7 : V6 m outs c main_arg7 = m ((c : Thread nD τ).loc main_arg7) := (V6_of m outs c main_arg7 (by decide)).trans ((V5_of m outs c main_arg7 (by decide)).trans (V4_arg7 m outs c))

/-! ## The second region's operands -/

set_option maxHeartbeats 4000000 in
theorem V3_agg : V3 m outs c main_v26 = Cert.RefValue.agg (m ((c : Thread nD τ).loc main_arg1)) (outs 2 main_v12 c) := by
  show StableHlo.after hostOps1 (V2 m outs c) (Proc.devRef .tc main_v26) = _
  after_results_simp
  rw [V2_src, V2_dst, V2_invDeg, V2_out]
  rfl
theorem V3_h : V3 m outs c main_v12 = outs 2 main_v12 c := (V3_of m outs c main_v12 (by decide)).trans (V2_out m outs c)
theorem V3_wl : V3 m outs c main_v32 = Cert.RefValue.wl0 (m ((c : Thread nD τ).loc main_arg5)) := by
  show StableHlo.after hostOps1 (V2 m outs c) (Proc.devRef .tc main_v32) = _
  after_results
  rw [V2_arg5]
  rfl
theorem V3_wr : V3 m outs c main_v34 = Cert.RefValue.wr0 (m ((c : Thread nD τ).loc main_arg6)) := by
  show StableHlo.after hostOps1 (V2 m outs c) (Proc.devRef .tc main_v34) = _
  after_results
  rw [V2_arg6]
  rfl
theorem V3_lb : V3 m outs c main_v36 = Cert.RefValue.lb0 (m ((c : Thread nD τ).loc main_arg7)) := by
  show StableHlo.after hostOps1 (V2 m outs c) (Proc.devRef .tc main_v36) = _
  after_results
  rw [V2_arg7]
  rfl
theorem V3_g : V3 m outs c main_v28 = Cert.RefValue.g0 (m ((c : Thread nD τ).loc main_arg8)) := by
  show StableHlo.after hostOps1 (V2 m outs c) (Proc.devRef .tc main_v28) = _
  after_results
  rw [V2_arg8]
  rfl
theorem V3_nb : V3 m outs c main_v30 = Cert.RefValue.nb0 (m ((c : Thread nD τ).loc main_arg9)) := by
  show StableHlo.after hostOps1 (V2 m outs c) (Proc.devRef .tc main_v30) = _
  after_results
  rw [V2_arg9]
  rfl

/-! ## The third region's operands -/

set_option maxHeartbeats 4000000 in
theorem V5_agg : V5 m outs c main_v50 = Cert.RefValue.agg (m ((c : Thread nD τ).loc main_arg1)) (outs 4 main_v37 c) := by
  show StableHlo.after hostOps2 (V4 m outs c) (Proc.devRef .tc main_v50) = _
  after_results_simp
  rw [V4_src, V4_dst, V4_invDeg, V4_out]
  rfl
theorem V5_h : V5 m outs c main_v37 = outs 4 main_v37 c := (V5_of m outs c main_v37 (by decide)).trans (V4_out m outs c)
theorem V5_wl : V5 m outs c main_v56 = Cert.RefValue.wl1 (m ((c : Thread nD τ).loc main_arg5)) := by
  show StableHlo.after hostOps2 (V4 m outs c) (Proc.devRef .tc main_v56) = _
  after_results
  rw [V4_arg5]
  rfl
theorem V5_wr : V5 m outs c main_v58 = Cert.RefValue.wr1 (m ((c : Thread nD τ).loc main_arg6)) := by
  show StableHlo.after hostOps2 (V4 m outs c) (Proc.devRef .tc main_v58) = _
  after_results
  rw [V4_arg6]
  rfl
theorem V5_lb : V5 m outs c main_v60 = Cert.RefValue.lb1 (m ((c : Thread nD τ).loc main_arg7)) := by
  show StableHlo.after hostOps2 (V4 m outs c) (Proc.devRef .tc main_v60) = _
  after_results
  rw [V4_arg7]
  rfl
theorem V5_g : V5 m outs c main_v52 = Cert.RefValue.g1 (m ((c : Thread nD τ).loc main_arg8)) := by
  show StableHlo.after hostOps2 (V4 m outs c) (Proc.devRef .tc main_v52) = _
  after_results
  rw [V4_arg8]
  rfl
theorem V5_nb : V5 m outs c main_v54 = Cert.RefValue.nb1 (m ((c : Thread nD τ).loc main_arg9)) := by
  show StableHlo.after hostOps2 (V4 m outs c) (Proc.devRef .tc main_v54) = _
  after_results
  rw [V4_arg9]
  rfl

/-! ## The fourth region's operands -/

set_option maxHeartbeats 4000000 in
theorem V7_agg : V7 m outs c main_v74 = Cert.RefValue.agg (m ((c : Thread nD τ).loc main_arg1)) (outs 6 main_v61 c) := by
  show StableHlo.after hostOps3 (V6 m outs c) (Proc.devRef .tc main_v74) = _
  after_results_simp
  rw [V6_src, V6_dst, V6_invDeg, V6_out]
  rfl
theorem V7_h : V7 m outs c main_v61 = outs 6 main_v61 c := (V7_of m outs c main_v61 (by decide)).trans (V6_out m outs c)
theorem V7_wl : V7 m outs c main_v76 = Cert.RefValue.wl2 (m ((c : Thread nD τ).loc main_arg5)) := by
  show StableHlo.after hostOps3 (V6 m outs c) (Proc.devRef .tc main_v76) = _
  after_results
  rw [V6_arg5]
  rfl
theorem V7_wr : V7 m outs c main_v78 = Cert.RefValue.wr2 (m ((c : Thread nD τ).loc main_arg6)) := by
  show StableHlo.after hostOps3 (V6 m outs c) (Proc.devRef .tc main_v78) = _
  after_results
  rw [V6_arg6]
  rfl
theorem V7_lb : V7 m outs c main_v80 = Cert.RefValue.lb2 (m ((c : Thread nD τ).loc main_arg7)) := by
  show StableHlo.after hostOps3 (V6 m outs c) (Proc.devRef .tc main_v80) = _
  after_results
  rw [V6_arg7]
  rfl

end Cert.KernelIdeal.Host

end
-- ==== Proof.KI.Value.lean ====
/-
  The kernel program's result array as one function of its arguments. Whatever the regions leave in their result
  arrays (`outs`), if each is what its region's pipeline writes from the contents it is entered at, then the last one
  is the network of the specification: the dense layer of the node features, then three graph layers, each fed the
  reference's own aggregation of the rows before it and the reference's own slices of the stacked parameters.
-/
import proofs.«176669_j55628416418297_1_alg».proof.Proof.KI.Val0
import proofs.«176669_j55628416418297_1_alg».proof.Proof.KI.Val1
import proofs.«176669_j55628416418297_1_alg».proof.Proof.KI.Val2
import proofs.«176669_j55628416418297_1_alg».proof.Proof.KI.Val3
import proofs.«176669_j55628416418297_1_alg».proof.Proof.KI.Host

set_option maxRecDepth 16384

noncomputable section

namespace Cert.KernelIdeal.Fr

open Cert.KernelIdeal Cert.KernelIdeal.Gen
open Idealize.SL Idealize.SL.RA
open Idealize.ShloMosaic Idealize.ShloMosaic.TcCoe Idealize.SL.Sem

variable (m : (ℓ : Loc nD τ sig) → Buf (Elt Ideal) ℓ) (outs : Outs (F := Ideal))

/-- The dense layer's rows, as the first region leaves them. -/
theorem value0 (c : Dev nD) :
    (dat0 (fun c b => V1 m c b) c).arrAt 3 cfg0.N
      = Cert.Spec.fcArr (m ((c : Thread nD τ).loc main_arg0)) (m ((c : Thread nD τ).loc main_arg3)) (m ((c : Thread nD τ).loc main_arg4)) := by
  rw [final0]
  dsimp only
  rw [Host.V1_arg0, Host.V1_arg3, Host.V1_arg4]

/-- The first graph layer's rows, from the rows `outs 2` the dense layer left. -/
theorem value1 (c : Dev nD) :
    (dat1 (fun c b => V3 m outs c b) c).arrAt 7 cfg1.N
      = Cert.Spec.lnArr (Cert.RefValue.agg (m ((c : Thread nD τ).loc main_arg1)) (outs 2 main_v12 c)) (outs 2 main_v12 c)
          (Cert.RefValue.wl0 (m ((c : Thread nD τ).loc main_arg5))) (Cert.RefValue.wr0 (m ((c : Thread nD τ).loc main_arg6)))
          (Cert.RefValue.lb0 (m ((c : Thread nD τ).loc main_arg7))) (Cert.RefValue.g0 (m ((c : Thread nD τ).loc main_arg8)))
          (Cert.RefValue.nb0 (m ((c : Thread nD τ).loc main_arg9))) := by
  rw [final1]
  dsimp only
  rw [Host.V3_agg, Host.V3_h, Host.V3_wl, Host.V3_wr, Host.V3_lb, Host.V3_g, Host.V3_nb]

/-- The second graph layer's rows, from the rows `outs 4` the first left. -/
theorem value2 (c : Dev nD) :
    (dat2 (fun c b => V5 m outs c b) c).arrAt 7 cfg2.N
      = Cert.Spec.lnArr (Cert.RefValue.agg (m ((c : Thread nD τ).loc main_arg1)) (outs 4 main_v37 c)) (outs 4 main_v37 c)
          (Cert.RefValue.wl1 (m ((c : Thread nD τ).loc main_arg5))) (Cert.RefValue.wr1 (m ((c : Thread nD τ).loc main_arg6)))
          (Cert.RefValue.lb1 (m ((c : Thread nD τ).loc main_arg7))) (Cert.RefValue.g1 (m ((c : Thread nD τ).loc main_arg8)))
          (Cert.RefValue.nb1 (m ((c : Thread nD τ).loc main_arg9))) := by
  rw [final2]
  dsimp only
  rw [Host.V5_agg, Host.V5_h, Host.V5_wl, Host.V5_wr, Host.V5_lb, Host.V5_g, Host.V5_nb]

/-- The last graph layer's rows, from the rows `outs 6` the second left. -/
theorem value3 (q : Fin cfg3.W → PosShare TreeShare) (c : Dev nD) :
    (dat3 (fun c b => V7 m outs c b) q c).arrAt 7 cfg3.N
      = Cert.Spec.linArr (Cert.RefValue.agg (m ((c : Thread nD τ).loc main_arg1)) (outs 6 main_v61 c)) (outs 6 main_v61 c)
          (Cert.RefValue.wl2 (m ((c : Thread nD τ).loc main_arg5))) (Cert.RefValue.wr2 (m ((c : Thread nD τ).loc main_arg6)))
          (Cert.RefValue.lb2 (m ((c : Thread nD τ).loc main_arg7))) := by
  rw [final3]
  dsimp only
  rw [Host.V7_agg, Host.V7_h, Host.V7_wl, Host.V7_wr, Host.V7_lb]

/-- THE KERNEL'S VALUE: when each region's result array is what its pipeline writes, the last is the network. -/
theorem kernel_value (q : Fin cfg3.W → PosShare TreeShare)
    (h2 : ∀ c, outs 2 main_v12 c = (dat0 (fun c b => V1 m c b) c).arrAt 3 cfg0.N)
    (h4 : ∀ c, outs 4 main_v37 c = (dat1 (fun c b => V3 m outs c b) c).arrAt 7 cfg1.N)
    (h6 : ∀ c, outs 6 main_v61 c = (dat2 (fun c b => V5 m outs c b) c).arrAt 7 cfg2.N)
    (c : Dev nD) :
    (dat3 (fun c b => V7 m outs c b) q c).arrAt 7 cfg3.N
      = Cert.Spec.net (Cert.RefValue.agg (m ((c : Thread nD τ).loc main_arg1)))
          (m ((c : Thread nD τ).loc main_arg0)) (m ((c : Thread nD τ).loc main_arg3)) (m ((c : Thread nD τ).loc main_arg4))
          (Cert.RefValue.wl0 (m ((c : Thread nD τ).loc main_arg5))) (Cert.RefValue.wr0 (m ((c : Thread nD τ).loc main_arg6)))
          (Cert.RefValue.lb0 (m ((c : Thread nD τ).loc main_arg7))) (Cert.RefValue.g0 (m ((c : Thread nD τ).loc main_arg8)))
          (Cert.RefValue.nb0 (m ((c : Thread nD τ).loc main_arg9)))
          (Cert.RefValue.wl1 (m ((c : Thread nD τ).loc main_arg5))) (Cert.RefValue.wr1 (m ((c : Thread nD τ).loc main_arg6)))
          (Cert.RefValue.lb1 (m ((c : Thread nD τ).loc main_arg7))) (Cert.RefValue.g1 (m ((c : Thread nD τ).loc main_arg8)))
          (Cert.RefValue.nb1 (m ((c : Thread nD τ).loc main_arg9)))
          (Cert.RefValue.wl2 (m ((c : Thread nD τ).loc main_arg5))) (Cert.RefValue.wr2 (m ((c : Thread nD τ).loc main_arg6)))
          (Cert.RefValue.lb2 (m ((c : Thread nD τ).loc main_arg7))) := by
  rw [value3, h6 c, value2, h4 c, value1, h2 c, value0]
  rfl

end Cert.KernelIdeal.Fr

end
-- ==== Proof.KI.Final.lean ====
/-
  The kernel program's result array, named: what the last region leaves in its result array, entered at the contents
  the three regions and four host stretches before it make of the launch memory, is the network of the specification
  applied to the arguments.
-/
import proofs.«176669_j55628416418297_1_alg».proof.Proof.KI.Chain
import proofs.«176669_j55628416418297_1_alg».proof.Proof.KI.Value

set_option maxRecDepth 16384

noncomputable section

namespace Cert.KernelIdeal.Fr

open Cert.KernelIdeal Cert.KernelIdeal.Gen
open Idealize.SL Idealize.SL.RA
open Idealize.ShloMosaic Idealize.ShloMosaic.TcCoe Idealize.SL.Sem

variable (m : (ℓ : Loc nD τ sig) → Buf (Elt Ideal) ℓ)

theorem o8_eq (c : Dev nD) :
    o8 (F := Ideal) m c = Cert.Spec.net (Cert.RefValue.agg (m ((c : Thread nD τ).loc main_arg1)))
          (m ((c : Thread nD τ).loc main_arg0)) (m ((c : Thread nD τ).loc main_arg3)) (m ((c : Thread nD τ).loc main_arg4))
          (Cert.RefValue.wl0 (m ((c : Thread nD τ).loc main_arg5))) (Cert.RefValue.wr0 (m ((c : Thread nD τ).loc main_arg6)))
          (Cert.RefValue.lb0 (m ((c : Thread nD τ).loc main_arg7))) (Cert.RefValue.g0 (m ((c : Thread nD τ).loc main_arg8)))
          (Cert.RefValue.nb0 (m ((c : Thread nD τ).loc main_arg9)))
          (Cert.RefValue.wl1 (m ((c : Thread nD τ).loc main_arg5))) (Cert.RefValue.wr1 (m ((c : Thread nD τ).loc main_arg6)))
          (Cert.RefValue.lb1 (m ((c : Thread nD τ).loc main_arg7))) (Cert.RefValue.g1 (m ((c : Thread nD τ).loc main_arg8)))
          (Cert.RefValue.nb1 (m ((c : Thread nD τ).loc main_arg9)))
          (Cert.RefValue.wl2 (m ((c : Thread nD τ).loc main_arg5))) (Cert.RefValue.wr2 (m ((c : Thread nD τ).loc main_arg6)))
          (Cert.RefValue.lb2 (m ((c : Thread nD τ).loc main_arg7))) := by
  have e3 : (fun (c : Dev nD) (b : Ref sig .tc) => X3 (F := Ideal) m c b) = (fun (c : Dev nD) (b : Ref sig .tc) => Gen.V3 m (outs m) c b) :=
    funext fun c => by rw [V3_eq]
  have e5 : (fun (c : Dev nD) (b : Ref sig .tc) => X5 (F := Ideal) m c b) = (fun (c : Dev nD) (b : Ref sig .tc) => Gen.V5 m (outs m) c b) :=
    funext fun c => by rw [V5_eq]
  have e7 : (fun (c : Dev nD) (b : Ref sig .tc) => X7 (F := Ideal) m c b) = (fun (c : Dev nD) (b : Ref sig .tc) => Gen.V7 m (outs m) c b) :=
    funext fun c => by rw [V7_eq]
  unfold o8
  rw [e7]
  exact kernel_value m (outs m) q3
    (fun c => (outs2 m c).trans (by unfold o2; rfl))
    (fun c => (outs4 m c).trans (by unfold o4; rw [e3]))
    (fun c => (outs6 m c).trans (by unfold o6; rw [e5])) c

end Cert.KernelIdeal.Fr

end
-- ==== Proof.RefOps.lean ====
/-
  The reference's dense stages, each named once as a function of the arrays it reads, in the operations the program applies.

  `fcOp` is the input layer: rows times the transposed weight matrix, plus the bias along every row, clamped at zero.
  `linOp` is a graph layer's linear part: the aggregated rows times one transposed matrix plus the rows themselves times
  another, plus the bias along every row. `normOp` normalises every row of an array: the row's mean is its sum over
  sixty-four, the centred row is the row minus that mean, the variance is the sum of the centred row's squares over
  sixty-four; the centred row is scaled entry by entry, multiplied by the inverse square root of the variance plus a
  small constant, shifted entry by entry, and clamped at zero. `lnOp` is `normOp` of `linOp`.
-/
import proofs.«176669_j55628416418297_1_alg».proof.ReferenceIdeal
import Idealize.ShloMosaic.PureOps.Ideal

noncomputable section

namespace Cert.RefValue

open Cert.ReferenceIdeal Idealize.ShloMosaic
open Cert.ReferenceIdeal.Facts₀

variable [Cert.ReferenceIdeal.Facts₀]

/-- A vector of sixty-four entries laid along every one of the fifty thousand rows. -/
def alongRows (b : FVec Ideal S64 .f32) : FVec Ideal S50000x64 .f32 :=
  broadcastInDim S50000x64 ![0, 1] bcast_S1x64_S50000x64_0_1 (broadcastInDim S1x64 ![1] bcast_S64_S1x64_1 b)

/-- The array of zeros the clamp compares with. -/
def zeros : FVec Ideal S50000x64 .f32 :=
  broadcastInDim S50000x64 ![] bcast_S_S50000x64 (constant (F := Ideal) S_ .f32 0x00000000#32)

/-- The dense input layer. -/
def fcOp (x : FVec Ideal S50000x128 .f32) (W : FVec Ideal S64x128 .f32) (b : FVec Ideal S64 .f32) : FVec Ideal S50000x64 .f32 :=
  maximumf
    (addf
      (Host.dotGeneral (F := Ideal) dot_S50000x128_S128x64_S50000x64_1_0_0_1_n_n none x
        (transpose S128x64 [1, 0] W transposes_S64x128_S128x64_1_0))
      (alongRows b))
    zeros

/-- A graph layer's linear part. -/
def linOp (a h : FVec Ideal S50000x64 .f32) (Wl Wr : FVec Ideal S64x64 .f32) (b : FVec Ideal S64 .f32) : FVec Ideal S50000x64 .f32 :=
  addf
    (addf
      (Host.dotGeneral (F := Ideal) dot_S50000x64_S64x64_S50000x64_1_0_0_1_n_n none a
        (transpose S64x64 [1, 0] Wl transposes_S64x64_S64x64_1_0))
      (Host.dotGeneral (F := Ideal) dot_S50000x64_S64x64_S50000x64_1_0_0_1_n_n none h
        (transpose S64x64 [1, 0] Wr transposes_S64x64_S64x64_1_0)))
    (alongRows b)

/-- Every row's sum, as a column, over sixty-four. -/
def rowAvg (y : FVec Ideal S50000x64 .f32) : FVec Ideal S50000x1 .f32 :=
  Host.divf (F := Ideal)
    (broadcastInDim S50000x1 ![0] bcast_S50000_S50000x1_0
      (Host.reduceAdd (F := Ideal) y (constant (F := Ideal) S_ .f32 0x00000000#32) reducesTo_S50000x64_S50000_d1 h_S_))
    (broadcastInDim S50000x1 ![] bcast_S_S50000x1 (constant (F := Ideal) S_ .f32 0x42800000#32))

/-- A column laid along every one of the sixty-four columns. -/
def alongCols (v : FVec Ideal S50000x1 .f32) : FVec Ideal S50000x64 .f32 :=
  broadcastInDim S50000x64 ![0, 1] bcast_S50000x1_S50000x64_0_1 v

/-- Every row minus its mean. -/
def centred (y : FVec Ideal S50000x64 .f32) : FVec Ideal S50000x64 .f32 :=
  subf y (alongCols (rowAvg y))

/-- Row normalisation, scale, shift and clamp. -/
def normOp (y : FVec Ideal S50000x64 .f32) (g n : FVec Ideal S64 .f32) : FVec Ideal S50000x64 .f32 :=
  maximumf
    (addf
      (mulf
        (mulf (alongRows g) (centred y))
        (alongCols
          (Host.rsqrt (F := Ideal)
            (addf (rowAvg (mulf (centred y) (centred y)))
              (broadcastInDim S50000x1 ![] bcast_S_S50000x1 (constant (F := Ideal) S_ .f32 0x3727C5AC#32))))))
      (alongRows n))
    zeros

/-- A normalised graph layer. -/
def lnOp (a h : FVec Ideal S50000x64 .f32) (Wl Wr : FVec Ideal S64x64 .f32) (b g n : FVec Ideal S64 .f32) : FVec Ideal S50000x64 .f32 :=
  normOp (linOp a h Wl Wr b) g n

end Cert.RefValue

end
-- ==== Proof.RefNet.lean ====
/-
  The whole network in the reference's operations, stage by stage: the input layer; two normalised graph layers, each
  fed the mean aggregation of the rows before it and those rows themselves, with that layer's matrices and vectors cut
  out of the stacked parameters; and a last graph layer without normalisation.
-/
import proofs.«176669_j55628416418297_1_alg».proof.Proof.RefGlue
import proofs.«176669_j55628416418297_1_alg».proof.Proof.RefOps

noncomputable section

namespace Cert.RefValue

open Cert.ReferenceIdeal Idealize.ShloMosaic

variable [Cert.ReferenceIdeal.Facts₀]

/-- The rows after the first normalised graph layer, in the reference's operations. -/
def h1Op (e : (⟨S2x1600000, .i32⟩ : BufTy).Contents (Elt Ideal)) (x : FVec Ideal S50000x128 .f32) (W : FVec Ideal S64x128 .f32)
    (b : FVec Ideal S64 .f32) (a5 a6 : FVec Ideal S3x64x64 .f32) (a7 : FVec Ideal S3x64 .f32) (a8 a9 : FVec Ideal S2x64 .f32) :
    FVec Ideal S50000x64 .f32 :=
  lnOp (agg e (fcOp x W b)) (fcOp x W b) (wl0 a5) (wr0 a6) (lb0 a7) (g0 a8) (nb0 a9)

/-- The rows after the second normalised graph layer. -/
def h2Op (e : (⟨S2x1600000, .i32⟩ : BufTy).Contents (Elt Ideal)) (x : FVec Ideal S50000x128 .f32) (W : FVec Ideal S64x128 .f32)
    (b : FVec Ideal S64 .f32) (a5 a6 : FVec Ideal S3x64x64 .f32) (a7 : FVec Ideal S3x64 .f32) (a8 a9 : FVec Ideal S2x64 .f32) :
    FVec Ideal S50000x64 .f32 :=
  lnOp (agg e (h1Op e x W b a5 a6 a7 a8 a9)) (h1Op e x W b a5 a6 a7 a8 a9) (wl1 a5) (wr1 a6) (lb1 a7) (g1 a8) (nb1 a9)

/-- The whole network in the reference's operations: the last graph layer over the rows before it. -/
def netOp (e : (⟨S2x1600000, .i32⟩ : BufTy).Contents (Elt Ideal)) (x : FVec Ideal S50000x128 .f32) (W : FVec Ideal S64x128 .f32)
    (b : FVec Ideal S64 .f32) (a5 a6 : FVec Ideal S3x64x64 .f32) (a7 : FVec Ideal S3x64 .f32) (a8 a9 : FVec Ideal S2x64 .f32) :
    FVec Ideal S50000x64 .f32 :=
  linOp (agg e (h2Op e x W b a5 a6 a7 a8 a9)) (h2Op e x W b a5 a6 a7 a8 a9) (wl2 a5) (wr2 a6) (lb2 a7)

end Cert.RefValue

end
-- ==== Proof.RefRead.lean ====
/-
  The reference's layout operations, contractions and row sums read at one index, over coordinates of literal range.

  A transposed matrix at (k, q) is the matrix at (q, k). A vector laid along the rows is, at (p, q), its entry q; a
  column laid along the columns is, at (p, q), its entry p. A contraction over one axis is the sum over that axis of
  the products; the host's sum of a row starts from the zero word, which is the number zero, so it is the plain sum.
-/
import proofs.«176669_j55628416418297_1_alg».proof.Proof.RefOps
import proofs.«176669_j55628416418297_1_alg».proof.Proof.Gen.ReferenceIdeal
import Idealize.ShloMosaic.Lib.Pipeline.Value
import Idealize.ShloMosaic.Lib.ValueIdx
import Idealize.ShloMosaic.PureOps.Ideal.Laws

noncomputable section

namespace Cert.RefValue

open Cert.ReferenceIdeal Idealize.ShloMosaic Idealize.ShloMosaic.ValueIdx
open Cert.ReferenceIdeal.Facts₀

/-! ## Transposes -/

theorem transposeIn_apply (W : FVec Ideal S64x128 .f32) (k : Fin 128) (q : Fin 64) :
    transpose S128x64 [1, 0] W transposes_S64x128_S128x64_1_0 (ix2 k q) = W (ix2 q k) :=
  transpose_apply [1, 0] W transposes_S64x128_S128x64_1_0 (ix2 k q) (ix2 q k) (fun b => match b with
    | ⟨0, _⟩ => rfl
    | ⟨1, _⟩ => rfl)

theorem transposeSq_apply (W : FVec Ideal S64x64 .f32) (k : Fin 64) (q : Fin 64) :
    transpose S64x64 [1, 0] W transposes_S64x64_S64x64_1_0 (ix2 k q) = W (ix2 q k) :=
  transpose_apply [1, 0] W transposes_S64x64_S64x64_1_0 (ix2 k q) (ix2 q k) (fun b => match b with
    | ⟨0, _⟩ => rfl
    | ⟨1, _⟩ => rfl)

/-! ## Broadcasts -/

theorem alongRows_apply (b : FVec Ideal S64 .f32) (p : Fin 50000) (q : Fin 64) : alongRows b (ix2 p q) = b (ix1 q) := by
  unfold alongRows
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

theorem alongCols_apply (v : FVec Ideal S50000x1 .f32) (p : Fin 50000) (q : Fin 64) :
    alongCols v (ix2 p q) = v (ix2 p (0 : Fin 1)) := by
  unfold alongCols
  exact broadcastInDim_apply _ bcast_S50000x1_S50000x64_0_1 v (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

theorem asColumn_apply (v : FVec Ideal S50000 .f32) (p : Fin 50000) (z : Fin 1) :
    broadcastInDim S50000x1 ![0] bcast_S50000_S50000x1_0 v (ix2 p z) = v (ix1 p) :=
  broadcastInDim_apply _ bcast_S50000_S50000x1_0 v (ix2 p z) (ix1 p) (fun a => match a with
    | ⟨0, _⟩ => by show p.val = if (50000 : Nat) = 1 then 0 else p.val; rw [if_neg (by decide)])

theorem splatColumn_apply (w : BitVec 32) (i : S50000x1.Idx) :
    broadcastInDim S50000x1 ![] bcast_S_S50000x1 (constant (F := Ideal) S_ .f32 w) i = Ideal.ofBits .f32 w := by
  exact broadcastInDim_apply (s := S_) ![] bcast_S_S50000x1 (constant (F := Ideal) S_ .f32 w) i ix0 (fun a => a.elim0)

theorem zeros_apply (i : S50000x64.Idx) : zeros i = Ideal.ofBits .f32 0x00000000#32 := by
  unfold zeros
  exact broadcastInDim_apply (s := S_) ![] bcast_S_S50000x64 (constant (F := Ideal) S_ .f32 0x00000000#32) i ix0 (fun a => a.elim0)

/-! ## Contractions -/

theorem dotIn_lhs0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dotIn_lhs1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem dotIn_rhs0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem dotIn_rhs1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The product at row `p`, column `q`: the sum over the contracted axis of left row `p` times right column `q`. -/
theorem dotIn_apply (l : FVec Ideal S50000x128 .f32) (r : FVec Ideal S128x64 .f32) (p : Fin 50000) (q : Fin 64) :
    Host.dotGeneral (F := Ideal) dot_S50000x128_S128x64_S50000x64_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact dotIn_lhs0 _ _
    | ⟨1, _⟩ => exact (dotIn_lhs1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (dotIn_rhs0 _ _).trans hk
    | ⟨1, _⟩ => exact dotIn_rhs1 _ _)
  rw [el, er]

theorem dotSq_lhs0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotSq_lhs1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem dotSq_rhs0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem dotSq_rhs1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product at row `p`, column `q`: the sum over the contracted axis of left row `p` times right column `q`. -/
theorem dotSq_apply (l : FVec Ideal S50000x64 .f32) (r : FVec Ideal S64x64 .f32) (p : Fin 50000) (q : Fin 64) :
    Host.dotGeneral (F := Ideal) dot_S50000x64_S64x64_S50000x64_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 p q) ((ValueIdx.contrEquiv1 dot_S50000x64_S64x64_S50000x64_1_0_0_1_n_n 64 rfl rfl).symm k) = ix2 p k := funext fun a => Fin.ext (by
    match a with
    | ⟨0, _⟩ => exact dotSq_lhs0 _ _
    | ⟨1, _⟩ => exact (dotSq_lhs1 _ _).trans hk)
  have er : dot_S50000x64_S64x64_S50000x64_1_0_0_1_n_n.rhsIdx (ix2 p q) ((ValueIdx.contrEquiv1 dot_S50000x64_S64x64_S50000x64_1_0_0_1_n_n 64 rfl rfl).symm k) = ix2 k q := funext fun a => Fin.ext (by
    match a with
    | ⟨0, _⟩ => exact (dotSq_rhs0 _ _).trans hk
    | ⟨1, _⟩ => exact dotSq_rhs1 _ _)
  rw [el, er]

/-- The product with a transposed matrix: left row `p` against ROW `q` of the matrix as it is stored. -/
theorem dotInT_apply (l : FVec Ideal S50000x128 .f32) (W : FVec Ideal S64x128 .f32) (p : Fin 50000) (q : Fin 64) :
    Host.dotGeneral (F := Ideal) dot_S50000x128_S128x64_S50000x64_1_0_0_1_n_n none l (transpose S128x64 [1, 0] W transposes_S64x128_S128x64_1_0) (ix2 p q)
      = ∑ k : Fin 128, l (ix2 p k) * W (ix2 q k) := by
  rw [dotIn_apply]
  refine Finset.sum_congr rfl fun k _ => ?_
  rw [transposeIn_apply]

theorem dotSqT_apply (l : FVec Ideal S50000x64 .f32) (W : FVec Ideal S64x64 .f32) (p : Fin 50000) (q : Fin 64) :
    Host.dotGeneral (F := Ideal) dot_S50000x64_S64x64_S50000x64_1_0_0_1_n_n none l (transpose S64x64 [1, 0] W transposes_S64x64_S64x64_1_0) (ix2 p q)
      = ∑ k : Fin 64, l (ix2 p k) * W (ix2 q k) := by
  rw [dotSq_apply]
  refine Finset.sum_congr rfl fun k _ => ?_
  rw [transposeSq_apply]

/-! ## The host's quotient and inverse square root, entry by entry -/

theorem hostDivf_apply {s : Shape} (a b : FVec Ideal s .f32) (i : s.Idx) : Host.divf (F := Ideal) a b i = Ideal.div (a i) (b i) := rfl

theorem hostRsqrt_apply {s : Shape} (a : FVec Ideal s .f32) (i : s.Idx) : Host.rsqrt (F := Ideal) a i = Ideal.rsqrt (a i) := rfl

/-! ## Row sums -/

/-- The host's sum of row `p` from the zero word: the sum of the row's sixty-four entries. -/
theorem rowSum_apply (y : FVec Ideal S50000x64 .f32) (p : Fin 50000) :
    Host.reduceAdd (F := Ideal) y (constant (F := Ideal) S_ .f32 0x00000000#32) reducesTo_S50000x64_S50000_d1 h_S_ (ix1 p)
      = ∑ k : Fin 64, y (ix2 p k) := by
  simp only [Host.reduceAdd, Ideal.hostReduceAdd_def]
  rw [Ideal.hostReduceAdd_single reducesTo_S50000x64_S50000_d1 (by decide)]
  refine (congrArg (· + _) (show (constant (F := Ideal) S_ .f32 0x00000000#32) (Shape.Idx.first h_S_) = 0 from Ideal.ofBits_zero_f32)).trans ?_
  rw [zero_add]
  refine Finset.sum_congr rfl fun k _ => ?_
  exact congrArg y (funext fun a => Fin.ext (by match a with | ⟨0, _⟩ => rfl | ⟨1, _⟩ => rfl))

/-- A row's sum over sixty-four, read at the row. -/
theorem rowAvg_apply (y : FVec Ideal S50000x64 .f32) (p : Fin 50000) (z : Fin 1) :
    rowAvg y (ix2 p z) = Ideal.div (∑ k : Fin 64, y (ix2 p k)) (Ideal.ofBits .f32 0x42800000#32) := by
  unfold rowAvg
  rw [hostDivf_apply, asColumn_apply, splatColumn_apply, rowSum_apply]

end Cert.RefValue

end
-- ==== Proof.RefFc.lean ====
/-
  The reference's input layer, entry by entry, is the specification's: at node p and column q the contraction with the
  transposed weight matrix is the sum over k of x(p, k) · W(q, k), the bias laid along the rows adds b(q), and the
  clamp compares with the zero word.
-/
import proofs.«176669_j55628416418297_1_alg».proof.Proof.RefRead
import proofs.«176669_j55628416418297_1_alg».proof.Proof.Spec

noncomputable section

namespace Cert.RefValue

open Cert.ReferenceIdeal Idealize.ShloMosaic Idealize.ShloMosaic.ValueIdx

/-- The input layer at node `p`, column `q`. -/
theorem fcOp_apply (x : FVec Ideal S50000x128 .f32) (W : FVec Ideal S64x128 .f32) (b : FVec Ideal S64 .f32) (p : Fin 50000) (q : Fin 64) :
    fcOp x W b (ix2 p q) = Cert.Spec.fc (fun k => x (ix2 p k)) (fun j k => W (ix2 j k)) (fun j => b (ix1 j)) q := by
  unfold fcOp
  rw [maximumf_apply, addf_apply, dotInT_apply, alongRows_apply, zeros_apply]
  rfl

/-- The reference's input layer is the specification's. -/
theorem refFc_eq (x : FVec Ideal S50000x128 .f32) (W : FVec Ideal S64x128 .f32) (b : FVec Ideal S64 .f32) :
    fcOp x W b = Cert.Spec.fcArr x W b := by
  funext i
  obtain ⟨p, q, rfl⟩ : ∃ (p : Fin 50000) (q : Fin 64), i = ix2 p q := ⟨i 0, i 1, eq_ix2 i⟩
  exact fcOp_apply x W b p q

end Cert.RefValue

end
-- ==== Proof.RefLin.lean ====
/-
  A graph layer's linear part, entry by entry, is the specification's: at node p and column q it is the sum over k of
  a(p, k) · Wl(q, k), plus the sum over k of h(p, k) · Wr(q, k), plus b(q). The last layer is this and nothing more.
-/
import proofs.«176669_j55628416418297_1_alg».proof.Proof.RefRead
import proofs.«176669_j55628416418297_1_alg».proof.Proof.Spec

noncomputable section

namespace Cert.RefValue

open Cert.ReferenceIdeal Idealize.ShloMosaic Idealize.ShloMosaic.ValueIdx

/-- A graph layer's linear part at node `p`, column `q`. -/
theorem linOp_apply (a h : FVec Ideal S50000x64 .f32) (Wl Wr : FVec Ideal S64x64 .f32) (b : FVec Ideal S64 .f32) (p : Fin 50000) (q : Fin 64) :
    linOp a h Wl Wr b (ix2 p q)
      = Cert.Spec.lin (fun k => a (ix2 p k)) (fun k => h (ix2 p k)) (fun j k => Wl (ix2 j k)) (fun j k => Wr (ix2 j k)) (fun j => b (ix1 j)) q := by
  unfold linOp
  rw [addf_apply, addf_apply, dotSqT_apply, dotSqT_apply, alongRows_apply]
  rfl

/-- The reference's last graph layer is the specification's. -/
theorem refLin_eq (a h : FVec Ideal S50000x64 .f32) (Wl Wr : FVec Ideal S64x64 .f32) (b : FVec Ideal S64 .f32) :
    linOp a h Wl Wr b = Cert.Spec.linArr a h Wl Wr b := by
  funext i
  obtain ⟨p, q, rfl⟩ : ∃ (p : Fin 50000) (q : Fin 64), i = ix2 p q := ⟨i 0, i 1, eq_ix2 i⟩
  exact linOp_apply a h Wl Wr b p q

end Cert.RefValue

end
-- ==== Proof.RefLn.lean ====
/-
  A normalised graph layer, entry by entry, is the specification's. A row's mean is its sum over sixty-four (the host's
  sum starts from zero, so it is the plain sum); the centred entry is the entry minus that mean; the variance is the sum
  of the centred entries' squares over sixty-four; the result at column q is g(q) times the centred entry, times the
  inverse square root of the variance plus the small constant, plus n(q), clamped at zero. The row being normalised is
  the linear part's row, read by the lemma of the module before.
-/
import proofs.«176669_j55628416418297_1_alg».proof.Proof.RefLin

noncomputable section

namespace Cert.RefValue

open Cert.ReferenceIdeal Idealize.ShloMosaic Idealize.ShloMosaic.ValueIdx

/-- A row minus its mean, at node `p`, column `q`. -/
theorem centred_apply (y : FVec Ideal S50000x64 .f32) (p : Fin 50000) (q : Fin 64) :
    centred y (ix2 p q) = y (ix2 p q) - Cert.Spec.mean (fun k => y (ix2 p k)) := by
  unfold centred
  rw [subf_apply, alongCols_apply, rowAvg_apply]
  rfl

/-- Row normalisation, scale, shift and clamp at node `p`, column `q`: the specification's, of row `p`. -/
theorem normOp_apply (y : FVec Ideal S50000x64 .f32) (g n : FVec Ideal S64 .f32) (p : Fin 50000) (q : Fin 64) :
    normOp y g n (ix2 p q) = Cert.Spec.ln (fun k => y (ix2 p k)) (fun j => g (ix1 j)) (fun j => n (ix1 j)) q := by
  unfold normOp
  rw [maximumf_apply, addf_apply, mulf_apply, mulf_apply, alongRows_apply, alongRows_apply, centred_apply, alongCols_apply,
    hostRsqrt_apply, addf_apply, rowAvg_apply, splatColumn_apply, zeros_apply]
  simp only [mulf_apply, centred_apply]
  rfl

/-- The reference's normalised graph layer is the specification's. -/
theorem refLn_eq (a h : FVec Ideal S50000x64 .f32) (Wl Wr : FVec Ideal S64x64 .f32) (b g n : FVec Ideal S64 .f32) :
    lnOp a h Wl Wr b g n = Cert.Spec.lnArr a h Wl Wr b g n := by
  funext i
  obtain ⟨p, q, rfl⟩ : ∃ (p : Fin 50000) (q : Fin 64), i = ix2 p q := ⟨i 0, i 1, eq_ix2 i⟩
  unfold lnOp
  rw [normOp_apply]
  simp only [linOp_apply]
  rfl

end Cert.RefValue

end
-- ==== Proof.RefValue.lean ====
/-
  The reference's network, stage by stage, is the specification's network of the same arguments: each stage is the
  specification's, entry by entry, by the three lemmas of the modules before; the aggregation is carried as one function
  of the edge list and the rows and never opened.
-/
import proofs.«176669_j55628416418297_1_alg».proof.Proof.RefNet
import proofs.«176669_j55628416418297_1_alg».proof.Proof.RefFc
import proofs.«176669_j55628416418297_1_alg».proof.Proof.RefLn

noncomputable section

namespace Cert.RefValue

open Cert.ReferenceIdeal Idealize.ShloMosaic

/-- Stage by stage the reference's operations are the specification's network. -/
theorem netOp_eq (e : (⟨S2x1600000, .i32⟩ : BufTy).Contents (Elt Ideal)) (x : FVec Ideal S50000x128 .f32) (W : FVec Ideal S64x128 .f32)
    (b : FVec Ideal S64 .f32) (a5 a6 : FVec Ideal S3x64x64 .f32) (a7 : FVec Ideal S3x64 .f32) (a8 a9 : FVec Ideal S2x64 .f32) :
    netOp e x W b a5 a6 a7 a8 a9
      = Cert.Spec.net (agg e) x W b (wl0 a5) (wr0 a6) (lb0 a7) (g0 a8) (nb0 a9) (wl1 a5) (wr1 a6) (lb1 a7) (g1 a8) (nb1 a9)
          (wl2 a5) (wr2 a6) (lb2 a7) := by
  unfold netOp h2Op h1Op
  rw [refLin_eq, refLn_eq, refLn_eq, refFc_eq]
  rfl

end Cert.RefValue

end
-- ==== Proof.RefRunH.lean ====
/-
  The reference program's run, read stretch by stretch.

  @main is a straight line of 186 host operations. Cut after the input layer and after each normalised graph layer it is
  four stretches, and the buffers after the whole line are the buffers after the last stretch run from those after the
  third, and so on back to the launch. Of each stretch only a few buffers matter to what follows: the two rows of the
  edge list and the inverse degrees (written once, in the first stretch, and read by every aggregation), the rows the
  stretch ends with, and the ten arguments, which no operation writes. Read so, the first stretch leaves the input
  layer's rows; each of the next two leaves a normalised graph layer of the mean aggregation of the rows it found and
  of those rows; the last leaves the plain graph layer: the staged network `netOp` of the arguments.
-/
import proofs.«176669_j55628416418297_1_alg».proof.Proof.Gen.ReferenceIdeal
import proofs.«176669_j55628416418297_1_alg».proof.Proof.RefNet
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## The line and its four stretches -/

/-- @main's 186 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_arg3 main_v12 ((transpose S128x64 [1, 0] · transposes_S64x128_S128x64_1_0) : (⟨S64x128, .f32⟩ : BufTy).Contents (Elt F) → (⟨S128x64, .f32⟩ : BufTy).Contents (Elt F)),
    binary main_arg0 main_v12 main_v13 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v14 (broadcastInDim S1x64 ![1] bcast_S64_S1x64_1 : (⟨S64, .f32⟩ : BufTy).Contents (Elt F) → (⟨S1x64, .f32⟩ : BufTy).Contents (Elt F)),
    unary main_v14 main_v15 (broadcastInDim S50000x64 ![0, 1] bcast_S1x64_S50000x64_0_1 : (⟨S1x64, .f32⟩ : BufTy).Contents (Elt F) → (⟨S50000x64, .f32⟩ : BufTy).Contents (Elt F)),
    binary main_v13 main_v15 main_v16 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v16) (TRef.of (T := ⟨S50000x64, .f32⟩) main_call0_v0) (TRef.of (T := ⟨S50000x64, .f32⟩) main_v17) maximumf,
    nullary main_c (constantI S_ 32 0#32),
    unary main_c main_v18 (broadcastInDim S1600000 ![] bcast_S_S1600000 : (⟨S_, .i32⟩ : BufTy).Contents (Elt F) → (⟨S1600000, .i32⟩ : BufTy).Contents (Elt F)),
    binary main_v1 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 50000#32),
    unary main_c_3 main_v20 (broadcastInDim S1600000 ![] bcast_S_S1600000 : (⟨S_, .i32⟩ : BufTy).Contents (Elt F) → (⟨S1600000, .i32⟩ : BufTy).Contents (Elt F)),
    binary main_v1 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v1 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v17 main_v23 main_v24 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_4 (constant S_ .f32 0x00000000#32),
    unary main_cst_4 main_v25 (broadcastInDim S50000x64 ![] bcast_S_S50000x64 : (⟨S_, .f32⟩ : BufTy).Contents (Elt F) → (⟨S50000x64, .f32⟩ : BufTy).Contents (Elt F)),
    unary main_v3 main_v26 (broadcastInDim S1600000x1 ![0] bcast_S1600000_S1600000x1_0 : (⟨S1600000, .i32⟩ : BufTy).Contents (Elt F) → (⟨S1600000x1, .i32⟩ : BufTy).Contents (Elt F)),
    ternary main_v25 main_v26 main_v24 main_v27 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v11 main_v28 (broadcastInDim S50000x1 ![0] bcast_S50000_S50000x1_0 : (⟨S50000, .f32⟩ : BufTy).Contents (Elt F) → (⟨S50000x1, .f32⟩ : BufTy).Contents (Elt F)),
    unary main_v28 main_v29 (broadcastInDim S50000x64 ![0, 1] bcast_S50000x1_S50000x64_0_1 : (⟨S50000x1, .f32⟩ : BufTy).Contents (Elt F) → (⟨S50000x64, .f32⟩ : BufTy).Contents (Elt F)),
    binary main_v27 main_v29 main_v30 (mulf : (⟨S50000x64, .f32⟩ : BufTy).Contents (Elt F) → (⟨S50000x64, .f32⟩ : BufTy).Contents (Elt F) → (⟨S50000x64, .f32⟩ : BufTy).Contents (Elt F)),
    unary main_arg5 main_v31 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v31 main_v32 rfl shapeCasts_S1x64x64_S64x64,
    unary main_v32 main_v33 ((transpose S64x64 [1, 0] · transposes_S64x64_S64x64_1_0) : (⟨S64x64, .f32⟩ : BufTy).Contents (Elt F) → (⟨S64x64, .f32⟩ : BufTy).Contents (Elt F)),
    binary main_v30 main_v33 main_v34 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    unary main_v36 main_v37 ((transpose S64x64 [1, 0] · transposes_S64x64_S64x64_1_0) : (⟨S64x64, .f32⟩ : BufTy).Contents (Elt F) → (⟨S64x64, .f32⟩ : BufTy).Contents (Elt F)),
    binary main_v17 main_v37 main_v38 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v34 main_v38 main_v39 (addf : (⟨S50000x64, .f32⟩ : BufTy).Contents (Elt F) → (⟨S50000x64, .f32⟩ : BufTy).Contents (Elt F) → (⟨S50000x64, .f32⟩ : BufTy).Contents (Elt F)),
    unary main_arg7 main_v40 ((extractStridedSlice S1x64 ![0, 0] · slices_S3x64_S1x64_0_0) : (⟨S3x64, .f32⟩ : BufTy).Contents (Elt F) → (⟨S1x64, .f32⟩ : BufTy).Contents (Elt F)),
    reshape main_v40 main_v41 rfl shapeCasts_S1x64_S64,
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)),
    unary main_arg8 main_v45 ((extractStridedSlice S1x64 ![0, 0] · slices_S2x64_S1x64_0_0) : (⟨S2x64, .f32⟩ : BufTy).Contents (Elt F) → (⟨S1x64, .f32⟩ : BufTy).Contents (Elt F)),
    reshape main_v45 main_v46 rfl shapeCasts_S1x64_S64,
    unary main_arg9 main_v47 ((extractStridedSlice S1x64 ![0, 0] · slices_S2x64_S1x64_0_0) : (⟨S2x64, .f32⟩ : BufTy).Contents (Elt F) → (⟨S1x64, .f32⟩ : BufTy).Contents (Elt F)),
    reshape main_v47 main_v48 rfl shapeCasts_S1x64_S64,
    nullary main_cst_5 (constant S_ .f32 0x00000000#32),
    binary main_v44 main_cst_5 main_v49 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    nullary main_cst_6 (constant S_ .f32 0x42800000#32),
    unary main_cst_6 main_v51 (broadcastInDim S50000x1 ![] bcast_S_S50000x1 : (⟨S_, .f32⟩ : BufTy).Contents (Elt F) → (⟨S50000x1, .f32⟩ : BufTy).Contents (Elt F)),
    binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    unary main_v52 main_v53 (broadcastInDim S50000x64 ![0, 1] bcast_S50000x1_S50000x64_0_1 : (⟨S50000x1, .f32⟩ : BufTy).Contents (Elt F) → (⟨S50000x64, .f32⟩ : BufTy).Contents (Elt F)),
    binary main_v44 main_v53 main_v54 (subf : (⟨S50000x64, .f32⟩ : BufTy).Contents (Elt F) → (⟨S50000x64, .f32⟩ : BufTy).Contents (Elt F) → (⟨S50000x64, .f32⟩ : BufTy).Contents (Elt F)),
    binary main_v54 main_v54 main_v55 (mulf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x00000000#32),
    binary main_v55 main_cst_7 main_v56 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v56 main_v57 (broadcastInDim S50000x1 ![0] bcast_S50000_S50000x1_0 : (⟨S50000, .f32⟩ : BufTy).Contents (Elt F) → (⟨S50000x1, .f32⟩ : BufTy).Contents (Elt F)),
    nullary main_cst_8 (constant S_ .f32 0x42800000#32),
    unary main_cst_8 main_v58 (broadcastInDim S50000x1 ![] bcast_S_S50000x1 : (⟨S_, .f32⟩ : BufTy).Contents (Elt F) → (⟨S50000x1, .f32⟩ : BufTy).Contents (Elt F)),
    binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    unary main_v52 main_v60 (broadcastInDim S50000x64 ![0, 1] bcast_S50000x1_S50000x64_0_1 : (⟨S50000x1, .f32⟩ : BufTy).Contents (Elt F) → (⟨S50000x64, .f32⟩ : BufTy).Contents (Elt F)),
    binary main_v44 main_v60 main_v61 (subf : (⟨S50000x64, .f32⟩ : BufTy).Contents (Elt F) → (⟨S50000x64, .f32⟩ : BufTy).Contents (Elt F) → (⟨S50000x64, .f32⟩ : BufTy).Contents (Elt F)),
    unary main_v46 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v63 main_v61 main_v64 (mulf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3727C5AC#32),
    unary main_cst_9 main_v65 (broadcastInDim S50000x1 ![] bcast_S_S50000x1 : (⟨S_, .f32⟩ : BufTy).Contents (Elt F) → (⟨S50000x1, .f32⟩ : BufTy).Contents (Elt F)),
    binary main_v59 main_v65 main_v66 (addf : (⟨S50000x1, .f32⟩ : BufTy).Contents (Elt F) → (⟨S50000x1, .f32⟩ : BufTy).Contents (Elt F) → (⟨S50000x1, .f32⟩ : BufTy).Contents (Elt F)),
    unary main_v66 main_v67 (Host.rsqrt : (⟨S50000x1, .f32⟩ : BufTy).Contents (Elt F) → (⟨S50000x1, .f32⟩ : BufTy).Contents (Elt F)),
    unary main_v67 main_v68 (broadcastInDim S50000x64 ![0, 1] bcast_S50000x1_S50000x64_0_1 : (⟨S50000x1, .f32⟩ : BufTy).Contents (Elt F) → (⟨S50000x64, .f32⟩ : BufTy).Contents (Elt F)),
    binary main_v64 main_v68 main_v69 (mulf : (⟨S50000x64, .f32⟩ : BufTy).Contents (Elt F) → (⟨S50000x64, .f32⟩ : BufTy).Contents (Elt F) → (⟨S50000x64, .f32⟩ : BufTy).Contents (Elt F)),
    unary main_v48 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v69 main_v71 main_v72 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v72) (TRef.of (T := ⟨S50000x64, .f32⟩) main_call1_v0) (TRef.of (T := ⟨S50000x64, .f32⟩) main_v73) maximumf,
    nullary main_c_10 (constantI S_ 32 0#32),
    unary main_c_10 main_v74 (broadcastInDim S1600000 ![] bcast_S_S1600000 : (⟨S_, .i32⟩ : BufTy).Contents (Elt F) → (⟨S1600000, .i32⟩ : BufTy).Contents (Elt F)),
    binary main_v1 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 50000#32),
    unary main_c_11 main_v76 (broadcastInDim S1600000 ![] bcast_S_S1600000 : (⟨S_, .i32⟩ : BufTy).Contents (Elt F) → (⟨S1600000, .i32⟩ : BufTy).Contents (Elt F)),
    binary main_v1 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v1 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v73 main_v79 main_v80 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_12 (constant S_ .f32 0x00000000#32),
    unary main_cst_12 main_v81 (broadcastInDim S50000x64 ![] bcast_S_S50000x64 : (⟨S_, .f32⟩ : BufTy).Contents (Elt F) → (⟨S50000x64, .f32⟩ : BufTy).Contents (Elt F)),
    unary main_v3 main_v82 (broadcastInDim S1600000x1 ![0] bcast_S1600000_S1600000x1_0 : (⟨S1600000, .i32⟩ : BufTy).Contents (Elt F) → (⟨S1600000x1, .i32⟩ : BufTy).Contents (Elt F)),
    ternary main_v81 main_v82 main_v80 main_v83 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v11 main_v84 (broadcastInDim S50000x1 ![0] bcast_S50000_S50000x1_0 : (⟨S50000, .f32⟩ : BufTy).Contents (Elt F) → (⟨S50000x1, .f32⟩ : BufTy).Contents (Elt F)),
    unary main_v84 main_v85 (broadcastInDim S50000x64 ![0, 1] bcast_S50000x1_S50000x64_0_1 : (⟨S50000x1, .f32⟩ : BufTy).Contents (Elt F) → (⟨S50000x64, .f32⟩ : BufTy).Contents (Elt F)),
    binary main_v83 main_v85 main_v86 (mulf : (⟨S50000x64, .f32⟩ : BufTy).Contents (Elt F) → (⟨S50000x64, .f32⟩ : BufTy).Contents (Elt F) → (⟨S50000x64, .f32⟩ : BufTy).Contents (Elt F)),
    unary main_arg5 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v87 main_v88 rfl shapeCasts_S1x64x64_S64x64,
    unary main_v88 main_v89 ((transpose S64x64 [1, 0] · transposes_S64x64_S64x64_1_0) : (⟨S64x64, .f32⟩ : BufTy).Contents (Elt F) → (⟨S64x64, .f32⟩ : BufTy).Contents (Elt F)),
    binary main_v86 main_v89 main_v90 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v91 main_v92 rfl shapeCasts_S1x64x64_S64x64,
    unary main_v92 main_v93 ((transpose S64x64 [1, 0] · transposes_S64x64_S64x64_1_0) : (⟨S64x64, .f32⟩ : BufTy).Contents (Elt F) → (⟨S64x64, .f32⟩ : BufTy).Contents (Elt F)),
    binary main_v73 main_v93 main_v94 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v90 main_v94 main_v95 (addf : (⟨S50000x64, .f32⟩ : BufTy).Contents (Elt F) → (⟨S50000x64, .f32⟩ : BufTy).Contents (Elt F) → (⟨S50000x64, .f32⟩ : BufTy).Contents (Elt F)),
    unary main_arg7 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    unary main_v97 main_v98 (broadcastInDim S1x64 ![1] bcast_S64_S1x64_1 : (⟨S64, .f32⟩ : BufTy).Contents (Elt F) → (⟨S1x64, .f32⟩ : BufTy).Contents (Elt F)),
    unary main_v98 main_v99 (broadcastInDim S50000x64 ![0, 1] bcast_S1x64_S50000x64_0_1 : (⟨S1x64, .f32⟩ : BufTy).Contents (Elt F) → (⟨S50000x64, .f32⟩ : BufTy).Contents (Elt F)),
    binary main_v95 main_v99 main_v100 (addf : (⟨S50000x64, .f32⟩ : BufTy).Contents (Elt F) → (⟨S50000x64, .f32⟩ : BufTy).Contents (Elt F) → (⟨S50000x64, .f32⟩ : BufTy).Contents (Elt F)),
    unary main_arg8 main_v101 ((extractStridedSlice S1x64 ![1, 0] · slices_S2x64_S1x64_1_0) : (⟨S2x64, .f32⟩ : BufTy).Contents (Elt F) → (⟨S1x64, .f32⟩ : BufTy).Contents (Elt F)),
    reshape main_v101 main_v102 rfl shapeCasts_S1x64_S64,
    unary main_arg9 main_v103 ((extractStridedSlice S1x64 ![1, 0] · slices_S2x64_S1x64_1_0) : (⟨S2x64, .f32⟩ : BufTy).Contents (Elt F) → (⟨S1x64, .f32⟩ : BufTy).Contents (Elt F)),
    reshape main_v103 main_v104 rfl shapeCasts_S1x64_S64,
    nullary main_cst_13 (constant S_ .f32 0x00000000#32),
    binary main_v100 main_cst_13 main_v105 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    nullary main_cst_14 (constant S_ .f32 0x42800000#32),
    unary main_cst_14 main_v107 (broadcastInDim S50000x1 ![] bcast_S_S50000x1 : (⟨S_, .f32⟩ : BufTy).Contents (Elt F) → (⟨S50000x1, .f32⟩ : BufTy).Contents (Elt F)),
    binary main_v106 main_v107 main_v108 (Host.divf : (⟨S50000x1, .f32⟩ : BufTy).Contents (Elt F) → (⟨S50000x1, .f32⟩ : BufTy).Contents (Elt F) → (⟨S50000x1, .f32⟩ : BufTy).Contents (Elt F)),
    unary main_v108 main_v109 (broadcastInDim S50000x64 ![0, 1] bcast_S50000x1_S50000x64_0_1 : (⟨S50000x1, .f32⟩ : BufTy).Contents (Elt F) → (⟨S50000x64, .f32⟩ : BufTy).Contents (Elt F)),
    binary main_v100 main_v109 main_v110 (subf : (⟨S50000x64, .f32⟩ : BufTy).Contents (Elt F) → (⟨S50000x64, .f32⟩ : BufTy).Contents (Elt F) → (⟨S50000x64, .f32⟩ : BufTy).Contents (Elt F)),
    binary main_v110 main_v110 main_v111 (mulf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x00000000#32),
    binary main_v111 main_cst_15 main_v112 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v112 main_v113 (broadcastInDim S50000x1 ![0] bcast_S50000_S50000x1_0 : (⟨S50000, .f32⟩ : BufTy).Contents (Elt F) → (⟨S50000x1, .f32⟩ : BufTy).Contents (Elt F)),
    nullary main_cst_16 (constant S_ .f32 0x42800000#32),
    unary main_cst_16 main_v114 (broadcastInDim S50000x1 ![] bcast_S_S50000x1 : (⟨S_, .f32⟩ : BufTy).Contents (Elt F) → (⟨S50000x1, .f32⟩ : BufTy).Contents (Elt F)),
    binary main_v113 main_v114 main_v115 (Host.divf : (⟨S50000x1, .f32⟩ : BufTy).Contents (Elt F) → (⟨S50000x1, .f32⟩ : BufTy).Contents (Elt F) → (⟨S50000x1, .f32⟩ : BufTy).Contents (Elt F)),
    unary main_v108 main_v116 (broadcastInDim S50000x64 ![0, 1] bcast_S50000x1_S50000x64_0_1 : (⟨S50000x1, .f32⟩ : BufTy).Contents (Elt F) → (⟨S50000x64, .f32⟩ : BufTy).Contents (Elt F)),
    binary main_v100 main_v116 main_v117 (subf : (⟨S50000x64, .f32⟩ : BufTy).Contents (Elt F) → (⟨S50000x64, .f32⟩ : BufTy).Contents (Elt F) → (⟨S50000x64, .f32⟩ : BufTy).Contents (Elt F)),
    unary main_v102 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v119 main_v117 main_v120 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x3727C5AC#32),
    unary main_cst_17 main_v121 (broadcastInDim S50000x1 ![] bcast_S_S50000x1 : (⟨S_, .f32⟩ : BufTy).Contents (Elt F) → (⟨S50000x1, .f32⟩ : BufTy).Contents (Elt F)),
    binary main_v115 main_v121 main_v122 (addf : (⟨S50000x1, .f32⟩ : BufTy).Contents (Elt F) → (⟨S50000x1, .f32⟩ : BufTy).Contents (Elt F) → (⟨S50000x1, .f32⟩ : BufTy).Contents (Elt F)),
    unary main_v122 main_v123 (Host.rsqrt : (⟨S50000x1, .f32⟩ : BufTy).Contents (Elt F) → (⟨S50000x1, .f32⟩ : BufTy).Contents (Elt F)),
    unary main_v123 main_v124 (broadcastInDim S50000x64 ![0, 1] bcast_S50000x1_S50000x64_0_1 : (⟨S50000x1, .f32⟩ : BufTy).Contents (Elt F) → (⟨S50000x64, .f32⟩ : BufTy).Contents (Elt F)),
    binary main_v120 main_v124 main_v125 (mulf : (⟨S50000x64, .f32⟩ : BufTy).Contents (Elt F) → (⟨S50000x64, .f32⟩ : BufTy).Contents (Elt F) → (⟨S50000x64, .f32⟩ : BufTy).Contents (Elt F)),
    unary main_v104 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v125 main_v127 main_v128 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v128) (TRef.of (T := ⟨S50000x64, .f32⟩) main_call2_v0) (TRef.of (T := ⟨S50000x64, .f32⟩) main_v129) maximumf,
    nullary main_c_18 (constantI S_ 32 0#32),
    unary main_c_18 main_v130 (broadcastInDim S1600000 ![] bcast_S_S1600000 : (⟨S_, .i32⟩ : BufTy).Contents (Elt F) → (⟨S1600000, .i32⟩ : BufTy).Contents (Elt F)),
    binary main_v1 main_v130 main_v131 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 50000#32),
    unary main_c_19 main_v132 (broadcastInDim S1600000 ![] bcast_S_S1600000 : (⟨S_, .i32⟩ : BufTy).Contents (Elt F) → (⟨S1600000, .i32⟩ : BufTy).Contents (Elt F)),
    binary main_v1 main_v132 main_v133 (addi : (⟨S1600000, .i32⟩ : BufTy).Contents (Elt F) → (⟨S1600000, .i32⟩ : BufTy).Contents (Elt F) → (⟨S1600000, .i32⟩ : BufTy).Contents (Elt F)),
    ternary main_v131 main_v133 main_v1 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v134 main_v135 (broadcastInDim S1600000x1 ![0] bcast_S1600000_S1600000x1_0 : (⟨S1600000, .i32⟩ : BufTy).Contents (Elt F) → (⟨S1600000x1, .i32⟩ : BufTy).Contents (Elt F)),
    binary main_v129 main_v135 main_v136 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_20 (constant S_ .f32 0x00000000#32),
    unary main_cst_20 main_v137 (broadcastInDim S50000x64 ![] bcast_S_S50000x64 : (⟨S_, .f32⟩ : BufTy).Contents (Elt F) → (⟨S50000x64, .f32⟩ : BufTy).Contents (Elt F)),
    unary main_v3 main_v138 (broadcastInDim S1600000x1 ![0] bcast_S1600000_S1600000x1_0 : (⟨S1600000, .i32⟩ : BufTy).Contents (Elt F) → (⟨S1600000x1, .i32⟩ : BufTy).Contents (Elt F)),
    ternary main_v137 main_v138 main_v136 main_v139 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v11 main_v140 (broadcastInDim S50000x1 ![0] bcast_S50000_S50000x1_0 : (⟨S50000, .f32⟩ : BufTy).Contents (Elt F) → (⟨S50000x1, .f32⟩ : BufTy).Contents (Elt F)),
    unary main_v140 main_v141 (broadcastInDim S50000x64 ![0, 1] bcast_S50000x1_S50000x64_0_1 : (⟨S50000x1, .f32⟩ : BufTy).Contents (Elt F) → (⟨S50000x64, .f32⟩ : BufTy).Contents (Elt F)),
    binary main_v139 main_v141 main_v142 (mulf : (⟨S50000x64, .f32⟩ : BufTy).Contents (Elt F) → (⟨S50000x64, .f32⟩ : BufTy).Contents (Elt F) → (⟨S50000x64, .f32⟩ : BufTy).Contents (Elt F)),
    unary main_arg5 main_v143 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v143 main_v144 rfl shapeCasts_S1x64x64_S64x64,
    unary main_v144 main_v145 ((transpose S64x64 [1, 0] · transposes_S64x64_S64x64_1_0) : (⟨S64x64, .f32⟩ : BufTy).Contents (Elt F) → (⟨S64x64, .f32⟩ : BufTy).Contents (Elt F)),
    binary main_v142 main_v145 main_v146 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v147 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v147 main_v148 rfl shapeCasts_S1x64x64_S64x64,
    unary main_v148 main_v149 ((transpose S64x64 [1, 0] · transposes_S64x64_S64x64_1_0) : (⟨S64x64, .f32⟩ : BufTy).Contents (Elt F) → (⟨S64x64, .f32⟩ : BufTy).Contents (Elt F)),
    binary main_v129 main_v149 main_v150 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v146 main_v150 main_v151 (addf : (⟨S50000x64, .f32⟩ : BufTy).Contents (Elt F) → (⟨S50000x64, .f32⟩ : BufTy).Contents (Elt F) → (⟨S50000x64, .f32⟩ : BufTy).Contents (Elt F)),
    unary main_arg7 main_v152 ((extractStridedSlice S1x64 ![2, 0] · slices_S3x64_S1x64_2_0) : (⟨S3x64, .f32⟩ : BufTy).Contents (Elt F) → (⟨S1x64, .f32⟩ : BufTy).Contents (Elt F)),
    reshape main_v152 main_v153 rfl shapeCasts_S1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v151 main_v155 main_v156 (addf : (⟨S50000x64, .f32⟩ : BufTy).Contents (Elt F) → (⟨S50000x64, .f32⟩ : BufTy).Contents (Elt F) → (⟨S50000x64, .f32⟩ : BufTy).Contents (Elt F)) ]

/-- Through the input layer's clamp. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_arg3 main_v12 ((transpose S128x64 [1, 0] · transposes_S64x128_S128x64_1_0) : (⟨S64x128, .f32⟩ : BufTy).Contents (Elt F) → (⟨S128x64, .f32⟩ : BufTy).Contents (Elt F)),
    binary main_arg0 main_v12 main_v13 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v14 (broadcastInDim S1x64 ![1] bcast_S64_S1x64_1 : (⟨S64, .f32⟩ : BufTy).Contents (Elt F) → (⟨S1x64, .f32⟩ : BufTy).Contents (Elt F)),
    unary main_v14 main_v15 (broadcastInDim S50000x64 ![0, 1] bcast_S1x64_S50000x64_0_1 : (⟨S1x64, .f32⟩ : BufTy).Contents (Elt F) → (⟨S50000x64, .f32⟩ : BufTy).Contents (Elt F)),
    binary main_v13 main_v15 main_v16 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v16) (TRef.of (T := ⟨S50000x64, .f32⟩) main_call0_v0) (TRef.of (T := ⟨S50000x64, .f32⟩) main_v17) maximumf ]

/-- The first normalised graph layer. -/
abbrev ops1 : List (HloOp τ sig (Elt F)) :=
  [ nullary main_c (constantI S_ 32 0#32),
    unary main_c main_v18 (broadcastInDim S1600000 ![] bcast_S_S1600000 : (⟨S_, .i32⟩ : BufTy).Contents (Elt F) → (⟨S1600000, .i32⟩ : BufTy).Contents (Elt F)),
    binary main_v1 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 50000#32),
    unary main_c_3 main_v20 (broadcastInDim S1600000 ![] bcast_S_S1600000 : (⟨S_, .i32⟩ : BufTy).Contents (Elt F) → (⟨S1600000, .i32⟩ : BufTy).Contents (Elt F)),
    binary main_v1 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v1 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v17 main_v23 main_v24 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_4 (constant S_ .f32 0x00000000#32),
    unary main_cst_4 main_v25 (broadcastInDim S50000x64 ![] bcast_S_S50000x64 : (⟨S_, .f32⟩ : BufTy).Contents (Elt F) → (⟨S50000x64, .f32⟩ : BufTy).Contents (Elt F)),
    unary main_v3 main_v26 (broadcastInDim S1600000x1 ![0] bcast_S1600000_S1600000x1_0 : (⟨S1600000, .i32⟩ : BufTy).Contents (Elt F) → (⟨S1600000x1, .i32⟩ : BufTy).Contents (Elt F)),
    ternary main_v25 main_v26 main_v24 main_v27 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v11 main_v28 (broadcastInDim S50000x1 ![0] bcast_S50000_S50000x1_0 : (⟨S50000, .f32⟩ : BufTy).Contents (Elt F) → (⟨S50000x1, .f32⟩ : BufTy).Contents (Elt F)),
    unary main_v28 main_v29 (broadcastInDim S50000x64 ![0, 1] bcast_S50000x1_S50000x64_0_1 : (⟨S50000x1, .f32⟩ : BufTy).Contents (Elt F) → (⟨S50000x64, .f32⟩ : BufTy).Contents (Elt F)),
    binary main_v27 main_v29 main_v30 (mulf : (⟨S50000x64, .f32⟩ : BufTy).Contents (Elt F) → (⟨S50000x64, .f32⟩ : BufTy).Contents (Elt F) → (⟨S50000x64, .f32⟩ : BufTy).Contents (Elt F)),
    unary main_arg5 main_v31 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v31 main_v32 rfl shapeCasts_S1x64x64_S64x64,
    unary main_v32 main_v33 ((transpose S64x64 [1, 0] · transposes_S64x64_S64x64_1_0) : (⟨S64x64, .f32⟩ : BufTy).Contents (Elt F) → (⟨S64x64, .f32⟩ : BufTy).Contents (Elt F)),
    binary main_v30 main_v33 main_v34 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    unary main_v36 main_v37 ((transpose S64x64 [1, 0] · transposes_S64x64_S64x64_1_0) : (⟨S64x64, .f32⟩ : BufTy).Contents (Elt F) → (⟨S64x64, .f32⟩ : BufTy).Contents (Elt F)),
    binary main_v17 main_v37 main_v38 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v34 main_v38 main_v39 (addf : (⟨S50000x64, .f32⟩ : BufTy).Contents (Elt F) → (⟨S50000x64, .f32⟩ : BufTy).Contents (Elt F) → (⟨S50000x64, .f32⟩ : BufTy).Contents (Elt F)),
    unary main_arg7 main_v40 ((extractStridedSlice S1x64 ![0, 0] · slices_S3x64_S1x64_0_0) : (⟨S3x64, .f32⟩ : BufTy).Contents (Elt F) → (⟨S1x64, .f32⟩ : BufTy).Contents (Elt F)),
    reshape main_v40 main_v41 rfl shapeCasts_S1x64_S64,
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)),
    unary main_arg8 main_v45 ((extractStridedSlice S1x64 ![0, 0] · slices_S2x64_S1x64_0_0) : (⟨S2x64, .f32⟩ : BufTy).Contents (Elt F) → (⟨S1x64, .f32⟩ : BufTy).Contents (Elt F)),
    reshape main_v45 main_v46 rfl shapeCasts_S1x64_S64,
    unary main_arg9 main_v47 ((extractStridedSlice S1x64 ![0, 0] · slices_S2x64_S1x64_0_0) : (⟨S2x64, .f32⟩ : BufTy).Contents (Elt F) → (⟨S1x64, .f32⟩ : BufTy).Contents (Elt F)),
    reshape main_v47 main_v48 rfl shapeCasts_S1x64_S64,
    nullary main_cst_5 (constant S_ .f32 0x00000000#32),
    binary main_v44 main_cst_5 main_v49 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    nullary main_cst_6 (constant S_ .f32 0x42800000#32),
    unary main_cst_6 main_v51 (broadcastInDim S50000x1 ![] bcast_S_S50000x1 : (⟨S_, .f32⟩ : BufTy).Contents (Elt F) → (⟨S50000x1, .f32⟩ : BufTy).Contents (Elt F)),
    binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    unary main_v52 main_v53 (broadcastInDim S50000x64 ![0, 1] bcast_S50000x1_S50000x64_0_1 : (⟨S50000x1, .f32⟩ : BufTy).Contents (Elt F) → (⟨S50000x64, .f32⟩ : BufTy).Contents (Elt F)),
    binary main_v44 main_v53 main_v54 (subf : (⟨S50000x64, .f32⟩ : BufTy).Contents (Elt F) → (⟨S50000x64, .f32⟩ : BufTy).Contents (Elt F) → (⟨S50000x64, .f32⟩ : BufTy).Contents (Elt F)),
    binary main_v54 main_v54 main_v55 (mulf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x00000000#32),
    binary main_v55 main_cst_7 main_v56 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v56 main_v57 (broadcastInDim S50000x1 ![0] bcast_S50000_S50000x1_0 : (⟨S50000, .f32⟩ : BufTy).Contents (Elt F) → (⟨S50000x1, .f32⟩ : BufTy).Contents (Elt F)),
    nullary main_cst_8 (constant S_ .f32 0x42800000#32),
    unary main_cst_8 main_v58 (broadcastInDim S50000x1 ![] bcast_S_S50000x1 : (⟨S_, .f32⟩ : BufTy).Contents (Elt F) → (⟨S50000x1, .f32⟩ : BufTy).Contents (Elt F)),
    binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    unary main_v52 main_v60 (broadcastInDim S50000x64 ![0, 1] bcast_S50000x1_S50000x64_0_1 : (⟨S50000x1, .f32⟩ : BufTy).Contents (Elt F) → (⟨S50000x64, .f32⟩ : BufTy).Contents (Elt F)),
    binary main_v44 main_v60 main_v61 (subf : (⟨S50000x64, .f32⟩ : BufTy).Contents (Elt F) → (⟨S50000x64, .f32⟩ : BufTy).Contents (Elt F) → (⟨S50000x64, .f32⟩ : BufTy).Contents (Elt F)),
    unary main_v46 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v63 main_v61 main_v64 (mulf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3727C5AC#32),
    unary main_cst_9 main_v65 (broadcastInDim S50000x1 ![] bcast_S_S50000x1 : (⟨S_, .f32⟩ : BufTy).Contents (Elt F) → (⟨S50000x1, .f32⟩ : BufTy).Contents (Elt F)),
    binary main_v59 main_v65 main_v66 (addf : (⟨S50000x1, .f32⟩ : BufTy).Contents (Elt F) → (⟨S50000x1, .f32⟩ : BufTy).Contents (Elt F) → (⟨S50000x1, .f32⟩ : BufTy).Contents (Elt F)),
    unary main_v66 main_v67 (Host.rsqrt : (⟨S50000x1, .f32⟩ : BufTy).Contents (Elt F) → (⟨S50000x1, .f32⟩ : BufTy).Contents (Elt F)),
    unary main_v67 main_v68 (broadcastInDim S50000x64 ![0, 1] bcast_S50000x1_S50000x64_0_1 : (⟨S50000x1, .f32⟩ : BufTy).Contents (Elt F) → (⟨S50000x64, .f32⟩ : BufTy).Contents (Elt F)),
    binary main_v64 main_v68 main_v69 (mulf : (⟨S50000x64, .f32⟩ : BufTy).Contents (Elt F) → (⟨S50000x64, .f32⟩ : BufTy).Contents (Elt F) → (⟨S50000x64, .f32⟩ : BufTy).Contents (Elt F)),
    unary main_v48 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v69 main_v71 main_v72 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v72) (TRef.of (T := ⟨S50000x64, .f32⟩) main_call1_v0) (TRef.of (T := ⟨S50000x64, .f32⟩) main_v73) maximumf ]

/-- The second normalised graph layer. -/
abbrev ops2 : List (HloOp τ sig (Elt F)) :=
  [ nullary main_c_10 (constantI S_ 32 0#32),
    unary main_c_10 main_v74 (broadcastInDim S1600000 ![] bcast_S_S1600000 : (⟨S_, .i32⟩ : BufTy).Contents (Elt F) → (⟨S1600000, .i32⟩ : BufTy).Contents (Elt F)),
    binary main_v1 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 50000#32),
    unary main_c_11 main_v76 (broadcastInDim S1600000 ![] bcast_S_S1600000 : (⟨S_, .i32⟩ : BufTy).Contents (Elt F) → (⟨S1600000, .i32⟩ : BufTy).Contents (Elt F)),
    binary main_v1 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v1 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v73 main_v79 main_v80 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_12 (constant S_ .f32 0x00000000#32),
    unary main_cst_12 main_v81 (broadcastInDim S50000x64 ![] bcast_S_S50000x64 : (⟨S_, .f32⟩ : BufTy).Contents (Elt F) → (⟨S50000x64, .f32⟩ : BufTy).Contents (Elt F)),
    unary main_v3 main_v82 (broadcastInDim S1600000x1 ![0] bcast_S1600000_S1600000x1_0 : (⟨S1600000, .i32⟩ : BufTy).Contents (Elt F) → (⟨S1600000x1, .i32⟩ : BufTy).Contents (Elt F)),
    ternary main_v81 main_v82 main_v80 main_v83 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v11 main_v84 (broadcastInDim S50000x1 ![0] bcast_S50000_S50000x1_0 : (⟨S50000, .f32⟩ : BufTy).Contents (Elt F) → (⟨S50000x1, .f32⟩ : BufTy).Contents (Elt F)),
    unary main_v84 main_v85 (broadcastInDim S50000x64 ![0, 1] bcast_S50000x1_S50000x64_0_1 : (⟨S50000x1, .f32⟩ : BufTy).Contents (Elt F) → (⟨S50000x64, .f32⟩ : BufTy).Contents (Elt F)),
    binary main_v83 main_v85 main_v86 (mulf : (⟨S50000x64, .f32⟩ : BufTy).Contents (Elt F) → (⟨S50000x64, .f32⟩ : BufTy).Contents (Elt F) → (⟨S50000x64, .f32⟩ : BufTy).Contents (Elt F)),
    unary main_arg5 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v87 main_v88 rfl shapeCasts_S1x64x64_S64x64,
    unary main_v88 main_v89 ((transpose S64x64 [1, 0] · transposes_S64x64_S64x64_1_0) : (⟨S64x64, .f32⟩ : BufTy).Contents (Elt F) → (⟨S64x64, .f32⟩ : BufTy).Contents (Elt F)),
    binary main_v86 main_v89 main_v90 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v91 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v91 main_v92 rfl shapeCasts_S1x64x64_S64x64,
    unary main_v92 main_v93 ((transpose S64x64 [1, 0] · transposes_S64x64_S64x64_1_0) : (⟨S64x64, .f32⟩ : BufTy).Contents (Elt F) → (⟨S64x64, .f32⟩ : BufTy).Contents (Elt F)),
    binary main_v73 main_v93 main_v94 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v90 main_v94 main_v95 (addf : (⟨S50000x64, .f32⟩ : BufTy).Contents (Elt F) → (⟨S50000x64, .f32⟩ : BufTy).Contents (Elt F) → (⟨S50000x64, .f32⟩ : BufTy).Contents (Elt F)),
    unary main_arg7 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    unary main_v97 main_v98 (broadcastInDim S1x64 ![1] bcast_S64_S1x64_1 : (⟨S64, .f32⟩ : BufTy).Contents (Elt F) → (⟨S1x64, .f32⟩ : BufTy).Contents (Elt F)),
    unary main_v98 main_v99 (broadcastInDim S50000x64 ![0, 1] bcast_S1x64_S50000x64_0_1 : (⟨S1x64, .f32⟩ : BufTy).Contents (Elt F) → (⟨S50000x64, .f32⟩ : BufTy).Contents (Elt F)),
    binary main_v95 main_v99 main_v100 (addf : (⟨S50000x64, .f32⟩ : BufTy).Contents (Elt F) → (⟨S50000x64, .f32⟩ : BufTy).Contents (Elt F) → (⟨S50000x64, .f32⟩ : BufTy).Contents (Elt F)),
    unary main_arg8 main_v101 ((extractStridedSlice S1x64 ![1, 0] · slices_S2x64_S1x64_1_0) : (⟨S2x64, .f32⟩ : BufTy).Contents (Elt F) → (⟨S1x64, .f32⟩ : BufTy).Contents (Elt F)),
    reshape main_v101 main_v102 rfl shapeCasts_S1x64_S64,
    unary main_arg9 main_v103 ((extractStridedSlice S1x64 ![1, 0] · slices_S2x64_S1x64_1_0) : (⟨S2x64, .f32⟩ : BufTy).Contents (Elt F) → (⟨S1x64, .f32⟩ : BufTy).Contents (Elt F)),
    reshape main_v103 main_v104 rfl shapeCasts_S1x64_S64,
    nullary main_cst_13 (constant S_ .f32 0x00000000#32),
    binary main_v100 main_cst_13 main_v105 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    nullary main_cst_14 (constant S_ .f32 0x42800000#32),
    unary main_cst_14 main_v107 (broadcastInDim S50000x1 ![] bcast_S_S50000x1 : (⟨S_, .f32⟩ : BufTy).Contents (Elt F) → (⟨S50000x1, .f32⟩ : BufTy).Contents (Elt F)),
    binary main_v106 main_v107 main_v108 (Host.divf : (⟨S50000x1, .f32⟩ : BufTy).Contents (Elt F) → (⟨S50000x1, .f32⟩ : BufTy).Contents (Elt F) → (⟨S50000x1, .f32⟩ : BufTy).Contents (Elt F)),
    unary main_v108 main_v109 (broadcastInDim S50000x64 ![0, 1] bcast_S50000x1_S50000x64_0_1 : (⟨S50000x1, .f32⟩ : BufTy).Contents (Elt F) → (⟨S50000x64, .f32⟩ : BufTy).Contents (Elt F)),
    binary main_v100 main_v109 main_v110 (subf : (⟨S50000x64, .f32⟩ : BufTy).Contents (Elt F) → (⟨S50000x64, .f32⟩ : BufTy).Contents (Elt F) → (⟨S50000x64, .f32⟩ : BufTy).Contents (Elt F)),
    binary main_v110 main_v110 main_v111 (mulf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x00000000#32),
    binary main_v111 main_cst_15 main_v112 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v112 main_v113 (broadcastInDim S50000x1 ![0] bcast_S50000_S50000x1_0 : (⟨S50000, .f32⟩ : BufTy).Contents (Elt F) → (⟨S50000x1, .f32⟩ : BufTy).Contents (Elt F)),
    nullary main_cst_16 (constant S_ .f32 0x42800000#32),
    unary main_cst_16 main_v114 (broadcastInDim S50000x1 ![] bcast_S_S50000x1 : (⟨S_, .f32⟩ : BufTy).Contents (Elt F) → (⟨S50000x1, .f32⟩ : BufTy).Contents (Elt F)),
    binary main_v113 main_v114 main_v115 (Host.divf : (⟨S50000x1, .f32⟩ : BufTy).Contents (Elt F) → (⟨S50000x1, .f32⟩ : BufTy).Contents (Elt F) → (⟨S50000x1, .f32⟩ : BufTy).Contents (Elt F)),
    unary main_v108 main_v116 (broadcastInDim S50000x64 ![0, 1] bcast_S50000x1_S50000x64_0_1 : (⟨S50000x1, .f32⟩ : BufTy).Contents (Elt F) → (⟨S50000x64, .f32⟩ : BufTy).Contents (Elt F)),
    binary main_v100 main_v116 main_v117 (subf : (⟨S50000x64, .f32⟩ : BufTy).Contents (Elt F) → (⟨S50000x64, .f32⟩ : BufTy).Contents (Elt F) → (⟨S50000x64, .f32⟩ : BufTy).Contents (Elt F)),
    unary main_v102 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v119 main_v117 main_v120 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x3727C5AC#32),
    unary main_cst_17 main_v121 (broadcastInDim S50000x1 ![] bcast_S_S50000x1 : (⟨S_, .f32⟩ : BufTy).Contents (Elt F) → (⟨S50000x1, .f32⟩ : BufTy).Contents (Elt F)),
    binary main_v115 main_v121 main_v122 (addf : (⟨S50000x1, .f32⟩ : BufTy).Contents (Elt F) → (⟨S50000x1, .f32⟩ : BufTy).Contents (Elt F) → (⟨S50000x1, .f32⟩ : BufTy).Contents (Elt F)),
    unary main_v122 main_v123 (Host.rsqrt : (⟨S50000x1, .f32⟩ : BufTy).Contents (Elt F) → (⟨S50000x1, .f32⟩ : BufTy).Contents (Elt F)),
    unary main_v123 main_v124 (broadcastInDim S50000x64 ![0, 1] bcast_S50000x1_S50000x64_0_1 : (⟨S50000x1, .f32⟩ : BufTy).Contents (Elt F) → (⟨S50000x64, .f32⟩ : BufTy).Contents (Elt F)),
    binary main_v120 main_v124 main_v125 (mulf : (⟨S50000x64, .f32⟩ : BufTy).Contents (Elt F) → (⟨S50000x64, .f32⟩ : BufTy).Contents (Elt F) → (⟨S50000x64, .f32⟩ : BufTy).Contents (Elt F)),
    unary main_v104 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v125 main_v127 main_v128 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v128) (TRef.of (T := ⟨S50000x64, .f32⟩) main_call2_v0) (TRef.of (T := ⟨S50000x64, .f32⟩) main_v129) maximumf ]

/-- The last graph layer. -/
abbrev ops3 : List (HloOp τ sig (Elt F)) :=
  [ nullary main_c_18 (constantI S_ 32 0#32),
    unary main_c_18 main_v130 (broadcastInDim S1600000 ![] bcast_S_S1600000 : (⟨S_, .i32⟩ : BufTy).Contents (Elt F) → (⟨S1600000, .i32⟩ : BufTy).Contents (Elt F)),
    binary main_v1 main_v130 main_v131 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 50000#32),
    unary main_c_19 main_v132 (broadcastInDim S1600000 ![] bcast_S_S1600000 : (⟨S_, .i32⟩ : BufTy).Contents (Elt F) → (⟨S1600000, .i32⟩ : BufTy).Contents (Elt F)),
    binary main_v1 main_v132 main_v133 (addi : (⟨S1600000, .i32⟩ : BufTy).Contents (Elt F) → (⟨S1600000, .i32⟩ : BufTy).Contents (Elt F) → (⟨S1600000, .i32⟩ : BufTy).Contents (Elt F)),
    ternary main_v131 main_v133 main_v1 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v134 main_v135 (broadcastInDim S1600000x1 ![0] bcast_S1600000_S1600000x1_0 : (⟨S1600000, .i32⟩ : BufTy).Contents (Elt F) → (⟨S1600000x1, .i32⟩ : BufTy).Contents (Elt F)),
    binary main_v129 main_v135 main_v136 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_cst_20 (constant S_ .f32 0x00000000#32),
    unary main_cst_20 main_v137 (broadcastInDim S50000x64 ![] bcast_S_S50000x64 : (⟨S_, .f32⟩ : BufTy).Contents (Elt F) → (⟨S50000x64, .f32⟩ : BufTy).Contents (Elt F)),
    unary main_v3 main_v138 (broadcastInDim S1600000x1 ![0] bcast_S1600000_S1600000x1_0 : (⟨S1600000, .i32⟩ : BufTy).Contents (Elt F) → (⟨S1600000x1, .i32⟩ : BufTy).Contents (Elt F)),
    ternary main_v137 main_v138 main_v136 main_v139 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v11 main_v140 (broadcastInDim S50000x1 ![0] bcast_S50000_S50000x1_0 : (⟨S50000, .f32⟩ : BufTy).Contents (Elt F) → (⟨S50000x1, .f32⟩ : BufTy).Contents (Elt F)),
    unary main_v140 main_v141 (broadcastInDim S50000x64 ![0, 1] bcast_S50000x1_S50000x64_0_1 : (⟨S50000x1, .f32⟩ : BufTy).Contents (Elt F) → (⟨S50000x64, .f32⟩ : BufTy).Contents (Elt F)),
    binary main_v139 main_v141 main_v142 (mulf : (⟨S50000x64, .f32⟩ : BufTy).Contents (Elt F) → (⟨S50000x64, .f32⟩ : BufTy).Contents (Elt F) → (⟨S50000x64, .f32⟩ : BufTy).Contents (Elt F)),
    unary main_arg5 main_v143 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v143 main_v144 rfl shapeCasts_S1x64x64_S64x64,
    unary main_v144 main_v145 ((transpose S64x64 [1, 0] · transposes_S64x64_S64x64_1_0) : (⟨S64x64, .f32⟩ : BufTy).Contents (Elt F) → (⟨S64x64, .f32⟩ : BufTy).Contents (Elt F)),
    binary main_v142 main_v145 main_v146 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v147 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v147 main_v148 rfl shapeCasts_S1x64x64_S64x64,
    unary main_v148 main_v149 ((transpose S64x64 [1, 0] · transposes_S64x64_S64x64_1_0) : (⟨S64x64, .f32⟩ : BufTy).Contents (Elt F) → (⟨S64x64, .f32⟩ : BufTy).Contents (Elt F)),
    binary main_v129 main_v149 main_v150 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v146 main_v150 main_v151 (addf : (⟨S50000x64, .f32⟩ : BufTy).Contents (Elt F) → (⟨S50000x64, .f32⟩ : BufTy).Contents (Elt F) → (⟨S50000x64, .f32⟩ : BufTy).Contents (Elt F)),
    unary main_arg7 main_v152 ((extractStridedSlice S1x64 ![2, 0] · slices_S3x64_S1x64_2_0) : (⟨S3x64, .f32⟩ : BufTy).Contents (Elt F) → (⟨S1x64, .f32⟩ : BufTy).Contents (Elt F)),
    reshape main_v152 main_v153 rfl shapeCasts_S1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v151 main_v155 main_v156 (addf : (⟨S50000x64, .f32⟩ : BufTy).Contents (Elt F) → (⟨S50000x64, .f32⟩ : BufTy).Contents (Elt F) → (⟨S50000x64, .f32⟩ : BufTy).Contents (Elt F)) ]

theorem ops_split : (ops : List (HloOp τ sig (Elt F))) = ops0 ++ (ops1 ++ (ops2 ++ ops3)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub ..⟩

/-- Two lines one after the other: the second run from what the first leaves. -/
theorem after_concat (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each stretch writes -/

local macro "writes_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

abbrev W0 : List (Ref sig .tc) := [main_v0, main_v1, main_v2, main_v3, main_cst, main_v4, main_cst_0, main_v5, main_v6, main_v7, main_cst_1, main_v8, main_v9, main_cst_2, main_v10, main_v11, main_v12, main_v13, main_v14, main_v15, main_v16, main_call0_cst, main_call0_v0, main_v17]
theorem ops0_writes : (ops0 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;> writes_one

abbrev W1 : List (Ref sig .tc) := [main_c, main_v18, main_v19, main_c_3, main_v20, main_v21, main_v22, main_v23, main_v24, main_cst_4, main_v25, main_v26, main_v27, main_v28, main_v29, main_v30, main_v31, main_v32, main_v33, main_v34, main_v35, main_v36, main_v37, main_v38, main_v39, main_v40, main_v41, main_v42, main_v43, main_v44, main_v45, main_v46, main_v47, main_v48, main_cst_5, main_v49, main_v50, main_cst_6, main_v51, main_v52, main_v53, main_v54, main_v55, main_cst_7, main_v56, main_v57, main_cst_8, main_v58, main_v59, main_v60, main_v61, main_v62, main_v63, main_v64, main_cst_9, main_v65, main_v66, main_v67, main_v68, main_v69, main_v70, main_v71, main_v72, main_call1_cst, main_call1_v0, main_v73]
theorem ops1_writes : (ops1 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

abbrev W2 : List (Ref sig .tc) := [main_c_10, main_v74, main_v75, main_c_11, main_v76, main_v77, main_v78, main_v79, main_v80, main_cst_12, main_v81, main_v82, main_v83, main_v84, main_v85, main_v86, main_v87, main_v88, main_v89, main_v90, main_v91, main_v92, main_v93, main_v94, main_v95, main_v96, main_v97, main_v98, main_v99, main_v100, main_v101, main_v102, main_v103, main_v104, main_cst_13, main_v105, main_v106, main_cst_14, main_v107, main_v108, main_v109, main_v110, main_v111, main_cst_15, main_v112, main_v113, main_cst_16, main_v114, main_v115, main_v116, main_v117, main_v118, main_v119, main_v120, main_cst_17, main_v121, main_v122, main_v123, main_v124, main_v125, main_v126, main_v127, main_v128, main_call2_cst, main_call2_v0, main_v129]
theorem ops2_writes : (ops2 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

abbrev W3 : List (Ref sig .tc) := [main_c_18, main_v130, main_v131, main_c_19, main_v132, main_v133, main_v134, main_v135, main_v136, main_cst_20, main_v137, main_v138, main_v139, main_v140, main_v141, main_v142, main_v143, main_v144, main_v145, main_v146, main_v147, main_v148, main_v149, main_v150, main_v151, main_v152, main_v153, main_v154, main_v155, main_v156]
theorem ops3_writes : (ops3 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one

/-! ## The buffers after each stretch -/

variable (m : (ℓ : Loc nD τ sig) → Buf (Elt Ideal) ℓ) (c : Dev nD)

/-- After the input layer. -/
def V1 : Valuation τ sig (Elt Ideal) := after (ops0 (F := Ideal)) (launchContents m c)
/-- After the first normalised graph layer. -/
def V2 : Valuation τ sig (Elt Ideal) := after (ops1 (F := Ideal)) (V1 m c)
/-- After the second. -/
def V3 : Valuation τ sig (Elt Ideal) := after (ops2 (F := Ideal)) (V2 m c)
/-- After the whole line. -/
def V4 : Valuation τ sig (Elt Ideal) := after (ops3 (F := Ideal)) (V3 m c)

theorem after_ops : after (ops (F := Ideal)) (launchContents m c) = V4 m c := by
  rw [ops_split, after_concat, after_concat, after_concat]; rfl

theorem V1_keep (r : Ref sig .tc) (h : r ∉ W0) : V1 m c (Proc.devRef .tc r) = m ((c.tc : Thread nD τ).loc r) :=
  after_of_writes_sub ops0 _ ops0_writes h
theorem V2_keep (r : Ref sig .tc) (h : r ∉ W1) : V2 m c (Proc.devRef .tc r) = V1 m c (Proc.devRef .tc r) :=
  after_of_writes_sub ops1 _ ops1_writes h
theorem V3_keep (r : Ref sig .tc) (h : r ∉ W2) : V3 m c (Proc.devRef .tc r) = V2 m c (Proc.devRef .tc r) :=
  after_of_writes_sub ops2 _ ops2_writes h
theorem V4_keep (r : Ref sig .tc) (h : r ∉ W3) : V4 m c (Proc.devRef .tc r) = V3 m c (Proc.devRef .tc r) :=
  after_of_writes_sub ops3 _ ops3_writes h

/-- A reference no stretch writes ends as launched. -/
theorem V4_launch (r : Ref sig .tc) (h0 : r ∉ W0) (h1 : r ∉ W1) (h2 : r ∉ W2) (h3 : r ∉ W3) :
    V4 m c (Proc.devRef .tc r) = m ((c.tc : Thread nD τ).loc r) :=
  (V4_keep m c r h3).trans ((V3_keep m c r h2).trans ((V2_keep m c r h1).trans (V1_keep m c r h0)))

/-! ## The first stretch: the edge list's rows, the inverse degrees, the input layer -/

theorem V1_src : V1 m c (Proc.devRef .tc main_v1) = Cert.RefValue.src (m ((c.tc : Thread nD τ).loc main_arg1)) := by
  show after (ops0 (F := Ideal)) (launchContents m c) (Proc.devRef .tc main_v1) = _
  after_results_simp <;> rfl
theorem V1_dst : V1 m c (Proc.devRef .tc main_v3) = Cert.RefValue.dst (m ((c.tc : Thread nD τ).loc main_arg1)) := by
  show after (ops0 (F := Ideal)) (launchContents m c) (Proc.devRef .tc main_v3) = _
  after_results_simp <;> rfl
theorem V1_invDeg : V1 m c (Proc.devRef .tc main_v11) = Cert.RefValue.invDeg (m ((c.tc : Thread nD τ).loc main_arg1)) := by
  show after (ops0 (F := Ideal)) (launchContents m c) (Proc.devRef .tc main_v11) = _
  after_results_simp <;> rfl
theorem V1_rows : V1 m c (Proc.devRef .tc main_v17)
    = Cert.RefValue.fcOp (m ((c.tc : Thread nD τ).loc main_arg0)) (m ((c.tc : Thread nD τ).loc main_arg3)) (m ((c.tc : Thread nD τ).loc main_arg4)) := by
  show after (ops0 (F := Ideal)) (launchContents m c) (Proc.devRef .tc main_v17) = _
  after_results_simp <;> rfl

/-! ## The second stretch -/

theorem V2_src : V2 m c (Proc.devRef .tc main_v1) = Cert.RefValue.src (m ((c.tc : Thread nD τ).loc main_arg1)) := (V2_keep m c main_v1 (by decide)).trans (V1_src m c)
theorem V2_dst : V2 m c (Proc.devRef .tc main_v3) = Cert.RefValue.dst (m ((c.tc : Thread nD τ).loc main_arg1)) := (V2_keep m c main_v3 (by decide)).trans (V1_dst m c)
theorem V2_invDeg : V2 m c (Proc.devRef .tc main_v11) = Cert.RefValue.invDeg (m ((c.tc : Thread nD τ).loc main_arg1)) := (V2_keep m c main_v11 (by decide)).trans (V1_invDeg m c)

set_option maxHeartbeats 4000000 in
theorem V2_rows : V2 m c (Proc.devRef .tc main_v73) = Cert.RefValue.h1Op (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after (ops1 (F := Ideal)) (V1 m c) (Proc.devRef .tc main_v73) = _
  after_results_simp
  rw [V1_src, V1_dst, V1_invDeg, V1_rows, V1_keep m c main_arg5 (by decide), V1_keep m c main_arg6 (by decide),
    V1_keep m c main_arg7 (by decide), V1_keep m c main_arg8 (by decide), V1_keep m c main_arg9 (by decide)]
  rfl

/-! ## The third stretch -/

theorem V3_src : V3 m c (Proc.devRef .tc main_v1) = Cert.RefValue.src (m ((c.tc : Thread nD τ).loc main_arg1)) := (V3_keep m c main_v1 (by decide)).trans (V2_src m c)
theorem V3_dst : V3 m c (Proc.devRef .tc main_v3) = Cert.RefValue.dst (m ((c.tc : Thread nD τ).loc main_arg1)) := (V3_keep m c main_v3 (by decide)).trans (V2_dst m c)
theorem V3_invDeg : V3 m c (Proc.devRef .tc main_v11) = Cert.RefValue.invDeg (m ((c.tc : Thread nD τ).loc main_arg1)) := (V3_keep m c main_v11 (by decide)).trans (V2_invDeg m c)
theorem V2_arg (r : Ref sig .tc) (h0 : r ∉ W0) (h1 : r ∉ W1) : V2 m c (Proc.devRef .tc r) = m ((c.tc : Thread nD τ).loc r) :=
  (V2_keep m c r h1).trans (V1_keep m c r h0)
theorem V3_arg (r : Ref sig .tc) (h0 : r ∉ W0) (h1 : r ∉ W1) (h2 : r ∉ W2) : V3 m c (Proc.devRef .tc r) = m ((c.tc : Thread nD τ).loc r) :=
  (V3_keep m c r h2).trans (V2_arg m c r h0 h1)

set_option maxHeartbeats 4000000 in
theorem V3_rows : V3 m c (Proc.devRef .tc main_v129) = Cert.RefValue.h2Op (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after (ops2 (F := Ideal)) (V2 m c) (Proc.devRef .tc main_v129) = _
  after_results_simp
  rw [V2_src, V2_dst, V2_invDeg, V2_rows, V2_arg m c main_arg5 (by decide) (by decide), V2_arg m c main_arg6 (by decide) (by decide),
    V2_arg m c main_arg7 (by decide) (by decide), V2_arg m c main_arg8 (by decide) (by decide), V2_arg m c main_arg9 (by decide) (by decide)]
  rfl

/-! ## The last stretch: the result -/

set_option maxHeartbeats 4000000 in
theorem V4_result : V4 m c (Proc.devRef .tc main_v156) = Cert.RefValue.netOp (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after (ops3 (F := Ideal)) (V3 m c) (Proc.devRef .tc main_v156) = _
  after_results_simp
  rw [V3_src, V3_dst, V3_invDeg, V3_rows, V3_arg m c main_arg5 (by decide) (by decide) (by decide),
    V3_arg m c main_arg6 (by decide) (by decide) (by decide), V3_arg m c main_arg7 (by decide) (by decide) (by decide)]
  rfl

/-! ## The run -/

/-- On every device, from any memory with zero counters: every weakly fair execution of @main terminates with the result
    at the staged network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v156) = Cert.RefValue.netOp (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v156).trans ((congrFun (after_ops m c) _).trans (V4_result m c)),
      (h c main_arg0).trans ((congrFun (after_ops m c) _).trans (V4_launch m c main_arg0 (by decide) (by decide) (by decide) (by decide))),
      (h c main_arg1).trans ((congrFun (after_ops m c) _).trans (V4_launch m c main_arg1 (by decide) (by decide) (by decide) (by decide))),
      (h c main_arg2).trans ((congrFun (after_ops m c) _).trans (V4_launch m c main_arg2 (by decide) (by decide) (by decide) (by decide))),
      (h c main_arg3).trans ((congrFun (after_ops m c) _).trans (V4_launch m c main_arg3 (by decide) (by decide) (by decide) (by decide))),
      (h c main_arg4).trans ((congrFun (after_ops m c) _).trans (V4_launch m c main_arg4 (by decide) (by decide) (by decide) (by decide))),
      (h c main_arg5).trans ((congrFun (after_ops m c) _).trans (V4_launch m c main_arg5 (by decide) (by decide) (by decide) (by decide))),
      (h c main_arg6).trans ((congrFun (after_ops m c) _).trans (V4_launch m c main_arg6 (by decide) (by decide) (by decide) (by decide))),
      (h c main_arg7).trans ((congrFun (after_ops m c) _).trans (V4_launch m c main_arg7 (by decide) (by decide) (by decide) (by decide))),
      (h c main_arg8).trans ((congrFun (after_ops m c) _).trans (V4_launch m c main_arg8 (by decide) (by decide) (by decide) (by decide))),
      (h c main_arg9).trans ((congrFun (after_ops m c) _).trans (V4_launch m c main_arg9 (by decide) (by decide) (by decide) (by decide)))⟩)
    (run_seq scopedRefs_eq scopedSems_eq defs main (fun _ => ops) main_eq (fun _ => ops_sub) m ρ)

end Cert.ReferenceIdeal.RunH

end
-- ==== Proof.lean ====
/-
  The certificate. The two printed kernel programs run to the end from any launch memory and leave their arguments
  as they were: @main is four host stretches and four pipelined regions, each region's body an exact step of its
  pipeline. The reference runs likewise, its operations being pure. The idealized kernel rewrites nothing, so it is
  the kernel's own text read over the extended reals. And over the extended reals the two programs end with the same
  array: both compute, row by row, the dense layer of the node features followed by three graph layers — the first
  two normalised — each fed the same mean aggregation of the rows before it; a block of 5000 rows of a matrix
  product is the same 5000 rows of the whole product, and a sum started at the zero word is the sum.
-/
import proofs.«176669_j55628416418297_1_alg».proof.Defs
import proofs.«176669_j55628416418297_1_alg».proof.Proof.Gen.Kernel
import proofs.«176669_j55628416418297_1_alg».proof.Proof.Gen.KernelIdeal
import proofs.«176669_j55628416418297_1_alg».proof.Proof.Gen.ReferenceIdeal
import proofs.«176669_j55628416418297_1_alg».proof.Proof.Gen.Pre_finite_inputs
import proofs.«176669_j55628416418297_1_alg».proof.Proof.KB.Run
import proofs.«176669_j55628416418297_1_alg».proof.Proof.KI.Run
import proofs.«176669_j55628416418297_1_alg».proof.Proof.KI.Final
import proofs.«176669_j55628416418297_1_alg».proof.Proof.RefValue
import proofs.«176669_j55628416418297_1_alg».proof.Proof.RefRunH
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Fr.frame m ρ

/-- So does the kernel read over the extended reals. -/
theorem frame_ki : Cert.frame_KernelIdeal := fun m ρ _ => Cert.KernelIdeal.Fr.frame m ρ

/-- So does the reference: its run with the result dropped. -/
theorem frame_ri : Cert.frame_ReferenceIdeal := fun m ρ _ =>
  (θ_run Cert.ReferenceIdeal.defs _ _).mono (fun _ h c => (h c).2) (Cert.ReferenceIdeal.RunH.run m ρ)

/-- From memories that agree on the arguments both programs end holding the network of the arguments. -/
theorem algebraic : Cert.algebraic_KernelIdeal_ReferenceIdeal := by
  intro m ρ m' ρ' _ hagree
  refine ⟨fun c => Cert.Spec.net (Cert.RefValue.agg (m ((c.tc : Thread Cert.KernelIdeal.nD Cert.KernelIdeal.τ).loc Cert.KernelIdeal.main_arg1)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (Cert.RefValue.wl0 (m ((c.tc : Thread Cert.KernelIdeal.nD Cert.KernelIdeal.τ).loc Cert.KernelIdeal.main_arg5))) (Cert.RefValue.wr0 (m ((c.tc : Thread Cert.KernelIdeal.nD Cert.KernelIdeal.τ).loc Cert.KernelIdeal.main_arg6)))
          (Cert.RefValue.lb0 (m ((c.tc : Thread Cert.KernelIdeal.nD Cert.KernelIdeal.τ).loc Cert.KernelIdeal.main_arg7))) (Cert.RefValue.g0 (m ((c.tc : Thread Cert.KernelIdeal.nD Cert.KernelIdeal.τ).loc Cert.KernelIdeal.main_arg8)))
          (Cert.RefValue.nb0 (m ((c.tc : Thread Cert.KernelIdeal.nD Cert.KernelIdeal.τ).loc Cert.KernelIdeal.main_arg9)))
          (Cert.RefValue.wl1 (m ((c.tc : Thread Cert.KernelIdeal.nD Cert.KernelIdeal.τ).loc Cert.KernelIdeal.main_arg5))) (Cert.RefValue.wr1 (m ((c.tc : Thread Cert.KernelIdeal.nD Cert.KernelIdeal.τ).loc Cert.KernelIdeal.main_arg6)))
          (Cert.RefValue.lb1 (m ((c.tc : Thread Cert.KernelIdeal.nD Cert.KernelIdeal.τ).loc Cert.KernelIdeal.main_arg7))) (Cert.RefValue.g1 (m ((c.tc : Thread Cert.KernelIdeal.nD Cert.KernelIdeal.τ).loc Cert.KernelIdeal.main_arg8)))
          (Cert.RefValue.nb1 (m ((c.tc : Thread Cert.KernelIdeal.nD Cert.KernelIdeal.τ).loc Cert.KernelIdeal.main_arg9)))
          (Cert.RefValue.wl2 (m ((c.tc : Thread Cert.KernelIdeal.nD Cert.KernelIdeal.τ).loc Cert.KernelIdeal.main_arg5))) (Cert.RefValue.wr2 (m ((c.tc : Thread Cert.KernelIdeal.nD Cert.KernelIdeal.τ).loc Cert.KernelIdeal.main_arg6)))
          (Cert.RefValue.lb2 (m ((c.tc : Thread Cert.KernelIdeal.nD Cert.KernelIdeal.τ).loc Cert.KernelIdeal.main_arg7))), ?_, ?_⟩
  · exact (θ_run Cert.KernelIdeal.defs _ _).mono (fun r h c => ⟨(h c).1.trans (Cert.KernelIdeal.Fr.o8_eq m c), (h c).2⟩)
      (Cert.KernelIdeal.Fr.run_value m ρ)
  · refine (θ_run Cert.ReferenceIdeal.defs _ _).mono (fun _ h c => ⟨(h c).1.trans ?_, (h c).2⟩)
      (Cert.ReferenceIdeal.RunH.run m' ρ')
    obtain ⟨h0, h1, h2, h3, h4, h5, h6, h7, h8, h9⟩ := hagree c
    rw [Cert.RefValue.netOp_eq, h0, h1, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
